-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v102)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v102) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v125) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x1600000 : Shape := ⟨2, ![2, 1600000]⟩
abbrev S1600000 : Shape := ⟨1, ![1600000]⟩
abbrev S128x256 : Shape := ⟨2, ![128, 256]⟩
abbrev S128 : Shape := ⟨1, ![128]⟩
abbrev S64x128 : Shape := ⟨2, ![64, 128]⟩
abbrev S64 : Shape := ⟨1, ![64]⟩
abbrev S64x64 : Shape := ⟨2, ![64, 64]⟩
abbrev S128x64 : Shape := ⟨2, ![128, 64]⟩
abbrev S256x128 : Shape := ⟨2, ![256, 128]⟩
abbrev S256 : Shape := ⟨1, ![256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S128x64 : S_.BroadcastsInDim S128x64 (![] : Fin 0 → Fin S128x64.rank)
  reducesTo_S128x64_S_d0_1 : S128x64.ReducesTo [0, 1] S_
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S128 .f32) (main_arg13 : FVec F S256x128 .f32) (main_arg14 : FVec F S256 .f32) (main_v48 : IVec S_ 1) (main_v49 : FVec F S128x64 .f32) (main_v50 : FVec F S128x64 .f32) : IVec S_ 1 :=
  let main_v51 : IVec S128x64 1 := cmpf .olt main_v49 main_v50
  let main_c_19 : IVec S_ 1 := constantI S_ 1 1#1
  let main_v52 : IVec S_ 1 := (fun x v => Host.reduce IntOp.andi x v reducesTo_S128x64_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S256x128 .f32 := Host.absf main_arg13
  let main_cst_22 : FVec F S_ .f32 := constant S_ .f32 0x7F800000#32
  let main_v60 : FVec F S256x128 .f32 := broadcastInDim S256x128 ![] bcast_S_S256x128 main_cst_22
  let main_v61 : IVec S256x128 1 := cmpf .olt main_v59 main_v60
  let main_c_23 : IVec S_ 1 := constantI S_ 1 1#1
  let main_v62 : IVec S_ 1 := (fun x v => Host.reduce IntOp.andi x v reducesTo_S256x128_S_d0_1 h_S_) main_v61 main_c_23
  let main_v63 : IVec S_ 1 := andi main_v58 main_v62
  let main_v64 : FVec F S256 .f32 := Host.absf main_arg14
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_v63 main_v67

def fn_part2 {F : FTy → Type} [FloatOps F] (main_arg8 : FVec F S64 .f32) (main_arg9 : FVec F S64x64 .f32) (main_arg10 : FVec F S64 .f32) (main_arg11 : FVec F S128x64 .f32) (main_arg12 : FVec F S128 .f32) (main_arg13 : FVec F S256x128 .f32) (main_arg14 : FVec F S256 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg9
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S128x64 .f32 := Host.absf main_arg11
  let main_cst_18 : FVec F S_ .f32 := constant S_ .f32 0x7F800000#32
  let main_v50 : FVec F S128x64 .f32 := broadcastInDim S128x64 ![] bcast_S_S128x64 main_cst_18
  fn_part3 (F := F) main_arg12 main_arg13 main_arg14 main_v48 main_v49 main_v50

def fn_part1 {F : FTy → Type} [FloatOps F] (main_arg5 : FVec F S64x128 .f32) (main_arg6 : FVec F S64 .f32) (main_arg7 : FVec F S64x64 .f32) (main_arg8 : FVec F S64 .f32) (main_arg9 : FVec F S64x64 .f32) (main_arg10 : FVec F S64 .f32) (main_arg11 : FVec F S128x64 .f32) (main_arg12 : FVec F S128 .f32) (main_arg13 : FVec F S256x128 .f32) (main_arg14 : FVec F S256 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S64x128 .f32 := Host.absf main_arg5
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S50000x256 .f32) (main_arg1 : IVec S2x1600000 32) (main_arg2 : FVec F S1600000 .f32) (main_arg3 : FVec F S128x256 .f32) (main_arg4 : FVec F S128 .f32) (main_arg5 : FVec F S64x128 .f32) (main_arg6 : FVec F S64 .f32) (main_arg7 : FVec F S64x64 .f32) (main_arg8 : FVec F S64 .f32) (main_arg9 : FVec F S64x64 .f32) (main_arg10 : FVec F S64 .f32) (main_arg11 : FVec F S128x64 .f32) (main_arg12 : FVec F S128 .f32) (main_arg13 : FVec F S256x128 .f32) (main_arg14 : FVec F S256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x256 .f32 := Host.absf main_arg3
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_v13 main_v16
-- ==== Kernel.lean ====
abbrev S50000x256 : Shape := ⟨2, ![50000, 256]⟩
abbrev S2x1600000 : Shape := ⟨2, ![2, 1600000]⟩
abbrev S1600000 : Shape := ⟨1, ![1600000]⟩
abbrev S128x256 : Shape := ⟨2, ![128, 256]⟩
abbrev S128 : Shape := ⟨1, ![128]⟩
abbrev S64x128 : Shape := ⟨2, ![64, 128]⟩
abbrev S64 : Shape := ⟨1, ![64]⟩
abbrev S64x64 : Shape := ⟨2, ![64, 64]⟩
abbrev S128x64 : Shape := ⟨2, ![128, 64]⟩
abbrev S256x128 : Shape := ⟨2, ![256, 128]⟩
abbrev S256 : Shape := ⟨1, ![256]⟩
abbrev S50000 : Shape := ⟨1, ![50000]⟩
abbrev S1x1600000 : Shape := ⟨2, ![1, 1600000]⟩
abbrev S1650000 : Shape := ⟨1, ![1650000]⟩
abbrev S_ : Shape := ⟨0, ![]⟩
abbrev S1x128 : Shape := ⟨2, ![1, 128]⟩
abbrev S50000x128 : Shape := ⟨2, ![50000, 128]⟩
abbrev S5000x256 : Shape := ⟨2, ![5000, 256]⟩
abbrev S5000x128 : Shape := ⟨2, ![5000, 128]⟩
abbrev S1x64 : Shape := ⟨2, ![1, 64]⟩
abbrev S50000x64 : Shape := ⟨2, ![50000, 64]⟩
abbrev S5000x64 : Shape := ⟨2, ![5000, 64]⟩
abbrev S1650000x1 : Shape := ⟨2, ![1650000, 1]⟩
abbrev S1650000x64 : Shape := ⟨2, ![1650000, 64]⟩
abbrev S1x256 : Shape := ⟨2, ![1, 256]⟩

abbrev nBuf : Space → Nat
  | .hbm => 147
  | .vmem => 46
  | .smem => 0
  | _ => 0

abbrev hbmTy0_0 (i : Nat) : BufTy := match i % 128 with
  | 0 => ⟨S50000x256, .f32⟩
  | 1 => ⟨S2x1600000, .i32⟩
  | 2 => ⟨S1600000, .f32⟩
  | 3 => ⟨S128x256, .f32⟩
  | 4 => ⟨S128, .f32⟩
  | 5 => ⟨S64x128, .f32⟩
  | 6 => ⟨S64, .f32⟩
  | 7 => ⟨S64x64, .f32⟩
  | 8 => ⟨S64, .f32⟩
  | 9 => ⟨S64x64, .f32⟩
  | 10 => ⟨S64, .f32⟩
  | 11 => ⟨S128x64, .f32⟩
  | 12 => ⟨S128, .f32⟩
  | 13 => ⟨S256x128, .f32⟩
  | 14 => ⟨S256, .f32⟩
  | 15 => ⟨S50000, .i32⟩
  | 16 => ⟨S1x1600000, .i32⟩
  | 17 => ⟨S1600000, .i32⟩
  | 18 => ⟨S1650000, .i32⟩
  | 19 => ⟨S1x1600000, .i32⟩
  | 20 => ⟨S1600000, .i32⟩
  | 21 => ⟨S1650000, .i32⟩
  | 22 => ⟨S_, .f32⟩
  | 23 => ⟨S50000, .f32⟩
  | 24 => ⟨S1650000, .f32⟩
  | 25 => ⟨S1x128, .f32⟩
  | 26 => ⟨S50000x128, .f32⟩
  | 27 => ⟨S1x64, .f32⟩
  | 28 => ⟨S50000x64, .f32⟩
  | 29 => ⟨S_, .f32⟩
  | 30 => ⟨S64, .f32⟩
  | 31 => ⟨S1x64, .f32⟩
  | 32 => ⟨S50000x64, .f32⟩
  | 33 => ⟨S_, .f32⟩
  | 34 => ⟨S50000, .f32⟩
  | 35 => ⟨S1650000x1, .i32⟩
  | 36 => ⟨S50000, .f32⟩
  | 37 => ⟨S_, .f32⟩
  | 38 => ⟨S50000, .f32⟩
  | 39 => ⟨S50000, .i1⟩
  | 40 => ⟨S_, .f32⟩
  | 41 => ⟨S50000, .f32⟩
  | 42 => ⟨S50000, .f32⟩
  | 43 => ⟨S50000, .f32⟩
  | 44 => ⟨S_, .f32⟩
  | 45 => ⟨S_, .f32⟩
  | 46 => ⟨S50000, .f32⟩
  | 47 => ⟨S50000, .f32⟩
  | 48 => ⟨S_, .i32⟩
  | 49 => ⟨S1650000, .i32⟩
  | 50 => ⟨S1650000, .i1⟩
  | 51 => ⟨S_, .i32⟩
  | 52 => ⟨S1650000, .i32⟩
  | 53 => ⟨S1650000, .i32⟩
  | 54 => ⟨S1650000, .i32⟩
  | 55 => ⟨S1650000x1, .i32⟩
  | 56 => ⟨S1650000, .f32⟩
  | 57 => ⟨S1650000, .f32⟩
  | 58 => ⟨S_, .i32⟩
  | 59 => ⟨S1650000, .i32⟩
  | 60 => ⟨S1650000, .i1⟩
  | 61 => ⟨S_, .i32⟩
  | 62 => ⟨S1650000, .i32⟩
  | 63 => ⟨S1650000, .i32⟩
  | 64 => ⟨S1650000, .i32⟩
  | 65 => ⟨S1650000x1, .i32⟩
  | 66 => ⟨S1650000, .f32⟩
  | 67 => ⟨S1650000, .f32⟩
  | 68 => ⟨S_, .i32⟩
  | 69 => ⟨S1650000, .i32⟩
  | 70 => ⟨S1650000, .i1⟩
  | 71 => ⟨S_, .i32⟩
  | 72 => ⟨S1650000, .i32⟩
  | 73 => ⟨S1650000, .i32⟩
  | 74 => ⟨S1650000, .i32⟩
  | 75 => ⟨S1650000x1, .i32⟩
  | 76 => ⟨S1650000x64, .f32⟩
  | 77 => ⟨S1650000x1, .f32⟩
  | 78 => ⟨S1650000x64, .f32⟩
  | 79 => ⟨S1650000x64, .f32⟩
  | 80 => ⟨S_, .f32⟩
  | 81 => ⟨S50000x64, .f32⟩
  | 82 => ⟨S1650000x1, .i32⟩
  | 83 => ⟨S50000x64, .f32⟩
  | 84 => ⟨S1x64, .f32⟩
  | 85 => ⟨S50000x64, .f32⟩
  | 86 => ⟨S_, .f32⟩
  | 87 => ⟨S64, .f32⟩
  | 88 => ⟨S1x64, .f32⟩
  | 89 => ⟨S50000x64, .f32⟩
  | 90 => ⟨S_, .f32⟩
  | 91 => ⟨S50000, .f32⟩
  | 92 => ⟨S1650000x1, .i32⟩
  | 93 => ⟨S50000, .f32⟩
  | 94 => ⟨S_, .f32⟩
  | 95 => ⟨S50000, .f32⟩
  | 96 => ⟨S50000, .i1⟩
  | 97 => ⟨S_, .f32⟩
  | 98 => ⟨S50000, .f32⟩
  | 99 => ⟨S50000, .f32⟩
  | 100 => ⟨S50000, .f32⟩
  | 101 => ⟨S_, .f32⟩
  | 102 => ⟨S_, .f32⟩
  | 103 => ⟨S50000, .f32⟩
  | 104 => ⟨S50000, .f32⟩
  | 105 => ⟨S_, .i32⟩
  | 106 => ⟨S1650000, .i32⟩
  | 107 => ⟨S1650000, .i1⟩
  | 108 => ⟨S_, .i32⟩
  | 109 => ⟨S1650000, .i32⟩
  | 110 => ⟨S1650000, .i32⟩
  | 111 => ⟨S1650000, .i32⟩
  | 112 => ⟨S1650000x1, .i32⟩
  | 113 => ⟨S1650000, .f32⟩
  | 114 => ⟨S1650000, .f32⟩
  | 115 => ⟨S_, .i32⟩
  | 116 => ⟨S1650000, .i32⟩
  | 117 => ⟨S1650000, .i1⟩
  | 118 => ⟨S_, .i32⟩
  | 119 => ⟨S1650000, .i32⟩
  | 120 => ⟨S1650000, .i32⟩
  | 121 => ⟨S1650000, .i32⟩
  | 122 => ⟨S1650000x1, .i32⟩
  | 123 => ⟨S1650000, .f32⟩
  | 124 => ⟨S1650000, .f32⟩
  | 125 => ⟨S_, .i32⟩
  | 126 => ⟨S1650000, .i32⟩
  | 127 => ⟨S1650000, .i1⟩
  | _ => ⟨S50000x256, .f32⟩

abbrev hbmTy0_1 (i : Nat) : BufTy := match i % 128 with
  | 0 => ⟨S_, .i32⟩
  | 1 => ⟨S1650000, .i32⟩
  | 2 => ⟨S1650000, .i32⟩
  | 3 => ⟨S1650000, .i32⟩
  | 4 => ⟨S1650000x1, .i32⟩
  | 5 => ⟨S1650000x64, .f32⟩
  | 6 => ⟨S1650000x1, .f32⟩
  | 7 => ⟨S1650000x64, .f32⟩
  | 8 => ⟨S1650000x64, .f32⟩
  | 9 => ⟨S_, .f32⟩
  | 10 => ⟨S50000x64, .f32⟩
  | 11 => ⟨S1650000x1, .i32⟩
  | 12 => ⟨S50000x64, .f32⟩
  | 13 => ⟨S1x64, .f32⟩
  | 14 => ⟨S50000x64, .f32⟩
  | 15 => ⟨S1x128, .f32⟩
  | 16 => ⟨S50000x128, .f32⟩
  | 17 => ⟨S1x256, .f32⟩
  | 18 => ⟨S50000x256, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | .local _ .vmem, ⟨0, _⟩ => ⟨S5000x256, .f32⟩
  | .local _ .vmem, ⟨1, _⟩ => ⟨S5000x256, .f32⟩
  | .local _ .vmem, ⟨2, _⟩ => ⟨S128x256, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S64x128, .f32⟩
  | .local _ .vmem, ⟨9, _⟩ => ⟨S1x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S64x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S1x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S64x64, .f32⟩
  | .local _ .vmem, ⟨26, _⟩ => ⟨S1x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S1x64, .f32⟩
  | .local _ .vmem, ⟨32, _⟩ => ⟨S5000x64, .f32⟩
  | .local _ .vmem, ⟨33, _⟩ => ⟨S5000x64, .f32⟩
  | .local _ .vmem, ⟨34, _⟩ => ⟨S5000x64, .f32⟩
  | .local _ .vmem, ⟨35, _⟩ => ⟨S5000x64, .f32⟩
  | .local _ .vmem, ⟨36, _⟩ => ⟨S128x64, .f32⟩
  | .local _ .vmem, ⟨37, _⟩ => ⟨S1x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S256x128, .f32⟩
  | .local _ .vmem, ⟨43, _⟩ => ⟨S1x256, .f32⟩
  | .local _ .vmem, ⟨44, _⟩ => ⟨S5000x256, .f32⟩
  | .local _ .vmem, ⟨45, _⟩ => ⟨S5000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_0 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_1 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_2 : Ref sig .tc := ⟨.hbm, 37, rfl⟩
abbrev main_v19 : Ref sig .tc := ⟨.hbm, 38, rfl⟩
abbrev main_v20 : Ref sig .tc := ⟨.hbm, 39, rfl⟩
abbrev main_cst_3 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_4 : Ref sig .tc := ⟨.hbm, 44, rfl⟩
abbrev main_call0_v0 : Ref sig .tc := ⟨.hbm, 45, rfl⟩
abbrev main_call0_v1 : Ref sig .tc := ⟨.hbm, 46, rfl⟩
abbrev main_v24 : Ref sig .tc := ⟨.hbm, 47, rfl⟩
abbrev main_c : Ref sig .tc := ⟨.hbm, 48, rfl⟩
abbrev main_v25 : Ref sig .tc := ⟨.hbm, 49, rfl⟩
abbrev main_v26 : Ref sig .tc := ⟨.hbm, 50, rfl⟩
abbrev main_c_5 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_c_6 : Ref sig .tc := ⟨.hbm, 58, rfl⟩
abbrev main_v33 : Ref sig .tc := ⟨.hbm, 59, rfl⟩
abbrev main_v34 : Ref sig .tc := ⟨.hbm, 60, rfl⟩
abbrev main_c_7 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_c_8 : Ref sig .tc := ⟨.hbm, 68, rfl⟩
abbrev main_v41 : Ref sig .tc := ⟨.hbm, 69, rfl⟩
abbrev main_v42 : Ref sig .tc := ⟨.hbm, 70, rfl⟩
abbrev main_c_9 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_10 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_cst_11 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_cst_12 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_13 : Ref sig .tc := ⟨.hbm, 94, rfl⟩
abbrev main_v62 : Ref sig .tc := ⟨.hbm, 95, rfl⟩
abbrev main_v63 : Ref sig .tc := ⟨.hbm, 96, rfl⟩
abbrev main_cst_14 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_cst_15 : Ref sig .tc := ⟨.hbm, 101, rfl⟩
abbrev main_call1_v0 : Ref sig .tc := ⟨.hbm, 102, rfl⟩
abbrev main_call1_v1 : Ref sig .tc := ⟨.hbm, 103, rfl⟩
abbrev main_v67 : Ref sig .tc := ⟨.hbm, 104, rfl⟩
abbrev main_c_16 : Ref sig .tc := ⟨.hbm, 105, rfl⟩
abbrev main_v68 : Ref sig .tc := ⟨.hbm, 106, rfl⟩
abbrev main_v69 : Ref sig .tc := ⟨.hbm, 107, rfl⟩
abbrev main_c_17 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_c_18 : Ref sig .tc := ⟨.hbm, 115, rfl⟩
abbrev main_v76 : Ref sig .tc := ⟨.hbm, 116, rfl⟩
abbrev main_v77 : Ref sig .tc := ⟨.hbm, 117, rfl⟩
abbrev main_c_19 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_c_20 : Ref sig .tc := ⟨.hbm, 125, rfl⟩
abbrev main_v84 : Ref sig .tc := ⟨.hbm, 126, rfl⟩
abbrev main_v85 : Ref sig .tc := ⟨.hbm, 127, rfl⟩
abbrev main_c_21 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_cst_22 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg2_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg2_0 : Ref sig .tc := ⟨.vmem, 26, rfl⟩
abbrev cc4_stg3_0 : Ref sig .tc := ⟨.vmem, 27, rfl⟩
abbrev cc4_stg3_1 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg2_0 : Ref sig .tc := ⟨.vmem, 32, rfl⟩
abbrev cc5_stg2_1 : Ref sig .tc := ⟨.vmem, 33, rfl⟩
abbrev cc6_stg0_0 : Ref sig .tc := ⟨.vmem, 34, rfl⟩
abbrev cc6_stg0_1 : Ref sig .tc := ⟨.vmem, 35, rfl⟩
abbrev cc6_stg1_0 : Ref sig .tc := ⟨.vmem, 36, rfl⟩
abbrev cc6_stg2_0 : Ref sig .tc := ⟨.vmem, 37, rfl⟩
abbrev cc6_stg3_0 : Ref sig .tc := ⟨.vmem, 38, rfl⟩
abbrev cc6_stg3_1 : Ref sig .tc := ⟨.vmem, 39, rfl⟩
abbrev cc7_stg0_0 : Ref sig .tc := ⟨.vmem, 40, rfl⟩
abbrev cc7_stg0_1 : Ref sig .tc := ⟨.vmem, 41, rfl⟩
abbrev cc7_stg1_0 : Ref sig .tc := ⟨.vmem, 42, rfl⟩
abbrev cc7_stg2_0 : Ref sig .tc := ⟨.vmem, 43, rfl⟩
abbrev cc7_stg3_0 : Ref sig .tc := ⟨.vmem, 44, rfl⟩
abbrev cc7_stg3_1 : Ref sig .tc := ⟨.vmem, 45, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem2_1 : DmaSem sig := 22
abbrev cc4_sem0_0 : DmaSem sig := 23
abbrev cc4_sem0_1 : DmaSem sig := 24
abbrev cc4_sem1_0 : DmaSem sig := 25
abbrev cc4_sem2_0 : DmaSem sig := 26
abbrev cc4_sem3_0 : DmaSem sig := 27
abbrev cc4_sem3_1 : DmaSem sig := 28
abbrev cc5_sem0_0 : DmaSem sig := 29
abbrev cc5_sem0_1 : DmaSem sig := 30
abbrev cc5_sem1_0 : DmaSem sig := 31
abbrev cc5_sem2_0 : DmaSem sig := 32
abbrev cc5_sem2_1 : DmaSem sig := 33
abbrev cc6_sem0_0 : DmaSem sig := 34
abbrev cc6_sem0_1 : DmaSem sig := 35
abbrev cc6_sem1_0 : DmaSem sig := 36
abbrev cc6_sem2_0 : DmaSem sig := 37
abbrev cc6_sem3_0 : DmaSem sig := 38
abbrev cc6_sem3_1 : DmaSem sig := 39
abbrev cc7_sem0_0 : DmaSem sig := 40
abbrev cc7_sem0_1 : DmaSem sig := 41
abbrev cc7_sem1_0 : DmaSem sig := 42
abbrev cc7_sem2_0 : DmaSem sig := 43
abbrev cc7_sem3_0 : DmaSem sig := 44
abbrev cc7_sem3_1 : DmaSem sig := 45

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S256x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x256 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S5000x256 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S50000 : S_.BroadcastsInDim S50000 (![] : Fin 0 → Fin S50000.rank)
  shapeCasts_S128_S1x128 : S128.ShapeCasts S1x128
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  shapeCasts_S64_S1x64 : S64.ShapeCasts S1x64
  shapeCasts_S5000x128_S5000x128 : S5000x128.ShapeCasts S5000x128
  inb_S64x128_S64x128_0_0 : ∀ a, (![0, 0] : Fin 2 → Nat) a + S64x128.size a ≤ S64x128.size a
  h_S64x128 : 0 < S64x128.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S64 : S_.BroadcastsInDim S64 (![] : Fin 0 → Fin S64.rank)
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  bcast_S1650000_S1650000x1_0 : S1650000.BroadcastsInDim S1650000x1 (![0] : Fin 1 → Fin S1650000x1.rank)
  bcast_S_S1650000 : S_.BroadcastsInDim S1650000 (![] : Fin 0 → Fin S1650000.rank)
  bcast_S1650000x1_S1650000x64_0_1 : S1650000x1.BroadcastsInDim S1650000x64 (![0, 1] : Fin 2 → Fin S1650000x64.rank)
  bcast_S_S50000x64 : S_.BroadcastsInDim S50000x64 (![] : Fin 0 → Fin S50000x64.rank)
  inb_S128x64_S128x64_0_0 : ∀ a, (![0, 0] : Fin 2 → Nat) a + S128x64.size a ≤ S128x64.size a
  h_S128x64 : 0 < S128x64.numel
  shapeCasts_S256_S1x256 : S256.ShapeCasts S1x256
  inb_S256x128_S256x128_0_0 : ∀ a, (![0, 0] : Fin 2 → Nat) a + S256x128.size a ≤ S256x128.size a
  h_S256x128 : 0 < S256x128.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  dot_S5000x256_S128x256_S5000x128_1_1_0_0_n_n_wf : DotDims.WF S5000x256 S128x256 S5000x128 [1] [1] [0] [0] [] []
  dot_S5000x128_S64x128_S5000x64_1_1_0_0_n_n_wf : DotDims.WF S5000x128 S64x128 S5000x64 [1] [1] [0] [0] [] []
  dot_S5000x64_S64x64_S5000x64_1_1_0_0_n_n_wf : DotDims.WF S5000x64 S64x64 S5000x64 [1] [1] [0] [0] [] []
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1
  dot_S5000x64_S128x64_S5000x128_1_1_0_0_n_n_wf : DotDims.WF S5000x64 S128x64 S5000x128 [1] [1] [0] [0] [] []
  dot_S5000x128_S256x128_S5000x256_1_1_0_0_n_n_wf : DotDims.WF S5000x128 S256x128 S5000x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x128.size a ≤ S64x128.size a
  hwx1_1 : ∀ i : grid1.Coords, EltTy.bits .f32 = 32 ∨ (Rect.block (s := S64x128) S64x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S50000x64.size a
  hwx1_3 : ∀ i : grid1.Coords, EltTy.bits .f32 = 32 ∨ (Rect.block (s := S50000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S50000x64.size a
  hwx2_3 : ∀ i : grid2.Coords, EltTy.bits .f32 = 32 ∨ (Rect.block (s := S50000x64) S5000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S50000x64.size a
  hwx3_2 : ∀ i : grid3.Coords, EltTy.bits .f32 = 32 ∨ (Rect.block (s := S50000x64) S5000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x64.size a ≤ S50000x64.size a
  hwx4_3 : ∀ i : grid4.Coords, EltTy.bits .f32 = 32 ∨ (Rect.block (s := S50000x64) S5000x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x64.size a ≤ S50000x64.size a
  hwx5_2 : ∀ i : grid5.Coords, EltTy.bits .f32 = 32 ∨ (Rect.block (s := S50000x64) S5000x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S50000x64.size a
  hwx6_0 : ∀ i : grid6.Coords, EltTy.bits .f32 = 32 ∨ (Rect.block (s := S50000x64) S5000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x64.size a ≤ S128x64.size a
  hwx6_1 : ∀ i : grid6.Coords, EltTy.bits .f32 = 32 ∨ (Rect.block (s := S128x64) S128x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x128.size a ≤ S50000x128.size a
  hwx6_3 : ∀ i : grid6.Coords, EltTy.bits .f32 = 32 ∨ (Rect.block (s := S50000x128) S5000x128.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S256x128.size a ≤ S256x128.size a
  hwx7_1 : ∀ i : grid7.Coords, EltTy.bits .f32 = 32 ∨ (Rect.block (s := S256x128) S256x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x256.size a ≤ S1x256.size a
  hwx7_2 : ∀ i : grid7.Coords, EltTy.bits .f32 = 32 ∨ (Rect.block (s := S1x256) S1x256.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S5000x256.size a ≤ S50000x256.size a
  hwx7_3 : ∀ i : grid7.Coords, EltTy.bits .f32 = 32 ∨ (Rect.block (s := S50000x256) S5000x256.size (cc7_transform_3 i) (hinb7_3 i)).WholeWords (EltTy.packing .f32)

variable [Facts₀]

def dot_S5000x256_S128x256_S5000x128_1_1_0_0_n_n : DotDims S5000x256 S128x256 S5000x128 where
  lhsContracting := [1]
  rhsContracting := [1]
  lhsNonContracting := [0]
  rhsNonContracting := [0]
  lhsBatch := []
  rhsBatch := []
  wf := dot_S5000x256_S128x256_S5000x128_1_1_0_0_n_n_wf
def dot_S5000x128_S64x128_S5000x64_1_1_0_0_n_n : DotDims S5000x128 S64x128 S5000x64 where
  lhsContracting := [1]
  rhsContracting := [1]
  lhsNonContracting := [0]
  rhsNonContracting := [0]
  lhsBatch := []
  rhsBatch := []
  wf := dot_S5000x128_S64x128_S5000x64_1_1_0_0_n_n_wf
def dot_S5000x64_S64x64_S5000x64_1_1_0_0_n_n : DotDims S5000x64 S64x64 S5000x64 where
  lhsContracting := [1]
  rhsContracting := [1]
  lhsNonContracting := [0]
  rhsNonContracting := [0]
  lhsBatch := []
  rhsBatch := []
  wf := dot_S5000x64_S64x64_S5000x64_1_1_0_0_n_n_wf
def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf
def dot_S5000x64_S128x64_S5000x128_1_1_0_0_n_n : DotDims S5000x64 S128x64 S5000x128 where
  lhsContracting := [1]
  rhsContracting := [1]
  lhsNonContracting := [0]
  rhsNonContracting := [0]
  lhsBatch := []
  rhsBatch := []
  wf := dot_S5000x64_S128x64_S5000x128_1_1_0_0_n_n_wf
def dot_S5000x128_S256x128_S5000x256_1_1_0_0_n_n : DotDims S5000x128 S256x128 S5000x256 where
  lhsContracting := [1]
  rhsContracting := [1]
  lhsNonContracting := [0]
  rhsNonContracting := [0]
  lhsBatch := []
  rhsBatch := []
  wf := dot_S5000x128_S256x128_S5000x256_1_1_0_0_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v10) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S64x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v11) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v12) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v12) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v14) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v15) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v53) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v54) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v55) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v55) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg9) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v57) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v58) S5000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v96) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v97) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v98) S5000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v98) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg11) S128x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v99) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v100) S5000x128.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v100) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg13) S256x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v101) S1x256.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v102) S5000x256.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

class Facts : Prop extends Facts₀ where

variable [Facts]
-- ==== ReferenceIdeal.lean ====
abbrev S50000x256 : Shape := ⟨2, ![50000, 256]⟩
abbrev S2x1600000 : Shape := ⟨2, ![2, 1600000]⟩
abbrev S1600000 : Shape := ⟨1, ![1600000]⟩
abbrev S128x256 : Shape := ⟨2, ![128, 256]⟩
abbrev S128 : Shape := ⟨1, ![128]⟩
abbrev S64x128 : Shape := ⟨2, ![64, 128]⟩
abbrev S64 : Shape := ⟨1, ![64]⟩
abbrev S64x64 : Shape := ⟨2, ![64, 64]⟩
abbrev S128x64 : Shape := ⟨2, ![128, 64]⟩
abbrev S256x128 : Shape := ⟨2, ![256, 128]⟩
abbrev S256 : Shape := ⟨1, ![256]⟩
abbrev S50000 : Shape := ⟨1, ![50000]⟩
abbrev S1x1600000 : Shape := ⟨2, ![1, 1600000]⟩
abbrev S1650000 : Shape := ⟨1, ![1650000]⟩
abbrev S_ : Shape := ⟨0, ![]⟩
abbrev S50000x128 : Shape := ⟨2, ![50000, 128]⟩
abbrev S1x128 : Shape := ⟨2, ![1, 128]⟩
abbrev S50000x64 : Shape := ⟨2, ![50000, 64]⟩
abbrev S1x64 : Shape := ⟨2, ![1, 64]⟩
abbrev S1650000x1 : Shape := ⟨2, ![1650000, 1]⟩
abbrev S1650000x64 : Shape := ⟨2, ![1650000, 64]⟩
abbrev S1x256 : Shape := ⟨2, ![1, 256]⟩

abbrev nBuf : Space → Nat
  | .hbm => 180
  | .vmem => 0
  | .smem => 0
  | _ => 0

abbrev hbmTy0_0 (i : Nat) : BufTy := match i % 128 with
  | 0 => ⟨S50000x256, .f32⟩
  | 1 => ⟨S2x1600000, .i32⟩
  | 2 => ⟨S1600000, .f32⟩
  | 3 => ⟨S128x256, .f32⟩
  | 4 => ⟨S128, .f32⟩
  | 5 => ⟨S64x128, .f32⟩
  | 6 => ⟨S64, .f32⟩
  | 7 => ⟨S64x64, .f32⟩
  | 8 => ⟨S64, .f32⟩
  | 9 => ⟨S64x64, .f32⟩
  | 10 => ⟨S64, .f32⟩
  | 11 => ⟨S128x64, .f32⟩
  | 12 => ⟨S128, .f32⟩
  | 13 => ⟨S256x128, .f32⟩
  | 14 => ⟨S256, .f32⟩
  | 15 => ⟨S50000, .i32⟩
  | 16 => ⟨S1x1600000, .i32⟩
  | 17 => ⟨S1600000, .i32⟩
  | 18 => ⟨S1650000, .i32⟩
  | 19 => ⟨S1x1600000, .i32⟩
  | 20 => ⟨S1600000, .i32⟩
  | 21 => ⟨S1650000, .i32⟩
  | 22 => ⟨S_, .f32⟩
  | 23 => ⟨S50000, .f32⟩
  | 24 => ⟨S1650000, .f32⟩
  | 25 => ⟨S256x128, .f32⟩
  | 26 => ⟨S50000x128, .f32⟩
  | 27 => ⟨S1x128, .f32⟩
  | 28 => ⟨S50000x128, .f32⟩
  | 29 => ⟨S50000x128, .f32⟩
  | 30 => ⟨S_, .f32⟩
  | 31 => ⟨S50000x128, .f32⟩
  | 32 => ⟨S50000x128, .f32⟩
  | 33 => ⟨S128x64, .f32⟩
  | 34 => ⟨S50000x64, .f32⟩
  | 35 => ⟨S1x64, .f32⟩
  | 36 => ⟨S50000x64, .f32⟩
  | 37 => ⟨S50000x64, .f32⟩
  | 38 => ⟨S_, .f32⟩
  | 39 => ⟨S50000x64, .f32⟩
  | 40 => ⟨S50000x64, .f32⟩
  | 41 => ⟨S64x64, .f32⟩
  | 42 => ⟨S50000x64, .f32⟩
  | 43 => ⟨S_, .f32⟩
  | 44 => ⟨S50000, .f32⟩
  | 45 => ⟨S1650000x1, .i32⟩
  | 46 => ⟨S50000, .f32⟩
  | 47 => ⟨S_, .f32⟩
  | 48 => ⟨S50000, .f32⟩
  | 49 => ⟨S50000, .i1⟩
  | 50 => ⟨S_, .f32⟩
  | 51 => ⟨S50000, .f32⟩
  | 52 => ⟨S50000, .f32⟩
  | 53 => ⟨S50000, .f32⟩
  | 54 => ⟨S_, .f32⟩
  | 55 => ⟨S_, .f32⟩
  | 56 => ⟨S50000, .f32⟩
  | 57 => ⟨S50000, .f32⟩
  | 58 => ⟨S_, .i32⟩
  | 59 => ⟨S1650000, .i32⟩
  | 60 => ⟨S1650000, .i1⟩
  | 61 => ⟨S_, .i32⟩
  | 62 => ⟨S1650000, .i32⟩
  | 63 => ⟨S1650000, .i32⟩
  | 64 => ⟨S1650000, .i32⟩
  | 65 => ⟨S1650000x1, .i32⟩
  | 66 => ⟨S1650000, .f32⟩
  | 67 => ⟨S1650000, .f32⟩
  | 68 => ⟨S_, .i32⟩
  | 69 => ⟨S1650000, .i32⟩
  | 70 => ⟨S1650000, .i1⟩
  | 71 => ⟨S_, .i32⟩
  | 72 => ⟨S1650000, .i32⟩
  | 73 => ⟨S1650000, .i32⟩
  | 74 => ⟨S1650000, .i32⟩
  | 75 => ⟨S1650000x1, .i32⟩
  | 76 => ⟨S1650000, .f32⟩
  | 77 => ⟨S1650000, .f32⟩
  | 78 => ⟨S_, .i32⟩
  | 79 => ⟨S1650000, .i32⟩
  | 80 => ⟨S1650000, .i1⟩
  | 81 => ⟨S_, .i32⟩
  | 82 => ⟨S1650000, .i32⟩
  | 83 => ⟨S1650000, .i32⟩
  | 84 => ⟨S1650000, .i32⟩
  | 85 => ⟨S1650000x1, .i32⟩
  | 86 => ⟨S1650000x64, .f32⟩
  | 87 => ⟨S1650000x1, .f32⟩
  | 88 => ⟨S1650000x64, .f32⟩
  | 89 => ⟨S1650000x64, .f32⟩
  | 90 => ⟨S_, .f32⟩
  | 91 => ⟨S50000x64, .f32⟩
  | 92 => ⟨S1650000x1, .i32⟩
  | 93 => ⟨S50000x64, .f32⟩
  | 94 => ⟨S1x64, .f32⟩
  | 95 => ⟨S50000x64, .f32⟩
  | 96 => ⟨S50000x64, .f32⟩
  | 97 => ⟨S_, .f32⟩
  | 98 => ⟨S50000x64, .f32⟩
  | 99 => ⟨S50000x64, .f32⟩
  | 100 => ⟨S64x64, .f32⟩
  | 101 => ⟨S50000x64, .f32⟩
  | 102 => ⟨S_, .f32⟩
  | 103 => ⟨S50000, .f32⟩
  | 104 => ⟨S1650000x1, .i32⟩
  | 105 => ⟨S50000, .f32⟩
  | 106 => ⟨S_, .f32⟩
  | 107 => ⟨S50000, .f32⟩
  | 108 => ⟨S50000, .i1⟩
  | 109 => ⟨S_, .f32⟩
  | 110 => ⟨S50000, .f32⟩
  | 111 => ⟨S50000, .f32⟩
  | 112 => ⟨S50000, .f32⟩
  | 113 => ⟨S_, .f32⟩
  | 114 => ⟨S_, .f32⟩
  | 115 => ⟨S50000, .f32⟩
  | 116 => ⟨S50000, .f32⟩
  | 117 => ⟨S_, .i32⟩
  | 118 => ⟨S1650000, .i32⟩
  | 119 => ⟨S1650000, .i1⟩
  | 120 => ⟨S_, .i32⟩
  | 121 => ⟨S1650000, .i32⟩
  | 122 => ⟨S1650000, .i32⟩
  | 123 => ⟨S1650000, .i32⟩
  | 124 => ⟨S1650000x1, .i32⟩
  | 125 => ⟨S1650000, .f32⟩
  | 126 => ⟨S1650000, .f32⟩
  | 127 => ⟨S_, .i32⟩
  | _ => ⟨S50000x256, .f32⟩

abbrev hbmTy0_1 (i : Nat) : BufTy := match i % 128 with
  | 0 => ⟨S1650000, .i32⟩
  | 1 => ⟨S1650000, .i1⟩
  | 2 => ⟨S_, .i32⟩
  | 3 => ⟨S1650000, .i32⟩
  | 4 => ⟨S1650000, .i32⟩
  | 5 => ⟨S1650000, .i32⟩
  | 6 => ⟨S1650000x1, .i32⟩
  | 7 => ⟨S1650000, .f32⟩
  | 8 => ⟨S1650000, .f32⟩
  | 9 => ⟨S_, .i32⟩
  | 10 => ⟨S1650000, .i32⟩
  | 11 => ⟨S1650000, .i1⟩
  | 12 => ⟨S_, .i32⟩
  | 13 => ⟨S1650000, .i32⟩
  | 14 => ⟨S1650000, .i32⟩
  | 15 => ⟨S1650000, .i32⟩
  | 16 => ⟨S1650000x1, .i32⟩
  | 17 => ⟨S1650000x64, .f32⟩
  | 18 => ⟨S1650000x1, .f32⟩
  | 19 => ⟨S1650000x64, .f32⟩
  | 20 => ⟨S1650000x64, .f32⟩
  | 21 => ⟨S_, .f32⟩
  | 22 => ⟨S50000x64, .f32⟩
  | 23 => ⟨S1650000x1, .i32⟩
  | 24 => ⟨S50000x64, .f32⟩
  | 25 => ⟨S1x64, .f32⟩
  | 26 => ⟨S50000x64, .f32⟩
  | 27 => ⟨S50000x64, .f32⟩
  | 28 => ⟨S_, .f32⟩
  | 29 => ⟨S50000x64, .f32⟩
  | 30 => ⟨S50000x64, .f32⟩
  | 31 => ⟨S64x128, .f32⟩
  | 32 => ⟨S50000x128, .f32⟩
  | 33 => ⟨S1x128, .f32⟩
  | 34 => ⟨S50000x128, .f32⟩
  | 35 => ⟨S50000x128, .f32⟩
  | 36 => ⟨S_, .f32⟩
  | 37 => ⟨S50000x128, .f32⟩
  | 38 => ⟨S50000x128, .f32⟩
  | 39 => ⟨S128x256, .f32⟩
  | 40 => ⟨S50000x256, .f32⟩
  | 41 => ⟨S1x256, .f32⟩
  | 42 => ⟨S50000x256, .f32⟩
  | 43 => ⟨S50000x256, .f32⟩
  | 44 => ⟨S50000x256, .f32⟩
  | 45 => ⟨S50000x256, .f32⟩
  | 46 => ⟨S_, .f32⟩
  | 47 => ⟨S50000x256, .f32⟩
  | 48 => ⟨S50000x256, .f32⟩
  | 49 => ⟨S_, .f32⟩
  | 50 => ⟨S50000x256, .f32⟩
  | 51 => ⟨S50000x256, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_call0_cst : Ref sig .tc := ⟨.hbm, 30, rfl⟩
abbrev main_call0_v0 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_call1_cst : Ref sig .tc := ⟨.hbm, 38, rfl⟩
abbrev main_call1_v0 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_0 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_1 : Ref sig .tc := ⟨.hbm, 47, rfl⟩
abbrev main_v26 : Ref sig .tc := ⟨.hbm, 48, rfl⟩
abbrev main_v27 : Ref sig .tc := ⟨.hbm, 49, rfl⟩
abbrev main_cst_2 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_cst_3 : Ref sig .tc := ⟨.hbm, 54, rfl⟩
abbrev main_call2_v0 : Ref sig .tc := ⟨.hbm, 55, rfl⟩
abbrev main_call2_v1 : Ref sig .tc := ⟨.hbm, 56, rfl⟩
abbrev main_v31 : Ref sig .tc := ⟨.hbm, 57, rfl⟩
abbrev main_c : Ref sig .tc := ⟨.hbm, 58, rfl⟩
abbrev main_v32 : Ref sig .tc := ⟨.hbm, 59, rfl⟩
abbrev main_v33 : Ref sig .tc := ⟨.hbm, 60, rfl⟩
abbrev main_c_4 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_c_5 : Ref sig .tc := ⟨.hbm, 68, rfl⟩
abbrev main_v40 : Ref sig .tc := ⟨.hbm, 69, rfl⟩
abbrev main_v41 : Ref sig .tc := ⟨.hbm, 70, rfl⟩
abbrev main_c_6 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_c_7 : Ref sig .tc := ⟨.hbm, 78, rfl⟩
abbrev main_v48 : Ref sig .tc := ⟨.hbm, 79, rfl⟩
abbrev main_v49 : Ref sig .tc := ⟨.hbm, 80, rfl⟩
abbrev main_c_8 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_cst_9 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_call3_cst : Ref sig .tc := ⟨.hbm, 97, rfl⟩
abbrev main_call3_v0 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_cst_10 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_cst_11 : Ref sig .tc := ⟨.hbm, 106, rfl⟩
abbrev main_v70 : Ref sig .tc := ⟨.hbm, 107, rfl⟩
abbrev main_v71 : Ref sig .tc := ⟨.hbm, 108, rfl⟩
abbrev main_cst_12 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_cst_13 : Ref sig .tc := ⟨.hbm, 113, rfl⟩
abbrev main_call4_v0 : Ref sig .tc := ⟨.hbm, 114, rfl⟩
abbrev main_call4_v1 : Ref sig .tc := ⟨.hbm, 115, rfl⟩
abbrev main_v75 : Ref sig .tc := ⟨.hbm, 116, rfl⟩
abbrev main_c_14 : Ref sig .tc := ⟨.hbm, 117, rfl⟩
abbrev main_v76 : Ref sig .tc := ⟨.hbm, 118, rfl⟩
abbrev main_v77 : Ref sig .tc := ⟨.hbm, 119, rfl⟩
abbrev main_c_15 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_c_16 : Ref sig .tc := ⟨.hbm, 127, rfl⟩
abbrev main_v84 : Ref sig .tc := ⟨.hbm, 128, rfl⟩
abbrev main_v85 : Ref sig .tc := ⟨.hbm, 129, rfl⟩
abbrev main_c_17 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_c_18 : Ref sig .tc := ⟨.hbm, 137, rfl⟩
abbrev main_v92 : Ref sig .tc := ⟨.hbm, 138, rfl⟩
abbrev main_v93 : Ref sig .tc := ⟨.hbm, 139, rfl⟩
abbrev main_c_19 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_cst_20 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_call5_cst : Ref sig .tc := ⟨.hbm, 156, rfl⟩
abbrev main_call5_v0 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_call6_cst : Ref sig .tc := ⟨.hbm, 164, rfl⟩
abbrev main_call6_v0 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_cst_21 : Ref sig .tc := ⟨.hbm, 174, rfl⟩
abbrev main_v122 : Ref sig .tc := ⟨.hbm, 175, rfl⟩
abbrev main_v123 : Ref sig .tc := ⟨.hbm, 176, rfl⟩
abbrev main_cst_22 : Ref sig .tc := ⟨.hbm, 177, rfl⟩
abbrev main_v124 : Ref sig .tc := ⟨.hbm, 178, rfl⟩
abbrev main_v125 : Ref sig .tc := ⟨.hbm, 179, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S50000 : S_.BroadcastsInDim S50000 (![] : Fin 0 → Fin S50000.rank)
  transposes_S128x256_S256x128_1_0 : S128x256.Transposes [1, 0] S256x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  transposes_S64x128_S128x64_1_0 : S64x128.Transposes [1, 0] S128x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  transposes_S64x64_S64x64_1_0 : S64x64.Transposes [1, 0] S64x64
  bcast_S1650000_S1650000x1_0 : S1650000.BroadcastsInDim S1650000x1 (![0] : Fin 1 → Fin S1650000x1.rank)
  bcast_S_S1650000 : S_.BroadcastsInDim S1650000 (![] : Fin 0 → Fin S1650000.rank)
  bcast_S1650000x1_S1650000x64_0_1 : S1650000x1.BroadcastsInDim S1650000x64 (![0, 1] : Fin 2 → Fin S1650000x64.rank)
  transposes_S128x64_S64x128_1_0 : S128x64.Transposes [1, 0] S64x128
  transposes_S256x128_S128x256_1_0 : S256x128.Transposes [1, 0] S128x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  dot_S50000x256_S256x128_S50000x128_1_0_0_1_n_n_wf : DotDims.WF S50000x256 S256x128 S50000x128 [1] [0] [0] [1] [] []
  dot_S50000x128_S128x64_S50000x64_1_0_0_1_n_n_wf : DotDims.WF S50000x128 S128x64 S50000x64 [1] [0] [0] [1] [] []
  dot_S50000x64_S64x64_S50000x64_1_0_0_1_n_n_wf : DotDims.WF S50000x64 S64x64 S50000x64 [1] [0] [0] [1] [] []
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1
  dot_S50000x64_S64x128_S50000x128_1_0_0_1_n_n_wf : DotDims.WF S50000x64 S64x128 S50000x128 [1] [0] [0] [1] [] []
  dot_S50000x128_S128x256_S50000x256_1_0_0_1_n_n_wf : DotDims.WF S50000x128 S128x256 S50000x256 [1] [0] [0] [1] [] []

variable [Facts₀]

def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf

class Facts : Prop extends Facts₀ where

variable [Facts]
-- ==== Proof.KernelRun.lean ====
/-
  The idealized kernel program's run, with its result named.

  The program is eight kernel launches among stretches of host operations. Its run is read through the contents of the
  device's buffers at each boundary between two segments, from the launch memory on: a stretch of host operations
  applies its operations to the contents it finds, and a launch leaves every buffer as it found it except its own
  arrays, which end holding what its grid points wrote back. Every weakly fair execution terminates with every buffer
  at the last boundary's contents; in particular the returned array holds the last boundary's contents of its buffer,
  and the argument arrays hold what they held at the launch.
-/
import proofs.«129692_j34102040330339_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the returned array at the last
    boundary's contents of its buffer and the argument arrays as launched. -/
theorem run_result : θ_run defs (onTc (τ := τ) (main (F := F))) ⟨m, fun _ => 0, ρ⟩ (fun r => ∀ c : Dev nD,
      r.2.mem ((c.tc : Thread nD τ).loc main_v102) = W20 m ρ c (Proc.devRef .tc main_v102)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := fun s h c =>
      ⟨h c _ (mem_uc main_v102 (by decide)),
       (h c _ (mem_uc main_arg0 (by decide))).trans (W20_main_arg0 m ρ c),
       (h c _ (mem_uc main_arg1 (by decide))).trans (W20_main_arg1 m ρ c),
       (h c _ (mem_uc main_arg2 (by decide))).trans (W20_main_arg2 m ρ c),
       (h c _ (mem_uc main_arg3 (by decide))).trans (W20_main_arg3 m ρ c),
       (h c _ (mem_uc main_arg4 (by decide))).trans (W20_main_arg4 m ρ c),
       (h c _ (mem_uc main_arg5 (by decide))).trans (W20_main_arg5 m ρ c),
       (h c _ (mem_uc main_arg6 (by decide))).trans (W20_main_arg6 m ρ c),
       (h c _ (mem_uc main_arg7 (by decide))).trans (W20_main_arg7 m ρ c),
       (h c _ (mem_uc main_arg8 (by decide))).trans (W20_main_arg8 m ρ c),
       (h c _ (mem_uc main_arg9 (by decide))).trans (W20_main_arg9 m ρ c),
       (h c _ (mem_uc main_arg10 (by decide))).trans (W20_main_arg10 m ρ c),
       (h c _ (mem_uc main_arg11 (by decide))).trans (W20_main_arg11 m ρ c),
       (h c _ (mem_uc main_arg12 (by decide))).trans (W20_main_arg12 m ρ c),
       (h c _ (mem_uc main_arg13 (by decide))).trans (W20_main_arg13 m ρ c),
       (h c _ (mem_uc main_arg14 (by decide))).trans (W20_main_arg14 m ρ c)⟩)

end Cert.KernelIdeal.Whole

end
-- ==== Proof.LibMatmulRhsT.lean ====
/-
  A matrix product that contracts BOTH operands' last axes, read at an index, at the ideal values.

  For an [A, K] matrix times a [B, K] matrix contracting the left operand's columns with the right operand's columns
  (the product of the first with the transpose of the second, written without forming the transpose) a `tpu.matmul`
  into the zero accumulator is, at (p, m), the sum over k of L(p, k) · R(m, k): a sum indexed by `Fin K`, with both
  operands read at indices written by coordinates. The contraction index of the library's general statement is
  re-indexed through its one coordinate, and the operand indices it names are computed axis by axis.
-/
import Idealize.ShloMosaic.PureOps.Ideal.Laws
import Idealize.ShloMosaic.Lib.ValueIdx

noncomputable section

namespace Cert.LibMatmulRhsT

open Idealize.ShloMosaic Idealize.ShloMosaic.ValueIdx

/-- For an [A, K] by [B, K] product contracting both last axes, the left operand's index at result (p, m) and
    contraction coordinate k is (p, k). -/
theorem transposedRhs_lhsIdx (A K B : Nat) (p : Fin A) (m : Fin B) (k : Fin K) :
    (DotDims.transposedRhs A K B).lhsIdx (ix2 p m) ((contrEquiv1 (DotDims.transposedRhs A K B) K rfl rfl).symm k) = ix2 p k :=
  funext fun a => Fin.ext (by
    match a with
    | ⟨0, _⟩ => rfl
    | ⟨1, _⟩ =>
      exact ((DotDims.transposedRhs A K B).lhsIdx_val_of_single (cl := 1) rfl _ _).trans
        (contrEquiv1_symm_val (DotDims.transposedRhs A K B) K rfl rfl k))

/-- The right operand's index there is (m, k). -/
theorem transposedRhs_rhsIdx (A K B : Nat) (p : Fin A) (m : Fin B) (k : Fin K) :
    (DotDims.transposedRhs A K B).rhsIdx (ix2 p m) ((contrEquiv1 (DotDims.transposedRhs A K B) K rfl rfl).symm k) = ix2 m k :=
  funext fun a => Fin.ext (by
    match a with
    | ⟨0, _⟩ => rfl
    | ⟨1, _⟩ =>
      exact ((DotDims.transposedRhs A K B).rhsIdx_val_of_single (cr := 1) rfl _ _).trans
        (contrEquiv1_symm_val (DotDims.transposedRhs A K B) K rfl rfl k))

/-- An [A, K] by [B, K] product contracting both last axes, into the zero accumulator, read at (p, m):
    Σ_k L(p, k) · R(m, k). -/
theorem matmul_transposedRhs_zero_apply (A K B : Nat) {φ₁ φ₂ : FTy} (prec : Option ContractPrecision)
    (lhs : FVec Ideal ⟨2, ![A, K]⟩ φ₁) (rhs : FVec Ideal ⟨2, ![B, K]⟩ φ₂) (p : Fin A) (m : Fin B) :
    FloatOps.matmul (DotDims.transposedRhs A K B) prec lhs rhs (constant ⟨2, ![A, B]⟩ .f32 0x00000000#32) (ix2 p m)
      = ∑ k : Fin K, lhs (ix2 p k) * rhs (ix2 m k) := by
  rw [Ideal.matmul_constant_zero_apply, ← Equiv.sum_comp (contrEquiv1 (DotDims.transposedRhs A K B) K rfl rfl).symm]
  refine Finset.sum_congr rfl fun k _ => ?_
  rw [transposedRhs_lhsIdx, transposedRhs_rhsIdx]

end Cert.LibMatmulRhsT

end
-- ==== Proof.LibPlainMatmul.lean ====
/-
  A plain matrix product read at an index, at the ideal values.

  For the dimension numbers of an ordinary product — an [A, K] matrix times a [K, B] matrix, contracting the left
  operand's columns with the right operand's rows, no batch axis — a `tpu.matmul` into the zero accumulator is, at
  (p, e), the sum over k of L(p, k) · R(k, e): a sum indexed by `Fin K`, with both operands read at indices written by
  coordinates. The contraction index of the library's general statement is re-indexed through its one coordinate, and
  the operand indices it names are computed axis by axis.
-/
import Idealize.ShloMosaic.PureOps.Ideal.Laws
import Idealize.ShloMosaic.Lib.ValueIdx

noncomputable section

namespace Idealize.ShloMosaic.ValueIdx

open Idealize.ShloMosaic

/-- The left operand's index at result index (p, e) and contraction coordinate k is (p, k). -/
theorem plain_lhsIdx (A K B : Nat) (p : Fin A) (e : Fin B) (k : Fin K) :
    (DotDims.plain A K B).lhsIdx (ix2 p e) ((contrEquiv1 (DotDims.plain A K B) K rfl rfl).symm k) = ix2 p k :=
  funext fun a => Fin.ext (by
    match a with
    | ⟨0, _⟩ => rfl
    | ⟨1, _⟩ =>
      exact ((DotDims.plain A K B).lhsIdx_val_of_single (cl := 1) rfl _ _).trans
        (contrEquiv1_symm_val (DotDims.plain A K B) K rfl rfl k))

/-- The right operand's index there is (k, e). -/
theorem plain_rhsIdx (A K B : Nat) (p : Fin A) (e : Fin B) (k : Fin K) :
    (DotDims.plain A K B).rhsIdx (ix2 p e) ((contrEquiv1 (DotDims.plain A K B) K rfl rfl).symm k) = ix2 k e :=
  funext fun a => Fin.ext (by
    match a with
    | ⟨0, _⟩ =>
      exact ((DotDims.plain A K B).rhsIdx_val_of_single (cr := 0) rfl _ _).trans
        (contrEquiv1_symm_val (DotDims.plain A K B) K rfl rfl k)
    | ⟨1, _⟩ => rfl)

/-- A plain [A, K] × [K, B] `tpu.matmul` into the zero accumulator, read at (p, e): Σ_k L(p, k) · R(k, e). -/
theorem matmul_plain_zero_apply (A K B : Nat) {φ₁ φ₂ : FTy} (prec : Option ContractPrecision)
    (lhs : FVec Ideal ⟨2, ![A, K]⟩ φ₁) (rhs : FVec Ideal ⟨2, ![K, B]⟩ φ₂) (p : Fin A) (e : Fin B) :
    FloatOps.matmul (DotDims.plain A K B) prec lhs rhs (constant ⟨2, ![A, B]⟩ .f32 0x00000000#32) (ix2 p e)
      = ∑ k : Fin K, lhs (ix2 p k) * rhs (ix2 k e) := by
  rw [Ideal.matmul_constant_zero_apply, ← Equiv.sum_comp (contrEquiv1 (DotDims.plain A K B) K rfl rfl).symm]
  refine Finset.sum_congr rfl fun k _ => ?_
  rw [plain_lhsIdx, plain_rhsIdx]

end Idealize.ShloMosaic.ValueIdx

end
-- ==== Proof.LibPlainDot.lean ====
/-
  The host's plain matrix product and a matrix transpose, read at an index, at the ideal values.
  A `dot_general` with the dimension numbers of an ordinary product — an [A, K] matrix times a [K, B] matrix,
  contracting the left operand's columns with the right operand's rows, no batch axis — is, at (p, e), the sum over k
  of L(p, k) · R(k, e), a sum indexed by `Fin K` with both operands read at indices written by coordinates. The
  transpose of an [A, B] matrix read at (b, a) is the matrix at (a, b).
-/
import Idealize.ShloMosaic.PureOps.Ideal.Laws
import Idealize.ShloMosaic.Lib.ValueIdx
import Idealize.ShloMosaic.Lib.Pipeline.Value
import proofs.«129692_j34102040330339_1_alg».proof.Proof.LibPlainMatmul

noncomputable section

namespace Cert.LibPlainDot

open Idealize.ShloMosaic Idealize.ShloMosaic.ValueIdx

/-- A plain [A, K] × [K, B] `dot_general` on the host, read at (p, e): Σ_k L(p, k) · R(k, e). -/
theorem dotGeneral_plain_apply (A K B : Nat) {φ₁ φ₂ : FTy} (prec : Option ContractPrecision) (sched : HostSchedule)
    (lhs : FVec Ideal ⟨2, ![A, K]⟩ φ₁) (rhs : FVec Ideal ⟨2, ![K, B]⟩ φ₂) (p : Fin A) (e : Fin B) :
    FloatOps.dotGeneral (DotDims.plain A K B) prec sched lhs rhs (ix2 p e) = ∑ k : Fin K, lhs (ix2 p k) * rhs (ix2 k e) := by
  rw [Ideal.dotGeneral_apply, ← Equiv.sum_comp (contrEquiv1 (DotDims.plain A K B) K rfl rfl).symm]
  refine Finset.sum_congr rfl fun k _ => ?_
  rw [plain_lhsIdx, plain_rhsIdx]

/-- The transpose of an [A, B] matrix, read at (b, a), is the matrix at (a, b). -/
theorem transpose_swap_apply {α : Type} (A B : Nat) (x : (⟨2, ![A, B]⟩ : Shape).Idx → α)
    (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) (fun d => match d with
    | ⟨0, _⟩ => rfl
    | ⟨1, _⟩ => rfl)

end Cert.LibPlainDot

end
-- ==== Proof.LibRowBroadcast.lean ====
/-
  A ROW `[1, b]` spread over `a` rows: the broadcast to `[a, b]` reads, at `(p, c)`, the row's entry of column `c`
  — every row of the result is the one row of the operand. The unit coordinate `u : Fin 1` is whatever the caller
  writes: there is only one.
-/
import Idealize.ShloMosaic.Lib.ValueLayout

namespace Cert.LibRowBroadcast

open Idealize.ShloMosaic Idealize.ShloMosaic.ValueIdx

variable {α : Type}

/-- A row `[1, b]` broadcast to `[a, b]` reads, at `(p, c)`, the row's entry of column `c`. -/
theorem broadcastTo_1b_ab_apply {a b : ℕ} (v : (⟨2, ![1, b]⟩ : Shape).Idx → α) (h : (⟨2, ![1, b]⟩ : Shape).Broadcasts ⟨2, ![a, b]⟩)
    (p : Fin a) (c : Fin b) (u : Fin 1) : broadcastTo ⟨2, ![a, b]⟩ v h (ix2 p c) = v (ix2 u c) := by
  refine broadcastTo_apply v h (ix2 p c) (ix2 u c) fun ax => ?_
  match ax with
  | ⟨0, _⟩ =>
    show u.val = if (1 : ℕ) = 1 then 0 else p.val
    rw [if_pos rfl]; omega
  | ⟨1, _⟩ =>
    show c.val = if b = 1 then 0 else c.val
    split
    · have := c.isLt; omega
    · rfl

end Cert.LibRowBroadcast
-- ==== Proof.LibDenseLayer.lean ====
/-
  The layers of a graph network, read one entry at a time, at the ideal values.

  A layer takes the node features H (one row per node) and the aggregated neighbour features A (one row per node) and
  returns, at node p and output channel e,

      act ( Σ_k H(p, k) · Ws(k, e)  +  Σ_k A(p, k) · Wn(k, e)  +  b(e) ),

  `pre` being the argument of the activation. The first layer has no neighbour term: `lin`. Both programs compute
  exactly this, entry by entry: a kernel's body on a tile of rows (two matrix products into zero accumulators of the
  tile's rows after a change of float format, which changes nothing here, and the bias row spread over the tile's rows)
  and the host's operations on all rows at once (two `dot_general`s and the bias broadcast in two steps). The
  rectifier is a maximum with zero in both spellings. The logistic function is by definition 1 / (1 + exp (-x)) on the
  extended reals, which is the expression the host spells out. Last, the mean over the neighbours: the sum S(p, ·)
  times the reciprocal 1 / max(d(p), 1) is the quotient S(p, ·) / max(d(p), 1), because max(d(p), 1) ≥ 1 is not zero
  (at a zero divisor the two differ; nowhere else, the infinities included).
-/
import Idealize.ShloMosaic.PureOps.Ideal.Laws
import Idealize.ShloMosaic.Lib.ValueIdx
import Idealize.ShloMosaic.Lib.Pipeline.Value
import Idealize.ShloMosaic.Lib.ValueLayout
import Idealize.ShloMosaic.Lib.IdealHost
import Idealize.ShloMosaic.Lib.KernelVsHost
import proofs.«129692_j34102040330339_1_alg».proof.Proof.LibPlainMatmul
import proofs.«129692_j34102040330339_1_alg».proof.Proof.LibPlainDot
import proofs.«129692_j34102040330339_1_alg».proof.Proof.LibRowBroadcast

noncomputable section

namespace Cert.Gcn

open Idealize.ShloMosaic Idealize.ShloMosaic.ValueIdx

/-- The argument of a layer's activation at node `p`, channel `e`: the node's own row through the self weights, its
    aggregated neighbours' row through the neighbour weights, and the bias. -/
def pre {A K B : ℕ} (h a : (⟨2, ![A, K]⟩ : Shape).Idx → EReal) (ws wn : (⟨2, ![K, B]⟩ : Shape).Idx → EReal)
    (b : Fin B → EReal) (p : Fin A) (e : Fin B) : EReal :=
  (∑ k : Fin K, h (ix2 p k) * ws (ix2 k e) + ∑ k : Fin K, a (ix2 p k) * wn (ix2 k e)) + b e

/-- The first, purely linear layer at node `p`, channel `e`. -/
def lin {A K B : ℕ} (x : (⟨2, ![A, K]⟩ : Shape).Idx → EReal) (w : (⟨2, ![K, B]⟩ : Shape).Idx → EReal)
    (b : Fin B → EReal) (p : Fin A) (e : Fin B) : EReal :=
  (∑ k : Fin K, x (ix2 p k) * w (ix2 k e)) + b e

/-! ## A kernel's body on a tile of rows -/

/-- The linear kernel's body: one product of the tile with the weights, plus the bias row on every row. -/
theorem kernel_lin_apply {T K B : ℕ} (D : DotDims ⟨2, ![T, K]⟩ ⟨2, ![K, B]⟩ ⟨2, ![T, B]⟩) (hD : D = DotDims.plain T K B)
    (x : FVec Ideal ⟨2, ![T, K]⟩ .f32) (w : FVec Ideal ⟨2, ![K, B]⟩ .f32) (bv : FVec Ideal ⟨2, ![1, B]⟩ .f32)
    (hbv : (⟨2, ![1, B]⟩ : Shape).ShapeCasts ⟨2, ![1, B]⟩) (hbc : (⟨2, ![1, B]⟩ : Shape).Broadcasts ⟨2, ![T, B]⟩)
    (hlt : FTy.bf16.bits < FTy.f32.bits) (p : Fin T) (e : Fin B) :
    addf (matmul D none (truncf .bf16 x hlt) (truncf .bf16 w hlt) (constant ⟨2, ![T, B]⟩ .f32 0x00000000#32))
        (broadcastTo ⟨2, ![T, B]⟩ (shapeCast ⟨2, ![1, B]⟩ bv hbv) hbc) (ix2 p e)
      = lin x w (fun e => bv (ix2 0 e)) p e := by
  subst hD
  have hm : matmul (DotDims.plain T K B) none (truncf .bf16 x hlt) (truncf .bf16 w hlt) (constant ⟨2, ![T, B]⟩ .f32 0x00000000#32) (ix2 p e)
      = ∑ k : Fin K, x (ix2 p k) * w (ix2 k e) := matmul_plain_zero_apply T K B none (truncf .bf16 x hlt) (truncf .bf16 w hlt) p e
  rw [addf_apply, shapeCast_self, LibRowBroadcast.broadcastTo_1b_ab_apply bv hbc p e 0, hm]
  rfl

/-- A dense kernel's body before its activation: the tile of own features and the tile of aggregated features, each
    through its weights, summed, plus the bias row on every row. -/
theorem kernel_pre_apply {T K B : ℕ} (D : DotDims ⟨2, ![T, K]⟩ ⟨2, ![K, B]⟩ ⟨2, ![T, B]⟩) (hD : D = DotDims.plain T K B)
    (x a : FVec Ideal ⟨2, ![T, K]⟩ .f32) (ws wn : FVec Ideal ⟨2, ![K, B]⟩ .f32) (bv : FVec Ideal ⟨2, ![1, B]⟩ .f32)
    (hx : (⟨2, ![T, K]⟩ : Shape).ShapeCasts ⟨2, ![T, K]⟩) (hbv : (⟨2, ![1, B]⟩ : Shape).ShapeCasts ⟨2, ![1, B]⟩)
    (hbc : (⟨2, ![1, B]⟩ : Shape).Broadcasts ⟨2, ![T, B]⟩) (hlt : FTy.bf16.bits < FTy.f32.bits) (p : Fin T) (e : Fin B) :
    addf (addf (matmul D none (truncf .bf16 (shapeCast ⟨2, ![T, K]⟩ x hx) hlt) (truncf .bf16 ws hlt) (constant ⟨2, ![T, B]⟩ .f32 0x00000000#32))
          (matmul D none (truncf .bf16 (shapeCast ⟨2, ![T, K]⟩ a hx) hlt) (truncf .bf16 wn hlt) (constant ⟨2, ![T, B]⟩ .f32 0x00000000#32)))
        (broadcastTo ⟨2, ![T, B]⟩ (shapeCast ⟨2, ![1, B]⟩ bv hbv) hbc) (ix2 p e)
      = pre x a ws wn (fun e => bv (ix2 0 e)) p e := by
  subst hD
  have hs : matmul (DotDims.plain T K B) none (truncf .bf16 x hlt) (truncf .bf16 ws hlt) (constant ⟨2, ![T, B]⟩ .f32 0x00000000#32) (ix2 p e)
      = ∑ k : Fin K, x (ix2 p k) * ws (ix2 k e) := matmul_plain_zero_apply T K B none (truncf .bf16 x hlt) (truncf .bf16 ws hlt) p e
  have hn : matmul (DotDims.plain T K B) none (truncf .bf16 a hlt) (truncf .bf16 wn hlt) (constant ⟨2, ![T, B]⟩ .f32 0x00000000#32) (ix2 p e)
      = ∑ k : Fin K, a (ix2 p k) * wn (ix2 k e) := matmul_plain_zero_apply T K B none (truncf .bf16 a hlt) (truncf .bf16 wn hlt) p e
  rw [addf_apply, addf_apply, shapeCast_self x, shapeCast_self a, shapeCast_self bv,
    LibRowBroadcast.broadcastTo_1b_ab_apply bv hbc p e 0, hs, hn]
  rfl

/-- A kernel's maximum with the splat of the f32 zero is the rectifier. -/
theorem kernel_relu_apply {s : Shape} (v : FVec Ideal s .f32) (i : s.Idx) :
    maximumf v (broadcast s (Scalar.ofBits .f32 0x00000000#32)) i = max (v i) 0 := by
  rw [maximumf_apply, broadcast_apply]
  exact congrArg (max (v i)) Ideal.ofBits_zero_f32

/-- A kernel's logistic is the logistic function of the entry. -/
theorem kernel_logistic_apply {s : Shape} (v : FVec Ideal s .f32) (i : s.Idx) : logistic v i = Ideal.logistic (v i) := rfl

/-! ## The host's operations on all rows -/

/-- A bias vector broadcast to one row and then down all rows reads, at (p, e), the vector's entry e. -/
theorem host_bias_apply {A B : ℕ} {α : Type} (b : (⟨1, ![B]⟩ : Shape).Idx → α)
    (h1 : (⟨1, ![B]⟩ : Shape).BroadcastsInDim ⟨2, ![1, B]⟩ ![1]) (h2 : (⟨2, ![1, B]⟩ : Shape).BroadcastsInDim ⟨2, ![A, B]⟩ ![0, 1])
    (p : Fin A) (e : Fin B) :
    broadcastInDim ⟨2, ![A, B]⟩ ![0, 1] h2 (broadcastInDim ⟨2, ![1, B]⟩ ![1] h1 b) (ix2 p e) = b (ix1 e) := by
  rw [broadcastInDim_oneRow_apply h2 _ p e]
  refine broadcastInDim_apply ![1] h1 b (ix2 (0 : Fin 1) e) (ix1 e) fun a => ?_
  match a with
  | ⟨0, _⟩ =>
    show e.val = if B = 1 then 0 else e.val
    split
    · have := e.isLt; omega
    · rfl

/-- The host's linear layer. -/
theorem host_lin_apply {A K B : ℕ} (D : DotDims ⟨2, ![A, K]⟩ ⟨2, ![K, B]⟩ ⟨2, ![A, B]⟩) (hD : D = DotDims.plain A K B)
    (x : FVec Ideal ⟨2, ![A, K]⟩ .f32) (w : FVec Ideal ⟨2, ![K, B]⟩ .f32) (b : FVec Ideal ⟨1, ![B]⟩ .f32)
    (h1 : (⟨1, ![B]⟩ : Shape).BroadcastsInDim ⟨2, ![1, B]⟩ ![1]) (h2 : (⟨2, ![1, B]⟩ : Shape).BroadcastsInDim ⟨2, ![A, B]⟩ ![0, 1])
    (p : Fin A) (e : Fin B) :
    addf (Host.dotGeneral D none x w) (broadcastInDim ⟨2, ![A, B]⟩ ![0, 1] h2 (broadcastInDim ⟨2, ![1, B]⟩ ![1] h1 b)) (ix2 p e)
      = lin x w (fun e => b (ix1 e)) p e := by
  subst hD
  rw [addf_apply, host_bias_apply]
  simp only [Host.dotGeneral]
  rw [LibPlainDot.dotGeneral_plain_apply]
  rfl

/-- The host's dense layer before its activation. -/
theorem host_pre_apply {A K B : ℕ} (D : DotDims ⟨2, ![A, K]⟩ ⟨2, ![K, B]⟩ ⟨2, ![A, B]⟩) (hD : D = DotDims.plain A K B)
    (h a : FVec Ideal ⟨2, ![A, K]⟩ .f32) (ws wn : FVec Ideal ⟨2, ![K, B]⟩ .f32) (b : FVec Ideal ⟨1, ![B]⟩ .f32)
    (h1 : (⟨1, ![B]⟩ : Shape).BroadcastsInDim ⟨2, ![1, B]⟩ ![1]) (h2 : (⟨2, ![1, B]⟩ : Shape).BroadcastsInDim ⟨2, ![A, B]⟩ ![0, 1])
    (p : Fin A) (e : Fin B) :
    addf (addf (Host.dotGeneral D none h ws) (Host.dotGeneral D none a wn))
        (broadcastInDim ⟨2, ![A, B]⟩ ![0, 1] h2 (broadcastInDim ⟨2, ![1, B]⟩ ![1] h1 b)) (ix2 p e)
      = pre h a ws wn (fun e => b (ix1 e)) p e := by
  subst hD
  rw [addf_apply, addf_apply, host_bias_apply]
  simp only [Host.dotGeneral]
  rw [LibPlainDot.dotGeneral_plain_apply, LibPlainDot.dotGeneral_plain_apply]
  rfl

/-- The host's maximum with the broadcast f32 zero is the rectifier. -/
theorem host_relu_apply {s : Shape} (v : FVec Ideal s .f32) (hb : (⟨0, ![]⟩ : Shape).BroadcastsInDim s ![]) (i : s.Idx) :
    maximumf v (broadcastInDim s ![] hb (constant (F := Ideal) ⟨0, ![]⟩ .f32 0x00000000#32)) i = max (v i) 0 := by
  rw [maximumf_apply, broadcastInDim_scalar_apply]
  exact congrArg (max (v i)) Ideal.ofBits_zero_f32

/-- The host's spelling of the logistic function, 1 / (1 + exp (-x)) with the f32 one broadcast, is the logistic
    function of the entry: that expression is its definition on the extended reals. -/
theorem host_logistic_apply {s : Shape} (v : FVec Ideal s .f32) (hb : (⟨0, ![]⟩ : Shape).BroadcastsInDim s ![]) (i : s.Idx) :
    Host.divf (broadcastInDim s ![] hb (constant (F := Ideal) ⟨0, ![]⟩ .f32 0x3F800000#32))
        (addf (broadcastInDim s ![] hb (constant (F := Ideal) ⟨0, ![]⟩ .f32 0x3F800000#32)) (Host.exp (Host.negf v))) i
      = Ideal.logistic (v i) := by
  rw [hostDivf_apply, addf_apply, broadcastInDim_scalar_apply]
  show Ideal.div (Ideal.ofBits .f32 0x3F800000#32) (Ideal.ofBits .f32 0x3F800000#32 + Ideal.exp (-(v i))) = Ideal.logistic (v i)
  rw [Ideal.ofBits_one_f32]
  rfl

/-! ## The mean over the neighbours -/

/-- A vector with one entry per node, made a column and spread over the channels, reads the node's entry. -/
theorem column_spread_apply {N C : ℕ} {α : Type} (y : (⟨1, ![N]⟩ : Shape).Idx → α)
    (h1 : (⟨1, ![N]⟩ : Shape).BroadcastsInDim ⟨2, ![N, 1]⟩ ![0]) (h2 : (⟨2, ![N, 1]⟩ : Shape).BroadcastsInDim ⟨2, ![N, C]⟩ ![0, 1])
    (p : Fin N) (e : Fin C) :
    broadcastInDim ⟨2, ![N, C]⟩ ![0, 1] h2 (broadcastInDim ⟨2, ![N, 1]⟩ ![0] h1 y) (ix2 p e) = y (ix1 p) := by
  have e2 := broadcastInDim_apply ![0, 1] h2 (broadcastInDim ⟨2, ![N, 1]⟩ ![0] h1 y) (ix2 p e) (ix2 p (0 : Fin 1)) (fun a => by
    match a with
    | ⟨0, _⟩ =>
      show p.val = if N = 1 then 0 else p.val
      split
      · have := p.isLt; omega
      · rfl
    | ⟨1, _⟩ =>
      show (0 : ℕ) = if (1 : ℕ) = 1 then 0 else e.val
      rw [if_pos rfl])
  have e1 := broadcastInDim_apply ![0] h1 y (ix2 p (0 : Fin 1)) (ix1 p) (fun a => by
    match a with
    | ⟨0, _⟩ =>
      show p.val = if N = 1 then 0 else p.val
      split
      · have := p.isLt; omega
      · rfl)
  exact e2.trans e1

/-- THE LAW THAT JOINS THE TWO PROGRAMS. The neighbour sums times the spread reciprocal of max(degree, 1) are the
    neighbour sums divided by the spread max(degree, 1): the divisor is at least one, so it is not zero, and off a zero
    divisor a product with the reciprocal is the quotient on all the extended reals. -/
theorem sum_times_reciprocal_eq_quotient {N C : ℕ} (S : FVec Ideal ⟨2, ![N, C]⟩ .f32) (d o₁ o₂ : FVec Ideal ⟨1, ![N]⟩ .f32)
    (ho₁ : ∀ i, o₁ i = 1) (ho₂ : ∀ i, o₂ i = 1)
    (h1 : (⟨1, ![N]⟩ : Shape).BroadcastsInDim ⟨2, ![N, 1]⟩ ![0]) (h2 : (⟨2, ![N, 1]⟩ : Shape).BroadcastsInDim ⟨2, ![N, C]⟩ ![0, 1]) :
    mulf S (broadcastInDim ⟨2, ![N, C]⟩ ![0, 1] h2 (broadcastInDim ⟨2, ![N, 1]⟩ ![0] h1 (Host.divf o₂ (maximumf d o₁))))
      = Host.divf S (broadcastInDim ⟨2, ![N, C]⟩ ![0, 1] h2 (broadcastInDim ⟨2, ![N, 1]⟩ ![0] h1 (maximumf d o₁))) := by
  funext i
  obtain ⟨p, e, rfl⟩ : ∃ (p : Fin N) (e : Fin C), i = ix2 p e := ⟨i 0, i 1, eq_ix2 i⟩
  rw [mulf_apply, hostDivf_apply, column_spread_apply, column_spread_apply, hostDivf_apply, maximumf_apply, ho₁, ho₂]
  have hpos : (0 : EReal) < max (d (ix1 p)) 1 := lt_of_lt_of_le zero_lt_one (le_max_right _ _)
  exact Ideal.mul_one_div (ne_of_gt hpos)

end Cert.Gcn

end
-- ==== Proof.LibTransposedDense.lean ====
/-
  The layers of a graph auto-encoder, one entry at a time, on the extended reals.

  Every dense layer takes a matrix X of node features (one row per node) and a weight matrix W stored with one row per
  OUTPUT channel, and returns at node p and channel e

      act ( Σ_k X(p, k) · W(e, k)  +  b(e) ),

  the product of X with the transpose of W plus a bias row, through an activation: the rectifier max(·, 0), the
  logistic function 1 / (1 + exp(-·)), or nothing. A kernel computes it on a tile of rows by one matrix product that
  contracts the last axes of both operands (no transpose is formed), after a change of float format that changes
  nothing here; the host transposes W first and takes the ordinary product. Both are the same sum over k, in the same
  order, so no law of arithmetic beyond reading the operations is needed. Three small facts join the spellings: the
  kernel writes the negation inside the logistic function as 0 - x, which is -x on every extended real; a bias of
  zeros adds nothing; and a bias vector read through its one-row matrix is the vector.
-/
import Idealize.ShloMosaic.PureOps.Ideal.Laws
import Idealize.ShloMosaic.Lib.ValueIdx
import Idealize.ShloMosaic.Lib.Pipeline.Value
import Idealize.ShloMosaic.Lib.ValueLayout
import Idealize.ShloMosaic.Lib.IdealHost
import proofs.«129692_j34102040330339_1_alg».proof.Proof.LibMatmulRhsT
import proofs.«129692_j34102040330339_1_alg».proof.Proof.LibPlainDot
import proofs.«129692_j34102040330339_1_alg».proof.Proof.LibRowBroadcast
import proofs.«129692_j34102040330339_1_alg».proof.Proof.LibDenseLayer

noncomputable section

namespace Cert.GraphAE

open Idealize.ShloMosaic Idealize.ShloMosaic.ValueIdx

/-! ## The layers, index by index -/

/-- X times the transpose of W at (p, e): Σ_k X(p, k) · W(e, k). -/
def lin {A K B : ℕ} (x : (⟨2, ![A, K]⟩ : Shape).Idx → EReal) (w : (⟨2, ![B, K]⟩ : Shape).Idx → EReal) :
    (⟨2, ![A, B]⟩ : Shape).Idx → EReal :=
  fun i => ∑ k : Fin K, x (ix2 (i 0) k) * w (ix2 (i 1) k)

/-- A row b added to every row of a matrix. -/
def addRow {A B : ℕ} (v : (⟨2, ![A, B]⟩ : Shape).Idx → EReal) (b : Fin B → EReal) : (⟨2, ![A, B]⟩ : Shape).Idx → EReal :=
  fun i => v i + b (i 1)

/-- X Wᵀ + b. -/
def affine {A K B : ℕ} (x : (⟨2, ![A, K]⟩ : Shape).Idx → EReal) (w : (⟨2, ![B, K]⟩ : Shape).Idx → EReal)
    (b : Fin B → EReal) : (⟨2, ![A, B]⟩ : Shape).Idx → EReal :=
  addRow (lin x w) b

/-- The rectifier, entry by entry. -/
def relu {s : Shape} (v : s.Idx → EReal) : s.Idx → EReal := fun i => max (v i) 0

/-- The logistic function, entry by entry. -/
def sigmoid {s : Shape} (v : s.Idx → EReal) : s.Idx → EReal := fun i => Ideal.logistic (v i)

/-- A bias of zeros adds nothing: x + 0 = x on every extended real. -/
theorem affine_zero {A K B : ℕ} (x : (⟨2, ![A, K]⟩ : Shape).Idx → EReal) (w : (⟨2, ![B, K]⟩ : Shape).Idx → EReal) :
    affine x w (fun _ => 0) = lin x w :=
  funext fun i => add_zero _

/-! ## A kernel's body on a tile of rows -/

/-- The product of a tile with the transposed weights into a zero accumulator, after the change of float format, plus
    the bias row on every row of the tile, read at (p, e). -/
theorem tile_affine_apply {T K B : ℕ} (D : DotDims ⟨2, ![T, K]⟩ ⟨2, ![B, K]⟩ ⟨2, ![T, B]⟩) (hD : D = DotDims.transposedRhs T K B)
    (x : FVec Ideal ⟨2, ![T, K]⟩ .f32) (w : FVec Ideal ⟨2, ![B, K]⟩ .f32) (bv : FVec Ideal ⟨2, ![1, B]⟩ .f32)
    (hbv : (⟨2, ![1, B]⟩ : Shape).ShapeCasts ⟨2, ![1, B]⟩) (hbc : (⟨2, ![1, B]⟩ : Shape).Broadcasts ⟨2, ![T, B]⟩)
    (hlt : FTy.bf16.bits < FTy.f32.bits) (p : Fin T) (e : Fin B) :
    addf (matmul D none (truncf .bf16 x hlt) (truncf .bf16 w hlt) (constant ⟨2, ![T, B]⟩ .f32 0x00000000#32))
        (broadcastTo ⟨2, ![T, B]⟩ (shapeCast ⟨2, ![1, B]⟩ bv hbv) hbc) (ix2 p e)
      = (∑ k : Fin K, x (ix2 p k) * w (ix2 e k)) + bv (ix2 0 e) := by
  subst hD
  have hm : matmul (DotDims.transposedRhs T K B) none (truncf .bf16 x hlt) (truncf .bf16 w hlt) (constant ⟨2, ![T, B]⟩ .f32 0x00000000#32) (ix2 p e)
      = ∑ k : Fin K, x (ix2 p k) * w (ix2 e k) :=
    LibMatmulRhsT.matmul_transposedRhs_zero_apply T K B none (truncf .bf16 x hlt) (truncf .bf16 w hlt) p e
  rw [addf_apply, shapeCast_self, LibRowBroadcast.broadcastTo_1b_ab_apply bv hbc p e 0, hm]

/-- The same with the tile passed through a shape cast to its own shape first. -/
theorem tile_affine_cast_apply {T K B : ℕ} (D : DotDims ⟨2, ![T, K]⟩ ⟨2, ![B, K]⟩ ⟨2, ![T, B]⟩) (hD : D = DotDims.transposedRhs T K B)
    (x : FVec Ideal ⟨2, ![T, K]⟩ .f32) (w : FVec Ideal ⟨2, ![B, K]⟩ .f32) (bv : FVec Ideal ⟨2, ![1, B]⟩ .f32)
    (hx : (⟨2, ![T, K]⟩ : Shape).ShapeCasts ⟨2, ![T, K]⟩)
    (hbv : (⟨2, ![1, B]⟩ : Shape).ShapeCasts ⟨2, ![1, B]⟩) (hbc : (⟨2, ![1, B]⟩ : Shape).Broadcasts ⟨2, ![T, B]⟩)
    (hlt : FTy.bf16.bits < FTy.f32.bits) (p : Fin T) (e : Fin B) :
    addf (matmul D none (truncf .bf16 (shapeCast ⟨2, ![T, K]⟩ x hx) hlt) (truncf .bf16 w hlt) (constant ⟨2, ![T, B]⟩ .f32 0x00000000#32))
        (broadcastTo ⟨2, ![T, B]⟩ (shapeCast ⟨2, ![1, B]⟩ bv hbv) hbc) (ix2 p e)
      = (∑ k : Fin K, x (ix2 p k) * w (ix2 e k)) + bv (ix2 0 e) := by
  rw [shapeCast_self x hx]
  exact tile_affine_apply D hD x w bv hbv hbc hlt p e

/-- A tile plus the bias row on every row (the tile and the row each through a shape cast to its own shape). -/
theorem tile_addRow_apply {T B : ℕ} (v : FVec Ideal ⟨2, ![T, B]⟩ .f32) (bv : FVec Ideal ⟨2, ![1, B]⟩ .f32)
    (hv : (⟨2, ![T, B]⟩ : Shape).ShapeCasts ⟨2, ![T, B]⟩)
    (hbv : (⟨2, ![1, B]⟩ : Shape).ShapeCasts ⟨2, ![1, B]⟩) (hbc : (⟨2, ![1, B]⟩ : Shape).Broadcasts ⟨2, ![T, B]⟩)
    (p : Fin T) (e : Fin B) :
    addf (shapeCast ⟨2, ![T, B]⟩ v hv) (broadcastTo ⟨2, ![T, B]⟩ (shapeCast ⟨2, ![1, B]⟩ bv hbv) hbc) (ix2 p e)
      = v (ix2 p e) + bv (ix2 0 e) := by
  rw [addf_apply, shapeCast_self v hv, shapeCast_self bv hbv, LibRowBroadcast.broadcastTo_1b_ab_apply bv hbc p e 0]

/-- A kernel's spelling of the logistic function, 1 / (1 + exp (0 - x)) with the constants splat, is the logistic
    function of the entry: 0 - x = -x on every extended real. -/
theorem tile_sigmoid_apply {s : Shape} (v : FVec Ideal s .f32) (i : s.Idx) :
    divf (broadcast s (Scalar.ofBits .f32 0x3F800000#32))
        (addf (broadcast s (Scalar.ofBits .f32 0x3F800000#32))
          (exp (subf (broadcast s (Scalar.ofBits .f32 0x00000000#32)) v))) i
      = Ideal.logistic (v i) := by
  show Ideal.div (Ideal.ofBits .f32 0x3F800000#32)
      (Ideal.ofBits .f32 0x3F800000#32 + Ideal.exp (Ideal.ofBits .f32 0x00000000#32 - v i)) = Ideal.logistic (v i)
  rw [Ideal.ofBits_one_f32, Ideal.ofBits_zero_f32, zero_sub]
  rfl

/-! ## The host's operations on all rows -/

/-- The host's product with the transposed weights, read at (p, e). -/
theorem host_lin_apply {A K B : ℕ} (D : DotDims ⟨2, ![A, K]⟩ ⟨2, ![K, B]⟩ ⟨2, ![A, B]⟩) (hD : D = DotDims.plain A K B)
    (x : FVec Ideal ⟨2, ![A, K]⟩ .f32) (w : FVec Ideal ⟨2, ![B, K]⟩ .f32)
    (ht : (⟨2, ![B, K]⟩ : Shape).Transposes [1, 0] ⟨2, ![K, B]⟩) (p : Fin A) (e : Fin B) :
    Host.dotGeneral D none x (transpose ⟨2, ![K, B]⟩ [1, 0] w ht) (ix2 p e) = ∑ k : Fin K, x (ix2 p k) * w (ix2 e k) := by
  subst hD
  simp only [Host.dotGeneral]
  rw [LibPlainDot.dotGeneral_plain_apply]
  exact Finset.sum_congr rfl fun k _ => congrArg (x (ix2 p k) * ·) (LibPlainDot.transpose_swap_apply B K w ht k e)

/-- The host's product with the transposed weights is `lin`. -/
theorem host_lin_eq {A K B : ℕ} (D : DotDims ⟨2, ![A, K]⟩ ⟨2, ![K, B]⟩ ⟨2, ![A, B]⟩) (hD : D = DotDims.plain A K B)
    (x : FVec Ideal ⟨2, ![A, K]⟩ .f32) (w : FVec Ideal ⟨2, ![B, K]⟩ .f32)
    (ht : (⟨2, ![B, K]⟩ : Shape).Transposes [1, 0] ⟨2, ![K, B]⟩) :
    Host.dotGeneral D none x (transpose ⟨2, ![K, B]⟩ [1, 0] w ht) = lin x w := by
  funext i
  obtain ⟨p, e, rfl⟩ : ∃ (p : Fin A) (e : Fin B), i = ix2 p e := ⟨i 0, i 1, eq_ix2 i⟩
  exact host_lin_apply D hD x w ht p e

/-- The host's sum of a matrix and a bias vector broadcast to one row and then down all rows is `addRow`. -/
theorem host_addRow_eq {A B : ℕ} (v : FVec Ideal ⟨2, ![A, B]⟩ .f32) (b : FVec Ideal ⟨1, ![B]⟩ .f32)
    (h1 : (⟨1, ![B]⟩ : Shape).BroadcastsInDim ⟨2, ![1, B]⟩ ![1]) (h2 : (⟨2, ![1, B]⟩ : Shape).BroadcastsInDim ⟨2, ![A, B]⟩ ![0, 1]) :
    addf v (broadcastInDim ⟨2, ![A, B]⟩ ![0, 1] h2 (broadcastInDim ⟨2, ![1, B]⟩ ![1] h1 b)) = addRow v (fun e => b (ix1 e)) := by
  funext i
  obtain ⟨p, e, rfl⟩ : ∃ (p : Fin A) (e : Fin B), i = ix2 p e := ⟨i 0, i 1, eq_ix2 i⟩
  rw [addf_apply, Gcn.host_bias_apply]
  rfl

/-- The host's maximum with the broadcast f32 zero is `relu`. -/
theorem host_relu_eq {s : Shape} (v : FVec Ideal s .f32) (hb : (⟨0, ![]⟩ : Shape).BroadcastsInDim s ![]) :
    maximumf v (broadcastInDim s ![] hb (constant (F := Ideal) ⟨0, ![]⟩ .f32 0x00000000#32)) = relu v :=
  funext fun i => Gcn.host_relu_apply v hb i

/-- The host's spelling of the logistic function is `sigmoid`. -/
theorem host_sigmoid_eq {s : Shape} (v : FVec Ideal s .f32) (hb : (⟨0, ![]⟩ : Shape).BroadcastsInDim s ![]) :
    Host.divf (broadcastInDim s ![] hb (constant (F := Ideal) ⟨0, ![]⟩ .f32 0x3F800000#32))
        (addf (broadcastInDim s ![] hb (constant (F := Ideal) ⟨0, ![]⟩ .f32 0x3F800000#32)) (Host.exp (Host.negf v)))
      = sigmoid v :=
  funext fun i => Gcn.host_logistic_apply v hb i

/-! ## A bias vector read through its one-row matrix -/

/-- A vector made a one-row matrix, read along that row, is the vector. -/
theorem row_of_vector {B : ℕ} (b : (⟨1, ![B]⟩ : Shape).Idx → EReal) (h : (⟨1, ![B]⟩ : Shape).ShapeCasts ⟨2, ![1, B]⟩) :
    (fun e : Fin B => shapeCast ⟨2, ![1, B]⟩ b h (ix2 0 e)) = fun e => b (ix1 e) :=
  funext fun e => shapeCast_a_1a_apply b h 0 e

/-- A vector of f32 zeros made a one-row matrix, read along that row, is zero. -/
theorem row_of_zeros {B : ℕ} (hb : (⟨0, ![]⟩ : Shape).BroadcastsInDim ⟨1, ![B]⟩ ![])
    (h : (⟨1, ![B]⟩ : Shape).ShapeCasts ⟨2, ![1, B]⟩) :
    (fun e : Fin B => shapeCast ⟨2, ![1, B]⟩ (broadcastInDim ⟨1, ![B]⟩ ![] hb (constant (F := Ideal) ⟨0, ![]⟩ .f32 0x00000000#32)) h (ix2 0 e))
      = fun _ => (0 : EReal) :=
  funext fun e => by
    rw [shapeCast_a_1a_apply _ h 0 e, broadcastInDim_scalar_apply]
    exact Ideal.ofBits_zero_f32

end Cert.GraphAE

end
-- ==== Proof.Enc1.lean ====
/-
  The first encoder layer's launch: its output array.

  The launch runs over ten tiles of 5000 node rows. At each tile the body multiplies the tile of X (256 features) with
  the transposed weights (128 output channels), adds the bias row to every row and takes the maximum with zero. The
  ten written-back blocks are the ten row ranges of ONE array: relu (X Wᵀ + b) on all 50000 rows.
-/
import proofs.«129692_j34102040330339_1_alg».proof.Proof.Gen.KernelIdeal.Frame
import proofs.«129692_j34102040330339_1_alg».proof.Proof.LibTransposedDense

set_option maxRecDepth 16384

noncomputable section

namespace Cert.KernelIdeal.Enc1

open Cert.KernelIdeal Cert.KernelIdeal.Gen Cert.GraphAE
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The layer on all rows: relu (X Wᵀ + b), the bias given as a one-row matrix. -/
def G (X : S50000x256.Idx → EReal) (W : S128x256.Idx → EReal) (Bv : S1x128.Idx → EReal) : S50000x128.Idx → EReal :=
  relu (affine X W (fun e => Bv (ix2 0 e)))

/-- The body's arithmetic on a tile of 5000 rows, one entry. -/
theorem payload_apply (x0 : Vec Ideal S5000x256 .f32) (x1 : Vec Ideal S128x256 .f32) (x2 : Vec Ideal S1x128 .f32)
    (p : Fin 5000) (e : Fin 128) :
    k0_pay1 (F := Ideal) x0 x1 x2 (ix2 p e) = max ((∑ k : Fin 256, x0 (ix2 p k) * x1 (ix2 e k)) + x2 (ix2 0 e)) 0 :=
  (Gcn.kernel_relu_apply _ _).trans (congrArg (max · 0) (tile_affine_apply _ rfl x0 x1 x2 _ _ _ p e))

/-- One entry of a tile against the layer on all rows: the tile's row p is row r of X, and the weights and the
    bias row are the whole arrays. -/
theorem tile_eq (X : S50000x256.Idx → EReal) (W : S128x256.Idx → EReal) (Bv : S1x128.Idx → EReal)
    (x0 : Vec Ideal S5000x256 .f32) (x1 : Vec Ideal S128x256 .f32) (x2 : Vec Ideal S1x128 .f32)
    (p : Fin 5000) (e : Fin 128) (r : Fin 50000)
    (h0 : ∀ k : Fin 256, x0 (ix2 p k) = X (ix2 r k))
    (h1 : ∀ k : Fin 256, x1 (ix2 e k) = W (ix2 e k))
    (h2 : x2 (ix2 0 e) = Bv (ix2 0 e)) :
    k0_pay1 (F := Ideal) x0 x1 x2 (ix2 p e) = G X W Bv (ix2 r e) := by
  rw [payload_apply]
  show _ = max ((∑ k : Fin 256, X (ix2 r k) * W (ix2 e k)) + Bv (ix2 0 e)) 0
  rw [h2, Finset.sum_congr rfl fun k _ => by rw [h0, h1]]

/-- The printed index maps over the grid: point t reads rows t·5000 … of X and writes the same rows of the output; the
    weights and the bias row are read whole at every point. -/
theorem idx_facts : ∀ t : Fin cfg0.N,
      win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is block t of the layer of the arrays the launch finds. -/
theorem flushed_eq (c : Dev nD) (t : Fin cfg0.N) :
    (dat0 V c).flushed 3 t = ((cfg0.win 3).blk t).view.read (Elt Ideal) (G (V c main_arg0) (V c main_arg3) (V c main_v9)) := by
  show (cfg0.win 3).cut (grid0.coords t) ((dat0 V c).after 3 t) = _
  rw [after0_3]
  unfold out0_3
  rw [View.canon_unit_zero hz]
  simp only [View.ld_unit_zero (S := S5000x256) hz, View.ld_unit_zero (S := S128x256) hz, View.ld_unit_zero (S := S1x128) hz]
  obtain ⟨e00, e01, e10, e11, e20, e21, e30, e31⟩ := idx_facts t
  funext j
  obtain ⟨p, e, rfl⟩ : ∃ (p : Fin 5000) (e : Fin 128), j = ix2 p e := ⟨j 0, j 1, eq_ix2 j⟩
  show k0_pay1 (iblk0 V c 0 t) (iblk0 V c 1 t) (iblk0 V c 2 t) (ix2 p e)
    = G (V c main_arg0) (V c main_arg3) (V c main_v9) (((cfg0.win 3).blk t).view.emb (ix2 p e))
  have ht : t.val < grid0.N := t.isLt
  rw [N_0] at ht
  have hr : t.val * 5000 + p.val < 50000 := by have := p.isLt; omega
  have hemb : ((cfg0.win 3).blk t).view.emb (ix2 p e) = ix2 (⟨t.val * 5000 + p.val, hr⟩ : Fin 50000) e := by
    funext a; apply Fin.ext
    match a with
    | ⟨0, _⟩ => show win0_3.index t (0 : Fin 2) * 5000 + 1 * p.val = t.val * 5000 + p.val; omega
    | ⟨1, _⟩ => show win0_3.index t (1 : Fin 2) * 128 + 1 * e.val = e.val; omega
  rw [hemb]
  refine tile_eq _ _ _ _ _ _ p e _ (fun k => ?_) (fun k => ?_) ?_
  · show V c main_arg0 (((cfg0.win 0).blk t).view.emb (ix2 p k)) = V c main_arg0 (ix2 (⟨t.val * 5000 + p.val, hr⟩ : Fin 50000) k)
    refine congrArg _ (funext fun a => Fin.ext ?_)
    match a with
    | ⟨0, _⟩ => show win0_0.index t (0 : Fin 2) * 5000 + 1 * p.val = t.val * 5000 + p.val; omega
    | ⟨1, _⟩ => show win0_0.index t (1 : Fin 2) * 256 + 1 * k.val = k.val; omega
  · show V c main_arg3 (((cfg0.win 1).blk t).view.emb (ix2 e k)) = V c main_arg3 (ix2 e k)
    refine congrArg _ (funext fun a => Fin.ext ?_)
    match a with
    | ⟨0, _⟩ => show win0_1.index t (0 : Fin 2) * 128 + 1 * e.val = e.val; omega
    | ⟨1, _⟩ => show win0_1.index t (1 : Fin 2) * 256 + 1 * k.val = k.val; omega
  · show V c main_v9 (((cfg0.win 2).blk t).view.emb (ix2 0 e)) = V c main_v9 (ix2 0 e)
    refine congrArg _ (funext fun a => Fin.ext ?_)
    match a with
    | ⟨0, _⟩ => show win0_2.index t (0 : Fin 2) * 1 + 1 * 0 = 0; omega
    | ⟨1, _⟩ => show win0_2.index t (1 : Fin 2) * 128 + 1 * e.val = e.val; omega

/-- An index of the output array is in point t's block iff each coordinate is in the block's range on its axis. -/
theorem mem_blk (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v10).slice (win0_3.rect t)).set ↔ _
  rw [View.set_slice_whole, Rect.mem_set_unit]
  exact Iff.rfl

/-- The output array after the launch: the layer of the arrays the launch finds. Row r is written by point r / 5000. -/
theorem final (c : Dev nD) : (dat0 V c).arrAt 3 cfg0.N = G (V c main_arg0) (V c main_arg3) (V c main_v9) :=
  (dat0 V c).arrAt_eq_of_cover 3 _ (fun t _ => flushed_eq V c t) fun i => by
    have hi0 : (i 0).val < 50000 := (i 0).isLt
    have hi1 : (i 1).val < 128 := (i 1).isLt
    have hlt : (i 0).val / 5000 < grid0.N := by rw [N_0]; omega
    obtain ⟨e00, e01, e10, e11, e20, e21, e30, e31⟩ := idx_facts ⟨(i 0).val / 5000, hlt⟩
    refine ⟨⟨(i 0).val / 5000, hlt⟩, flush0_3 _, ?_⟩
    rw [mem_blk]
    intro a
    match a with
    | ⟨0, _⟩ =>
      show win0_3.index ⟨(i 0).val / 5000, hlt⟩ (0 : Fin 2) * 5000 ≤ (i 0).val ∧ (i 0).val < win0_3.index ⟨(i 0).val / 5000, hlt⟩ (0 : Fin 2) * 5000 + 5000
      rw [e30]
      show (i 0).val / 5000 * 5000 ≤ (i 0).val ∧ (i 0).val < (i 0).val / 5000 * 5000 + 5000
      omega
    | ⟨1, _⟩ =>
      show win0_3.index ⟨(i 0).val / 5000, hlt⟩ (1 : Fin 2) * 128 ≤ (i 1).val ∧ (i 1).val < win0_3.index ⟨(i 0).val / 5000, hlt⟩ (1 : Fin 2) * 128 + 128
      rw [e31]
      omega

end Cert.KernelIdeal.Enc1

end
-- ==== Proof.Enc2.lean ====
/-
  The second encoder layer's launch: its output array.

  Ten tiles of 5000 node rows; at each the tile of X (128 features) times the transposed weights (64 channels), plus
  the bias row on every row, through the rectifier. Together the written-back blocks are relu (X Wᵀ + b) on all rows.
-/
import proofs.«129692_j34102040330339_1_alg».proof.Proof.Gen.KernelIdeal.Frame
import proofs.«129692_j34102040330339_1_alg».proof.Proof.LibTransposedDense

set_option maxRecDepth 16384

noncomputable section

namespace Cert.KernelIdeal.Enc2

open Cert.KernelIdeal Cert.KernelIdeal.Gen Cert.GraphAE
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The layer on all rows: relu (X Wᵀ + b), the bias given as a one-row matrix. -/
def G (X : S50000x128.Idx → EReal) (W : S64x128.Idx → EReal) (Bv : S1x64.Idx → EReal) : S50000x64.Idx → EReal :=
  relu (affine X W (fun e => Bv (ix2 0 e)))

/-- The body's arithmetic on a tile of 5000 rows, one entry. -/
theorem payload_apply (x0 : Vec Ideal S5000x128 .f32) (x1 : Vec Ideal S64x128 .f32) (x2 : Vec Ideal S1x64 .f32)
    (p : Fin 5000) (e : Fin 64) :
    k1_pay1 (F := Ideal) x0 x1 x2 (ix2 p e) = max ((∑ k : Fin 128, x0 (ix2 p k) * x1 (ix2 e k)) + x2 (ix2 0 e)) 0 :=
  (Gcn.kernel_relu_apply _ _).trans (congrArg (max · 0) (tile_affine_cast_apply _ rfl x0 x1 x2 _ _ _ _ p e))

/-- One entry of a tile against the layer on all rows: the tile's row p is row r of X, and the weights and the
    bias row are the whole arrays. -/
theorem tile_eq (X : S50000x128.Idx → EReal) (W : S64x128.Idx → EReal) (Bv : S1x64.Idx → EReal)
    (x0 : Vec Ideal S5000x128 .f32) (x1 : Vec Ideal S64x128 .f32) (x2 : Vec Ideal S1x64 .f32)
    (p : Fin 5000) (e : Fin 64) (r : Fin 50000)
    (h0 : ∀ k : Fin 128, x0 (ix2 p k) = X (ix2 r k))
    (h1 : ∀ k : Fin 128, x1 (ix2 e k) = W (ix2 e k))
    (h2 : x2 (ix2 0 e) = Bv (ix2 0 e)) :
    k1_pay1 (F := Ideal) x0 x1 x2 (ix2 p e) = G X W Bv (ix2 r e) := by
  rw [payload_apply]
  show _ = max ((∑ k : Fin 128, X (ix2 r k) * W (ix2 e k)) + Bv (ix2 0 e)) 0
  rw [h2, Finset.sum_congr rfl fun k _ => by rw [h0, h1]]

/-- The printed index maps over the grid: point t reads rows t·5000 … of X and writes the same rows of the output; the
    weights and the bias row are read whole at every point. -/
theorem idx_facts : ∀ t : Fin cfg1.N,
      win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back is block t of the layer of the arrays the launch finds. -/
theorem flushed_eq (c : Dev nD) (t : Fin cfg1.N) :
    (dat1 V c).flushed 3 t = ((cfg1.win 3).blk t).view.read (Elt Ideal) (G (V c main_v10) (V c main_arg5) (V c main_v11)) := by
  show (cfg1.win 3).cut (grid1.coords t) ((dat1 V c).after 3 t) = _
  rw [after1_3]
  unfold out1_3
  rw [View.canon_unit_zero hz]
  simp only [View.ld_unit_zero (S := S5000x128) hz, View.ld_unit_zero (S := S64x128) hz, View.ld_unit_zero (S := S1x64) hz]
  obtain ⟨e00, e01, e10, e11, e20, e21, e30, e31⟩ := idx_facts t
  funext j
  obtain ⟨p, e, rfl⟩ : ∃ (p : Fin 5000) (e : Fin 64), j = ix2 p e := ⟨j 0, j 1, eq_ix2 j⟩
  show k1_pay1 (iblk1 V c 0 t) (iblk1 V c 1 t) (iblk1 V c 2 t) (ix2 p e)
    = G (V c main_v10) (V c main_arg5) (V c main_v11) (((cfg1.win 3).blk t).view.emb (ix2 p e))
  have ht : t.val < grid1.N := t.isLt
  rw [N_1] at ht
  have hr : t.val * 5000 + p.val < 50000 := by have := p.isLt; omega
  have hemb : ((cfg1.win 3).blk t).view.emb (ix2 p e) = ix2 (⟨t.val * 5000 + p.val, hr⟩ : Fin 50000) e := by
    funext a; apply Fin.ext
    match a with
    | ⟨0, _⟩ => show win1_3.index t (0 : Fin 2) * 5000 + 1 * p.val = t.val * 5000 + p.val; omega
    | ⟨1, _⟩ => show win1_3.index t (1 : Fin 2) * 64 + 1 * e.val = e.val; omega
  rw [hemb]
  refine tile_eq _ _ _ _ _ _ p e _ (fun k => ?_) (fun k => ?_) ?_
  · show V c main_v10 (((cfg1.win 0).blk t).view.emb (ix2 p k)) = V c main_v10 (ix2 (⟨t.val * 5000 + p.val, hr⟩ : Fin 50000) k)
    refine congrArg _ (funext fun a => Fin.ext ?_)
    match a with
    | ⟨0, _⟩ => show win1_0.index t (0 : Fin 2) * 5000 + 1 * p.val = t.val * 5000 + p.val; omega
    | ⟨1, _⟩ => show win1_0.index t (1 : Fin 2) * 128 + 1 * k.val = k.val; omega
  · show V c main_arg5 (((cfg1.win 1).blk t).view.emb (ix2 e k)) = V c main_arg5 (ix2 e k)
    refine congrArg _ (funext fun a => Fin.ext ?_)
    match a with
    | ⟨0, _⟩ => show win1_1.index t (0 : Fin 2) * 64 + 1 * e.val = e.val; omega
    | ⟨1, _⟩ => show win1_1.index t (1 : Fin 2) * 128 + 1 * k.val = k.val; omega
  · show V c main_v11 (((cfg1.win 2).blk t).view.emb (ix2 0 e)) = V c main_v11 (ix2 0 e)
    refine congrArg _ (funext fun a => Fin.ext ?_)
    match a with
    | ⟨0, _⟩ => show win1_2.index t (0 : Fin 2) * 1 + 1 * 0 = 0; omega
    | ⟨1, _⟩ => show win1_2.index t (1 : Fin 2) * 64 + 1 * e.val = e.val; omega

/-- An index of the output array is in point t's block iff each coordinate is in the block's range on its axis. -/
theorem mem_blk (t : Fin cfg1.N) (i : S50000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v12).slice (win1_3.rect t)).set ↔ _
  rw [View.set_slice_whole, Rect.mem_set_unit]
  exact Iff.rfl

/-- The output array after the launch: the layer of the arrays the launch finds. Row r is written by point r / 5000. -/
theorem final (c : Dev nD) : (dat1 V c).arrAt 3 cfg1.N = G (V c main_v10) (V c main_arg5) (V c main_v11) :=
  (dat1 V c).arrAt_eq_of_cover 3 _ (fun t _ => flushed_eq V c t) fun i => by
    have hi0 : (i 0).val < 50000 := (i 0).isLt
    have hi1 : (i 1).val < 64 := (i 1).isLt
    have hlt : (i 0).val / 5000 < grid1.N := by rw [N_1]; omega
    obtain ⟨e00, e01, e10, e11, e20, e21, e30, e31⟩ := idx_facts ⟨(i 0).val / 5000, hlt⟩
    refine ⟨⟨(i 0).val / 5000, hlt⟩, flush1_3 _, ?_⟩
    rw [mem_blk]
    intro a
    match a with
    | ⟨0, _⟩ =>
      show win1_3.index ⟨(i 0).val / 5000, hlt⟩ (0 : Fin 2) * 5000 ≤ (i 0).val ∧ (i 0).val < win1_3.index ⟨(i 0).val / 5000, hlt⟩ (0 : Fin 2) * 5000 + 5000
      rw [e30]
      show (i 0).val / 5000 * 5000 ≤ (i 0).val ∧ (i 0).val < (i 0).val / 5000 * 5000 + 5000
      omega
    | ⟨1, _⟩ =>
      show win1_3.index ⟨(i 0).val / 5000, hlt⟩ (1 : Fin 2) * 64 ≤ (i 1).val ∧ (i 1).val < win1_3.index ⟨(i 0).val / 5000, hlt⟩ (1 : Fin 2) * 64 + 64
      rw [e31]
      omega

end Cert.KernelIdeal.Enc2

end
-- ==== Proof.Conv1Lin.lean ====
/-
  The first graph convolution's per-node linear map: the launch's output array.

  Ten tiles of 5000 node rows; at each the tile of X (64 features) times the transposed weights (64 channels), plus a
  bias row on every row, and no activation. Together the written-back blocks are X Wᵀ + b on all rows (the row this
  launch is given is all zeros; that is used where the launches are chained, not here).
-/
import proofs.«129692_j34102040330339_1_alg».proof.Proof.Gen.KernelIdeal.Frame
import proofs.«129692_j34102040330339_1_alg».proof.Proof.LibTransposedDense

set_option maxRecDepth 16384

noncomputable section

namespace Cert.KernelIdeal.Conv1Lin

open Cert.KernelIdeal Cert.KernelIdeal.Gen Cert.GraphAE
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The layer on all rows: X Wᵀ + b, the bias given as a one-row matrix. -/
def G (X : S50000x64.Idx → EReal) (W : S64x64.Idx → EReal) (Bv : S1x64.Idx → EReal) : S50000x64.Idx → EReal :=
  affine X W (fun e => Bv (ix2 0 e))

/-- The body's arithmetic on a tile of 5000 rows, one entry. -/
theorem payload_apply (x0 : Vec Ideal S5000x64 .f32) (x1 : Vec Ideal S64x64 .f32) (x2 : Vec Ideal S1x64 .f32)
    (p : Fin 5000) (e : Fin 64) :
    k2_pay1 (F := Ideal) x0 x1 x2 (ix2 p e) = (∑ k : Fin 64, x0 (ix2 p k) * x1 (ix2 e k)) + x2 (ix2 0 e) :=
  tile_affine_cast_apply _ rfl x0 x1 x2 _ _ _ _ p e

/-- One entry of a tile against the layer on all rows: the tile's row p is row r of X, and the weights and the
    bias row are the whole arrays. -/
theorem tile_eq (X : S50000x64.Idx → EReal) (W : S64x64.Idx → EReal) (Bv : S1x64.Idx → EReal)
    (x0 : Vec Ideal S5000x64 .f32) (x1 : Vec Ideal S64x64 .f32) (x2 : Vec Ideal S1x64 .f32)
    (p : Fin 5000) (e : Fin 64) (r : Fin 50000)
    (h0 : ∀ k : Fin 64, x0 (ix2 p k) = X (ix2 r k))
    (h1 : ∀ k : Fin 64, x1 (ix2 e k) = W (ix2 e k))
    (h2 : x2 (ix2 0 e) = Bv (ix2 0 e)) :
    k2_pay1 (F := Ideal) x0 x1 x2 (ix2 p e) = G X W Bv (ix2 r e) := by
  rw [payload_apply]
  show _ = (∑ k : Fin 64, X (ix2 r k) * W (ix2 e k)) + Bv (ix2 0 e)
  rw [h2, Finset.sum_congr rfl fun k _ => by rw [h0, h1]]

/-- The printed index maps over the grid: point t reads rows t·5000 … of X and writes the same rows of the output; the
    weights and the bias row are read whole at every point. -/
theorem idx_facts : ∀ t : Fin cfg2.N,
      win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point t writes back is block t of the layer of the arrays the launch finds. -/
theorem flushed_eq (c : Dev nD) (t : Fin cfg2.N) :
    (dat2 V c).flushed 3 t = ((cfg2.win 3).blk t).view.read (Elt Ideal) (G (V c main_v12) (V c main_arg7) (V c main_v14)) := by
  show (cfg2.win 3).cut (grid2.coords t) ((dat2 V c).after 3 t) = _
  rw [after2_3]
  unfold out2_3
  rw [View.canon_unit_zero hz]
  simp only [View.ld_unit_zero (S := S5000x64) hz, View.ld_unit_zero (S := S64x64) hz, View.ld_unit_zero (S := S1x64) hz]
  obtain ⟨e00, e01, e10, e11, e20, e21, e30, e31⟩ := idx_facts t
  funext j
  obtain ⟨p, e, rfl⟩ : ∃ (p : Fin 5000) (e : Fin 64), j = ix2 p e := ⟨j 0, j 1, eq_ix2 j⟩
  show k2_pay1 (iblk2 V c 0 t) (iblk2 V c 1 t) (iblk2 V c 2 t) (ix2 p e)
    = G (V c main_v12) (V c main_arg7) (V c main_v14) (((cfg2.win 3).blk t).view.emb (ix2 p e))
  have ht : t.val < grid2.N := t.isLt
  rw [N_2] at ht
  have hr : t.val * 5000 + p.val < 50000 := by have := p.isLt; omega
  have hemb : ((cfg2.win 3).blk t).view.emb (ix2 p e) = ix2 (⟨t.val * 5000 + p.val, hr⟩ : Fin 50000) e := by
    funext a; apply Fin.ext
    match a with
    | ⟨0, _⟩ => show win2_3.index t (0 : Fin 2) * 5000 + 1 * p.val = t.val * 5000 + p.val; omega
    | ⟨1, _⟩ => show win2_3.index t (1 : Fin 2) * 64 + 1 * e.val = e.val; omega
  rw [hemb]
  refine tile_eq _ _ _ _ _ _ p e _ (fun k => ?_) (fun k => ?_) ?_
  · show V c main_v12 (((cfg2.win 0).blk t).view.emb (ix2 p k)) = V c main_v12 (ix2 (⟨t.val * 5000 + p.val, hr⟩ : Fin 50000) k)
    refine congrArg _ (funext fun a => Fin.ext ?_)
    match a with
    | ⟨0, _⟩ => show win2_0.index t (0 : Fin 2) * 5000 + 1 * p.val = t.val * 5000 + p.val; omega
    | ⟨1, _⟩ => show win2_0.index t (1 : Fin 2) * 64 + 1 * k.val = k.val; omega
  · show V c main_arg7 (((cfg2.win 1).blk t).view.emb (ix2 e k)) = V c main_arg7 (ix2 e k)
    refine congrArg _ (funext fun a => Fin.ext ?_)
    match a with
    | ⟨0, _⟩ => show win2_1.index t (0 : Fin 2) * 64 + 1 * e.val = e.val; omega
    | ⟨1, _⟩ => show win2_1.index t (1 : Fin 2) * 64 + 1 * k.val = k.val; omega
  · show V c main_v14 (((cfg2.win 2).blk t).view.emb (ix2 0 e)) = V c main_v14 (ix2 0 e)
    refine congrArg _ (funext fun a => Fin.ext ?_)
    match a with
    | ⟨0, _⟩ => show win2_2.index t (0 : Fin 2) * 1 + 1 * 0 = 0; omega
    | ⟨1, _⟩ => show win2_2.index t (1 : Fin 2) * 64 + 1 * e.val = e.val; omega

/-- An index of the output array is in point t's block iff each coordinate is in the block's range on its axis. -/
theorem mem_blk (t : Fin cfg2.N) (i : S50000x64.Idx) :
    i ∈ ((cfg2.win 3).blk t).view.set ↔ ∀ a : Fin 2, win2_3.index t a * S5000x64.size a ≤ (i a).val ∧ (i a).val < win2_3.index t a * S5000x64.size a + S5000x64.size a := by
  show i ∈ ((View.whole main_v15).slice (win2_3.rect t)).set ↔ _
  rw [View.set_slice_whole, Rect.mem_set_unit]
  exact Iff.rfl

/-- The output array after the launch: the layer of the arrays the launch finds. Row r is written by point r / 5000. -/
theorem final (c : Dev nD) : (dat2 V c).arrAt 3 cfg2.N = G (V c main_v12) (V c main_arg7) (V c main_v14) :=
  (dat2 V c).arrAt_eq_of_cover 3 _ (fun t _ => flushed_eq V c t) fun i => by
    have hi0 : (i 0).val < 50000 := (i 0).isLt
    have hi1 : (i 1).val < 64 := (i 1).isLt
    have hlt : (i 0).val / 5000 < grid2.N := by rw [N_2]; omega
    obtain ⟨e00, e01, e10, e11, e20, e21, e30, e31⟩ := idx_facts ⟨(i 0).val / 5000, hlt⟩
    refine ⟨⟨(i 0).val / 5000, hlt⟩, flush2_3 _, ?_⟩
    rw [mem_blk]
    intro a
    match a with
    | ⟨0, _⟩ =>
      show win2_3.index ⟨(i 0).val / 5000, hlt⟩ (0 : Fin 2) * 5000 ≤ (i 0).val ∧ (i 0).val < win2_3.index ⟨(i 0).val / 5000, hlt⟩ (0 : Fin 2) * 5000 + 5000
      rw [e30]
      show (i 0).val / 5000 * 5000 ≤ (i 0).val ∧ (i 0).val < (i 0).val / 5000 * 5000 + 5000
      omega
    | ⟨1, _⟩ =>
      show win2_3.index ⟨(i 0).val / 5000, hlt⟩ (1 : Fin 2) * 64 ≤ (i 1).val ∧ (i 1).val < win2_3.index ⟨(i 0).val / 5000, hlt⟩ (1 : Fin 2) * 64 + 64
      rw [e31]
      omega

end Cert.KernelIdeal.Conv1Lin

end
-- ==== Proof.Conv1Act.lean ====
/-
  The first graph convolution's closing launch: the aggregated rows plus the bias, rectified.

  Ten tiles of 5000 node rows; at each the body adds the bias row to every row of the tile and takes the maximum with
  zero. Together the written-back blocks are relu (X + b) on all rows.
-/
import proofs.«129692_j34102040330339_1_alg».proof.Proof.Gen.KernelIdeal.Frame
import proofs.«129692_j34102040330339_1_alg».proof.Proof.LibTransposedDense

set_option maxRecDepth 16384

noncomputable section

namespace Cert.KernelIdeal.Conv1Act

open Cert.KernelIdeal Cert.KernelIdeal.Gen Cert.GraphAE
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The layer on all rows: relu (X + b), the bias given as a one-row matrix. -/
def G (X : S50000x64.Idx → EReal) (Bv : S1x64.Idx → EReal) : S50000x64.Idx → EReal :=
  relu (addRow X (fun e => Bv (ix2 0 e)))

/-- The body's arithmetic on a tile of 5000 rows, one entry. -/
theorem payload_apply (x0 : Vec Ideal S5000x64 .f32) (x1 : Vec Ideal S1x64 .f32) (p : Fin 5000) (e : Fin 64) :
    k3_pay1 (F := Ideal) x0 x1 (ix2 p e) = max (x0 (ix2 p e) + x1 (ix2 0 e)) 0 :=
  (Gcn.kernel_relu_apply _ _).trans (congrArg (max · 0) (tile_addRow_apply x0 x1 _ _ _ p e))

/-- One entry of a tile against the layer on all rows: the tile's row p is row r of X, and the bias row is the
    whole array. -/
theorem tile_eq (X : S50000x64.Idx → EReal) (Bv : S1x64.Idx → EReal)
    (x0 : Vec Ideal S5000x64 .f32) (x1 : Vec Ideal S1x64 .f32) (p : Fin 5000) (e : Fin 64) (r : Fin 50000)
    (h0 : x0 (ix2 p e) = X (ix2 r e)) (h1 : x1 (ix2 0 e) = Bv (ix2 0 e)) :
    k3_pay1 (F := Ideal) x0 x1 (ix2 p e) = G X Bv (ix2 r e) := by
  rw [payload_apply]
  show _ = max (X (ix2 r e) + Bv (ix2 0 e)) 0
  rw [h0, h1]

/-- The printed index maps over the grid: point t reads rows t·5000 … of X and writes the same rows of the output; the
    bias row is read whole at every point. -/
theorem idx_facts : ∀ t : Fin cfg3.N,
      win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is block t of the layer of the arrays the launch finds. -/
theorem flushed_eq (c : Dev nD) (t : Fin cfg3.N) :
    (dat3 V c).flushed 2 t = ((cfg3.win 2).blk t).view.read (Elt Ideal) (G (V c main_v53) (V c main_v54)) := by
  show (cfg3.win 2).cut (grid3.coords t) ((dat3 V c).after 2 t) = _
  rw [after3_2]
  unfold out3_2
  rw [View.canon_unit_zero hz]
  simp only [View.ld_unit_zero (S := S5000x64) hz, View.ld_unit_zero (S := S1x64) hz]
  obtain ⟨e00, e01, e10, e11, e20, e21⟩ := idx_facts t
  funext j
  obtain ⟨p, e, rfl⟩ : ∃ (p : Fin 5000) (e : Fin 64), j = ix2 p e := ⟨j 0, j 1, eq_ix2 j⟩
  show k3_pay1 (iblk3 V c 0 t) (iblk3 V c 1 t) (ix2 p e)
    = G (V c main_v53) (V c main_v54) (((cfg3.win 2).blk t).view.emb (ix2 p e))
  have ht : t.val < grid3.N := t.isLt
  rw [N_3] at ht
  have hr : t.val * 5000 + p.val < 50000 := by have := p.isLt; omega
  have hemb : ((cfg3.win 2).blk t).view.emb (ix2 p e) = ix2 (⟨t.val * 5000 + p.val, hr⟩ : Fin 50000) e := by
    funext a; apply Fin.ext
    match a with
    | ⟨0, _⟩ => show win3_2.index t (0 : Fin 2) * 5000 + 1 * p.val = t.val * 5000 + p.val; omega
    | ⟨1, _⟩ => show win3_2.index t (1 : Fin 2) * 64 + 1 * e.val = e.val; omega
  rw [hemb]
  refine tile_eq _ _ _ _ p e _ ?_ ?_
  · show V c main_v53 (((cfg3.win 0).blk t).view.emb (ix2 p e)) = V c main_v53 (ix2 (⟨t.val * 5000 + p.val, hr⟩ : Fin 50000) e)
    refine congrArg _ (funext fun a => Fin.ext ?_)
    match a with
    | ⟨0, _⟩ => show win3_0.index t (0 : Fin 2) * 5000 + 1 * p.val = t.val * 5000 + p.val; omega
    | ⟨1, _⟩ => show win3_0.index t (1 : Fin 2) * 64 + 1 * e.val = e.val; omega
  · show V c main_v54 (((cfg3.win 1).blk t).view.emb (ix2 0 e)) = V c main_v54 (ix2 0 e)
    refine congrArg _ (funext fun a => Fin.ext ?_)
    match a with
    | ⟨0, _⟩ => show win3_1.index t (0 : Fin 2) * 1 + 1 * 0 = 0; omega
    | ⟨1, _⟩ => show win3_1.index t (1 : Fin 2) * 64 + 1 * e.val = e.val; omega

/-- An index of the output array is in point t's block iff each coordinate is in the block's range on its axis. -/
theorem mem_blk (t : Fin cfg3.N) (i : S50000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v55).slice (win3_2.rect t)).set ↔ _
  rw [View.set_slice_whole, Rect.mem_set_unit]
  exact Iff.rfl

/-- The output array after the launch: the layer of the arrays the launch finds. Row r is written by point r / 5000. -/
theorem final (c : Dev nD) : (dat3 V c).arrAt 2 cfg3.N = G (V c main_v53) (V c main_v54) :=
  (dat3 V c).arrAt_eq_of_cover 2 _ (fun t _ => flushed_eq V c t) fun i => by
    have hi0 : (i 0).val < 50000 := (i 0).isLt
    have hi1 : (i 1).val < 64 := (i 1).isLt
    have hlt : (i 0).val / 5000 < grid3.N := by rw [N_3]; omega
    obtain ⟨e00, e01, e10, e11, e20, e21⟩ := idx_facts ⟨(i 0).val / 5000, hlt⟩
    refine ⟨⟨(i 0).val / 5000, hlt⟩, flush3_2 _, ?_⟩
    rw [mem_blk]
    intro a
    match a with
    | ⟨0, _⟩ =>
      show win3_2.index ⟨(i 0).val / 5000, hlt⟩ (0 : Fin 2) * 5000 ≤ (i 0).val ∧ (i 0).val < win3_2.index ⟨(i 0).val / 5000, hlt⟩ (0 : Fin 2) * 5000 + 5000
      rw [e20]
      show (i 0).val / 5000 * 5000 ≤ (i 0).val ∧ (i 0).val < (i 0).val / 5000 * 5000 + 5000
      omega
    | ⟨1, _⟩ =>
      show win3_2.index ⟨(i 0).val / 5000, hlt⟩ (1 : Fin 2) * 64 ≤ (i 1).val ∧ (i 1).val < win3_2.index ⟨(i 0).val / 5000, hlt⟩ (1 : Fin 2) * 64 + 64
      rw [e21]
      omega

end Cert.KernelIdeal.Conv1Act

end
-- ==== Proof.Conv2Lin.lean ====
/-
  The second graph convolution's per-node linear map: the launch's output array.

  Ten tiles of 5000 node rows; at each the tile of X (64 features) times the transposed weights (64 channels), plus a
  bias row on every row, and no activation: X Wᵀ + b on all rows.
-/
import proofs.«129692_j34102040330339_1_alg».proof.Proof.Gen.KernelIdeal.Frame
import proofs.«129692_j34102040330339_1_alg».proof.Proof.LibTransposedDense

set_option maxRecDepth 16384

noncomputable section

namespace Cert.KernelIdeal.Conv2Lin

open Cert.KernelIdeal Cert.KernelIdeal.Gen Cert.GraphAE
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The layer on all rows: X Wᵀ + b, the bias given as a one-row matrix. -/
def G (X : S50000x64.Idx → EReal) (W : S64x64.Idx → EReal) (Bv : S1x64.Idx → EReal) : S50000x64.Idx → EReal :=
  affine X W (fun e => Bv (ix2 0 e))

/-- The body's arithmetic on a tile of 5000 rows, one entry. -/
theorem payload_apply (x0 : Vec Ideal S5000x64 .f32) (x1 : Vec Ideal S64x64 .f32) (x2 : Vec Ideal S1x64 .f32)
    (p : Fin 5000) (e : Fin 64) :
    k4_pay1 (F := Ideal) x0 x1 x2 (ix2 p e) = (∑ k : Fin 64, x0 (ix2 p k) * x1 (ix2 e k)) + x2 (ix2 0 e) :=
  tile_affine_cast_apply _ rfl x0 x1 x2 _ _ _ _ p e

/-- One entry of a tile against the layer on all rows: the tile's row p is row r of X, and the weights and the
    bias row are the whole arrays. -/
theorem tile_eq (X : S50000x64.Idx → EReal) (W : S64x64.Idx → EReal) (Bv : S1x64.Idx → EReal)
    (x0 : Vec Ideal S5000x64 .f32) (x1 : Vec Ideal S64x64 .f32) (x2 : Vec Ideal S1x64 .f32)
    (p : Fin 5000) (e : Fin 64) (r : Fin 50000)
    (h0 : ∀ k : Fin 64, x0 (ix2 p k) = X (ix2 r k))
    (h1 : ∀ k : Fin 64, x1 (ix2 e k) = W (ix2 e k))
    (h2 : x2 (ix2 0 e) = Bv (ix2 0 e)) :
    k4_pay1 (F := Ideal) x0 x1 x2 (ix2 p e) = G X W Bv (ix2 r e) := by
  rw [payload_apply]
  show _ = (∑ k : Fin 64, X (ix2 r k) * W (ix2 e k)) + Bv (ix2 0 e)
  rw [h2, Finset.sum_congr rfl fun k _ => by rw [h0, h1]]

/-- The printed index maps over the grid: point t reads rows t·5000 … of X and writes the same rows of the output; the
    weights and the bias row are read whole at every point. -/
theorem idx_facts : ∀ t : Fin cfg4.N,
      win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- What point t writes back is block t of the layer of the arrays the launch finds. -/
theorem flushed_eq (c : Dev nD) (t : Fin cfg4.N) :
    (dat4 V c).flushed 3 t = ((cfg4.win 3).blk t).view.read (Elt Ideal) (G (V c main_v55) (V c main_arg9) (V c main_v57)) := by
  show (cfg4.win 3).cut (grid4.coords t) ((dat4 V c).after 3 t) = _
  rw [after4_3]
  unfold out4_3
  rw [View.canon_unit_zero hz]
  simp only [View.ld_unit_zero (S := S5000x64) hz, View.ld_unit_zero (S := S64x64) hz, View.ld_unit_zero (S := S1x64) hz]
  obtain ⟨e00, e01, e10, e11, e20, e21, e30, e31⟩ := idx_facts t
  funext j
  obtain ⟨p, e, rfl⟩ : ∃ (p : Fin 5000) (e : Fin 64), j = ix2 p e := ⟨j 0, j 1, eq_ix2 j⟩
  show k4_pay1 (iblk4 V c 0 t) (iblk4 V c 1 t) (iblk4 V c 2 t) (ix2 p e)
    = G (V c main_v55) (V c main_arg9) (V c main_v57) (((cfg4.win 3).blk t).view.emb (ix2 p e))
  have ht : t.val < grid4.N := t.isLt
  rw [N_4] at ht
  have hr : t.val * 5000 + p.val < 50000 := by have := p.isLt; omega
  have hemb : ((cfg4.win 3).blk t).view.emb (ix2 p e) = ix2 (⟨t.val * 5000 + p.val, hr⟩ : Fin 50000) e := by
    funext a; apply Fin.ext
    match a with
    | ⟨0, _⟩ => show win4_3.index t (0 : Fin 2) * 5000 + 1 * p.val = t.val * 5000 + p.val; omega
    | ⟨1, _⟩ => show win4_3.index t (1 : Fin 2) * 64 + 1 * e.val = e.val; omega
  rw [hemb]
  refine tile_eq _ _ _ _ _ _ p e _ (fun k => ?_) (fun k => ?_) ?_
  · show V c main_v55 (((cfg4.win 0).blk t).view.emb (ix2 p k)) = V c main_v55 (ix2 (⟨t.val * 5000 + p.val, hr⟩ : Fin 50000) k)
    refine congrArg _ (funext fun a => Fin.ext ?_)
    match a with
    | ⟨0, _⟩ => show win4_0.index t (0 : Fin 2) * 5000 + 1 * p.val = t.val * 5000 + p.val; omega
    | ⟨1, _⟩ => show win4_0.index t (1 : Fin 2) * 64 + 1 * k.val = k.val; omega
  · show V c main_arg9 (((cfg4.win 1).blk t).view.emb (ix2 e k)) = V c main_arg9 (ix2 e k)
    refine congrArg _ (funext fun a => Fin.ext ?_)
    match a with
    | ⟨0, _⟩ => show win4_1.index t (0 : Fin 2) * 64 + 1 * e.val = e.val; omega
    | ⟨1, _⟩ => show win4_1.index t (1 : Fin 2) * 64 + 1 * k.val = k.val; omega
  · show V c main_v57 (((cfg4.win 2).blk t).view.emb (ix2 0 e)) = V c main_v57 (ix2 0 e)
    refine congrArg _ (funext fun a => Fin.ext ?_)
    match a with
    | ⟨0, _⟩ => show win4_2.index t (0 : Fin 2) * 1 + 1 * 0 = 0; omega
    | ⟨1, _⟩ => show win4_2.index t (1 : Fin 2) * 64 + 1 * e.val = e.val; omega

/-- An index of the output array is in point t's block iff each coordinate is in the block's range on its axis. -/
theorem mem_blk (t : Fin cfg4.N) (i : S50000x64.Idx) :
    i ∈ ((cfg4.win 3).blk t).view.set ↔ ∀ a : Fin 2, win4_3.index t a * S5000x64.size a ≤ (i a).val ∧ (i a).val < win4_3.index t a * S5000x64.size a + S5000x64.size a := by
  show i ∈ ((View.whole main_v58).slice (win4_3.rect t)).set ↔ _
  rw [View.set_slice_whole, Rect.mem_set_unit]
  exact Iff.rfl

/-- The output array after the launch: the layer of the arrays the launch finds. Row r is written by point r / 5000. -/
theorem final (c : Dev nD) : (dat4 V c).arrAt 3 cfg4.N = G (V c main_v55) (V c main_arg9) (V c main_v57) :=
  (dat4 V c).arrAt_eq_of_cover 3 _ (fun t _ => flushed_eq V c t) fun i => by
    have hi0 : (i 0).val < 50000 := (i 0).isLt
    have hi1 : (i 1).val < 64 := (i 1).isLt
    have hlt : (i 0).val / 5000 < grid4.N := by rw [N_4]; omega
    obtain ⟨e00, e01, e10, e11, e20, e21, e30, e31⟩ := idx_facts ⟨(i 0).val / 5000, hlt⟩
    refine ⟨⟨(i 0).val / 5000, hlt⟩, flush4_3 _, ?_⟩
    rw [mem_blk]
    intro a
    match a with
    | ⟨0, _⟩ =>
      show win4_3.index ⟨(i 0).val / 5000, hlt⟩ (0 : Fin 2) * 5000 ≤ (i 0).val ∧ (i 0).val < win4_3.index ⟨(i 0).val / 5000, hlt⟩ (0 : Fin 2) * 5000 + 5000
      rw [e30]
      show (i 0).val / 5000 * 5000 ≤ (i 0).val ∧ (i 0).val < (i 0).val / 5000 * 5000 + 5000
      omega
    | ⟨1, _⟩ =>
      show win4_3.index ⟨(i 0).val / 5000, hlt⟩ (1 : Fin 2) * 64 ≤ (i 1).val ∧ (i 1).val < win4_3.index ⟨(i 0).val / 5000, hlt⟩ (1 : Fin 2) * 64 + 64
      rw [e31]
      omega

end Cert.KernelIdeal.Conv2Lin

end
-- ==== Proof.Conv2Act.lean ====
/-
  The second graph convolution's closing launch: the aggregated rows plus the bias, rectified.

  Ten tiles of 5000 node rows; at each the body adds the bias row to every row of the tile and takes the maximum with
  zero: relu (X + b) on all rows.
-/
import proofs.«129692_j34102040330339_1_alg».proof.Proof.Gen.KernelIdeal.Frame
import proofs.«129692_j34102040330339_1_alg».proof.Proof.LibTransposedDense

set_option maxRecDepth 16384

noncomputable section

namespace Cert.KernelIdeal.Conv2Act

open Cert.KernelIdeal Cert.KernelIdeal.Gen Cert.GraphAE
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The layer on all rows: relu (X + b), the bias given as a one-row matrix. -/
def G (X : S50000x64.Idx → EReal) (Bv : S1x64.Idx → EReal) : S50000x64.Idx → EReal :=
  relu (addRow X (fun e => Bv (ix2 0 e)))

/-- The body's arithmetic on a tile of 5000 rows, one entry. -/
theorem payload_apply (x0 : Vec Ideal S5000x64 .f32) (x1 : Vec Ideal S1x64 .f32) (p : Fin 5000) (e : Fin 64) :
    k5_pay1 (F := Ideal) x0 x1 (ix2 p e) = max (x0 (ix2 p e) + x1 (ix2 0 e)) 0 :=
  (Gcn.kernel_relu_apply _ _).trans (congrArg (max · 0) (tile_addRow_apply x0 x1 _ _ _ p e))

/-- One entry of a tile against the layer on all rows: the tile's row p is row r of X, and the bias row is the
    whole array. -/
theorem tile_eq (X : S50000x64.Idx → EReal) (Bv : S1x64.Idx → EReal)
    (x0 : Vec Ideal S5000x64 .f32) (x1 : Vec Ideal S1x64 .f32) (p : Fin 5000) (e : Fin 64) (r : Fin 50000)
    (h0 : x0 (ix2 p e) = X (ix2 r e)) (h1 : x1 (ix2 0 e) = Bv (ix2 0 e)) :
    k5_pay1 (F := Ideal) x0 x1 (ix2 p e) = G X Bv (ix2 r e) := by
  rw [payload_apply]
  show _ = max (X (ix2 r e) + Bv (ix2 0 e)) 0
  rw [h0, h1]

/-- The printed index maps over the grid: point t reads rows t·5000 … of X and writes the same rows of the output; the
    bias row is read whole at every point. -/
theorem idx_facts : ∀ t : Fin cfg5.N,
      win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What point t writes back is block t of the layer of the arrays the launch finds. -/
theorem flushed_eq (c : Dev nD) (t : Fin cfg5.N) :
    (dat5 V c).flushed 2 t = ((cfg5.win 2).blk t).view.read (Elt Ideal) (G (V c main_v96) (V c main_v97)) := by
  show (cfg5.win 2).cut (grid5.coords t) ((dat5 V c).after 2 t) = _
  rw [after5_2]
  unfold out5_2
  rw [View.canon_unit_zero hz]
  simp only [View.ld_unit_zero (S := S5000x64) hz, View.ld_unit_zero (S := S1x64) hz]
  obtain ⟨e00, e01, e10, e11, e20, e21⟩ := idx_facts t
  funext j
  obtain ⟨p, e, rfl⟩ : ∃ (p : Fin 5000) (e : Fin 64), j = ix2 p e := ⟨j 0, j 1, eq_ix2 j⟩
  show k5_pay1 (iblk5 V c 0 t) (iblk5 V c 1 t) (ix2 p e)
    = G (V c main_v96) (V c main_v97) (((cfg5.win 2).blk t).view.emb (ix2 p e))
  have ht : t.val < grid5.N := t.isLt
  rw [N_5] at ht
  have hr : t.val * 5000 + p.val < 50000 := by have := p.isLt; omega
  have hemb : ((cfg5.win 2).blk t).view.emb (ix2 p e) = ix2 (⟨t.val * 5000 + p.val, hr⟩ : Fin 50000) e := by
    funext a; apply Fin.ext
    match a with
    | ⟨0, _⟩ => show win5_2.index t (0 : Fin 2) * 5000 + 1 * p.val = t.val * 5000 + p.val; omega
    | ⟨1, _⟩ => show win5_2.index t (1 : Fin 2) * 64 + 1 * e.val = e.val; omega
  rw [hemb]
  refine tile_eq _ _ _ _ p e _ ?_ ?_
  · show V c main_v96 (((cfg5.win 0).blk t).view.emb (ix2 p e)) = V c main_v96 (ix2 (⟨t.val * 5000 + p.val, hr⟩ : Fin 50000) e)
    refine congrArg _ (funext fun a => Fin.ext ?_)
    match a with
    | ⟨0, _⟩ => show win5_0.index t (0 : Fin 2) * 5000 + 1 * p.val = t.val * 5000 + p.val; omega
    | ⟨1, _⟩ => show win5_0.index t (1 : Fin 2) * 64 + 1 * e.val = e.val; omega
  · show V c main_v97 (((cfg5.win 1).blk t).view.emb (ix2 0 e)) = V c main_v97 (ix2 0 e)
    refine congrArg _ (funext fun a => Fin.ext ?_)
    match a with
    | ⟨0, _⟩ => show win5_1.index t (0 : Fin 2) * 1 + 1 * 0 = 0; omega
    | ⟨1, _⟩ => show win5_1.index t (1 : Fin 2) * 64 + 1 * e.val = e.val; omega

/-- An index of the output array is in point t's block iff each coordinate is in the block's range on its axis. -/
theorem mem_blk (t : Fin cfg5.N) (i : S50000x64.Idx) :
    i ∈ ((cfg5.win 2).blk t).view.set ↔ ∀ a : Fin 2, win5_2.index t a * S5000x64.size a ≤ (i a).val ∧ (i a).val < win5_2.index t a * S5000x64.size a + S5000x64.size a := by
  show i ∈ ((View.whole main_v98).slice (win5_2.rect t)).set ↔ _
  rw [View.set_slice_whole, Rect.mem_set_unit]
  exact Iff.rfl

/-- The output array after the launch: the layer of the arrays the launch finds. Row r is written by point r / 5000. -/
theorem final (c : Dev nD) : (dat5 V c).arrAt 2 cfg5.N = G (V c main_v96) (V c main_v97) :=
  (dat5 V c).arrAt_eq_of_cover 2 _ (fun t _ => flushed_eq V c t) fun i => by
    have hi0 : (i 0).val < 50000 := (i 0).isLt
    have hi1 : (i 1).val < 64 := (i 1).isLt
    have hlt : (i 0).val / 5000 < grid5.N := by rw [N_5]; omega
    obtain ⟨e00, e01, e10, e11, e20, e21⟩ := idx_facts ⟨(i 0).val / 5000, hlt⟩
    refine ⟨⟨(i 0).val / 5000, hlt⟩, flush5_2 _, ?_⟩
    rw [mem_blk]
    intro a
    match a with
    | ⟨0, _⟩ =>
      show win5_2.index ⟨(i 0).val / 5000, hlt⟩ (0 : Fin 2) * 5000 ≤ (i 0).val ∧ (i 0).val < win5_2.index ⟨(i 0).val / 5000, hlt⟩ (0 : Fin 2) * 5000 + 5000
      rw [e20]
      show (i 0).val / 5000 * 5000 ≤ (i 0).val ∧ (i 0).val < (i 0).val / 5000 * 5000 + 5000
      omega
    | ⟨1, _⟩ =>
      show win5_2.index ⟨(i 0).val / 5000, hlt⟩ (1 : Fin 2) * 64 ≤ (i 1).val ∧ (i 1).val < win5_2.index ⟨(i 0).val / 5000, hlt⟩ (1 : Fin 2) * 64 + 64
      rw [e21]
      omega

end Cert.KernelIdeal.Conv2Act

end
-- ==== Proof.Dec1.lean ====
/-
  The first decoder layer's launch: its output array.

  Ten tiles of 5000 node rows; at each the tile of X (64 features) times the transposed weights (128 channels), plus
  the bias row on every row, through the rectifier: relu (X Wᵀ + b) on all rows.
-/
import proofs.«129692_j34102040330339_1_alg».proof.Proof.Gen.KernelIdeal.Frame
import proofs.«129692_j34102040330339_1_alg».proof.Proof.LibTransposedDense

set_option maxRecDepth 16384

noncomputable section

namespace Cert.KernelIdeal.Dec1

open Cert.KernelIdeal Cert.KernelIdeal.Gen Cert.GraphAE
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The layer on all rows: relu (X Wᵀ + b), the bias given as a one-row matrix. -/
def G (X : S50000x64.Idx → EReal) (W : S128x64.Idx → EReal) (Bv : S1x128.Idx → EReal) : S50000x128.Idx → EReal :=
  relu (affine X W (fun e => Bv (ix2 0 e)))

/-- The body's arithmetic on a tile of 5000 rows, one entry. -/
theorem payload_apply (x0 : Vec Ideal S5000x64 .f32) (x1 : Vec Ideal S128x64 .f32) (x2 : Vec Ideal S1x128 .f32)
    (p : Fin 5000) (e : Fin 128) :
    k6_pay1 (F := Ideal) x0 x1 x2 (ix2 p e) = max ((∑ k : Fin 64, x0 (ix2 p k) * x1 (ix2 e k)) + x2 (ix2 0 e)) 0 :=
  (Gcn.kernel_relu_apply _ _).trans (congrArg (max · 0) (tile_affine_cast_apply _ rfl x0 x1 x2 _ _ _ _ p e))

/-- One entry of a tile against the layer on all rows: the tile's row p is row r of X, and the weights and the
    bias row are the whole arrays. -/
theorem tile_eq (X : S50000x64.Idx → EReal) (W : S128x64.Idx → EReal) (Bv : S1x128.Idx → EReal)
    (x0 : Vec Ideal S5000x64 .f32) (x1 : Vec Ideal S128x64 .f32) (x2 : Vec Ideal S1x128 .f32)
    (p : Fin 5000) (e : Fin 128) (r : Fin 50000)
    (h0 : ∀ k : Fin 64, x0 (ix2 p k) = X (ix2 r k))
    (h1 : ∀ k : Fin 64, x1 (ix2 e k) = W (ix2 e k))
    (h2 : x2 (ix2 0 e) = Bv (ix2 0 e)) :
    k6_pay1 (F := Ideal) x0 x1 x2 (ix2 p e) = G X W Bv (ix2 r e) := by
  rw [payload_apply]
  show _ = max ((∑ k : Fin 64, X (ix2 r k) * W (ix2 e k)) + Bv (ix2 0 e)) 0
  rw [h2, Finset.sum_congr rfl fun k _ => by rw [h0, h1]]

/-- The printed index maps over the grid: point t reads rows t·5000 … of X and writes the same rows of the output; the
    weights and the bias row are read whole at every point. -/
theorem idx_facts : ∀ t : Fin cfg6.N,
      win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-- What point t writes back is block t of the layer of the arrays the launch finds. -/
theorem flushed_eq (c : Dev nD) (t : Fin cfg6.N) :
    (dat6 V c).flushed 3 t = ((cfg6.win 3).blk t).view.read (Elt Ideal) (G (V c main_v98) (V c main_arg11) (V c main_v99)) := by
  show (cfg6.win 3).cut (grid6.coords t) ((dat6 V c).after 3 t) = _
  rw [after6_3]
  unfold out6_3
  rw [View.canon_unit_zero hz]
  simp only [View.ld_unit_zero (S := S5000x64) hz, View.ld_unit_zero (S := S128x64) hz, View.ld_unit_zero (S := S1x128) hz]
  obtain ⟨e00, e01, e10, e11, e20, e21, e30, e31⟩ := idx_facts t
  funext j
  obtain ⟨p, e, rfl⟩ : ∃ (p : Fin 5000) (e : Fin 128), j = ix2 p e := ⟨j 0, j 1, eq_ix2 j⟩
  show k6_pay1 (iblk6 V c 0 t) (iblk6 V c 1 t) (iblk6 V c 2 t) (ix2 p e)
    = G (V c main_v98) (V c main_arg11) (V c main_v99) (((cfg6.win 3).blk t).view.emb (ix2 p e))
  have ht : t.val < grid6.N := t.isLt
  rw [N_6] at ht
  have hr : t.val * 5000 + p.val < 50000 := by have := p.isLt; omega
  have hemb : ((cfg6.win 3).blk t).view.emb (ix2 p e) = ix2 (⟨t.val * 5000 + p.val, hr⟩ : Fin 50000) e := by
    funext a; apply Fin.ext
    match a with
    | ⟨0, _⟩ => show win6_3.index t (0 : Fin 2) * 5000 + 1 * p.val = t.val * 5000 + p.val; omega
    | ⟨1, _⟩ => show win6_3.index t (1 : Fin 2) * 128 + 1 * e.val = e.val; omega
  rw [hemb]
  refine tile_eq _ _ _ _ _ _ p e _ (fun k => ?_) (fun k => ?_) ?_
  · show V c main_v98 (((cfg6.win 0).blk t).view.emb (ix2 p k)) = V c main_v98 (ix2 (⟨t.val * 5000 + p.val, hr⟩ : Fin 50000) k)
    refine congrArg _ (funext fun a => Fin.ext ?_)
    match a with
    | ⟨0, _⟩ => show win6_0.index t (0 : Fin 2) * 5000 + 1 * p.val = t.val * 5000 + p.val; omega
    | ⟨1, _⟩ => show win6_0.index t (1 : Fin 2) * 64 + 1 * k.val = k.val; omega
  · show V c main_arg11 (((cfg6.win 1).blk t).view.emb (ix2 e k)) = V c main_arg11 (ix2 e k)
    refine congrArg _ (funext fun a => Fin.ext ?_)
    match a with
    | ⟨0, _⟩ => show win6_1.index t (0 : Fin 2) * 128 + 1 * e.val = e.val; omega
    | ⟨1, _⟩ => show win6_1.index t (1 : Fin 2) * 64 + 1 * k.val = k.val; omega
  · show V c main_v99 (((cfg6.win 2).blk t).view.emb (ix2 0 e)) = V c main_v99 (ix2 0 e)
    refine congrArg _ (funext fun a => Fin.ext ?_)
    match a with
    | ⟨0, _⟩ => show win6_2.index t (0 : Fin 2) * 1 + 1 * 0 = 0; omega
    | ⟨1, _⟩ => show win6_2.index t (1 : Fin 2) * 128 + 1 * e.val = e.val; omega

/-- An index of the output array is in point t's block iff each coordinate is in the block's range on its axis. -/
theorem mem_blk (t : Fin cfg6.N) (i : S50000x128.Idx) :
    i ∈ ((cfg6.win 3).blk t).view.set ↔ ∀ a : Fin 2, win6_3.index t a * S5000x128.size a ≤ (i a).val ∧ (i a).val < win6_3.index t a * S5000x128.size a + S5000x128.size a := by
  show i ∈ ((View.whole main_v100).slice (win6_3.rect t)).set ↔ _
  rw [View.set_slice_whole, Rect.mem_set_unit]
  exact Iff.rfl

/-- The output array after the launch: the layer of the arrays the launch finds. Row r is written by point r / 5000. -/
theorem final (c : Dev nD) : (dat6 V c).arrAt 3 cfg6.N = G (V c main_v98) (V c main_arg11) (V c main_v99) :=
  (dat6 V c).arrAt_eq_of_cover 3 _ (fun t _ => flushed_eq V c t) fun i => by
    have hi0 : (i 0).val < 50000 := (i 0).isLt
    have hi1 : (i 1).val < 128 := (i 1).isLt
    have hlt : (i 0).val / 5000 < grid6.N := by rw [N_6]; omega
    obtain ⟨e00, e01, e10, e11, e20, e21, e30, e31⟩ := idx_facts ⟨(i 0).val / 5000, hlt⟩
    refine ⟨⟨(i 0).val / 5000, hlt⟩, flush6_3 _, ?_⟩
    rw [mem_blk]
    intro a
    match a with
    | ⟨0, _⟩ =>
      show win6_3.index ⟨(i 0).val / 5000, hlt⟩ (0 : Fin 2) * 5000 ≤ (i 0).val ∧ (i 0).val < win6_3.index ⟨(i 0).val / 5000, hlt⟩ (0 : Fin 2) * 5000 + 5000
      rw [e30]
      show (i 0).val / 5000 * 5000 ≤ (i 0).val ∧ (i 0).val < (i 0).val / 5000 * 5000 + 5000
      omega
    | ⟨1, _⟩ =>
      show win6_3.index ⟨(i 0).val / 5000, hlt⟩ (1 : Fin 2) * 128 ≤ (i 1).val ∧ (i 1).val < win6_3.index ⟨(i 0).val / 5000, hlt⟩ (1 : Fin 2) * 128 + 128
      rw [e31]
      omega

end Cert.KernelIdeal.Dec1

end
-- ==== Proof.Dec2.lean ====
/-
  The last decoder layer's launch: its output array, which is the program's result.

  Ten tiles of 5000 node rows; at each the tile of X (128 features) times the transposed weights (256 channels), plus
  the bias row on every row, through the logistic function, which the body spells 1 / (1 + exp (0 - x)). Together the
  written-back blocks are the logistic function of X Wᵀ + b on all rows.
-/
import proofs.«129692_j34102040330339_1_alg».proof.Proof.Gen.KernelIdeal.Frame
import proofs.«129692_j34102040330339_1_alg».proof.Proof.LibTransposedDense

set_option maxRecDepth 16384

noncomputable section

namespace Cert.KernelIdeal.Dec2

open Cert.KernelIdeal Cert.KernelIdeal.Gen Cert.GraphAE
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The layer on all rows: 1 / (1 + exp (-(X Wᵀ + b))), the bias given as a one-row matrix. -/
def G (X : S50000x128.Idx → EReal) (W : S256x128.Idx → EReal) (Bv : S1x256.Idx → EReal) : S50000x256.Idx → EReal :=
  sigmoid (affine X W (fun e => Bv (ix2 0 e)))

/-- The body's arithmetic on a tile of 5000 rows, one entry. -/
theorem payload_apply (x0 : Vec Ideal S5000x128 .f32) (x1 : Vec Ideal S256x128 .f32) (x2 : Vec Ideal S1x256 .f32)
    (p : Fin 5000) (e : Fin 256) :
    k7_pay1 (F := Ideal) x0 x1 x2 (ix2 p e) = Ideal.logistic ((∑ k : Fin 128, x0 (ix2 p k) * x1 (ix2 e k)) + x2 (ix2 0 e)) :=
  (tile_sigmoid_apply _ _).trans (congrArg Ideal.logistic (tile_affine_cast_apply _ rfl x0 x1 x2 _ _ _ _ p e))

/-- One entry of a tile against the layer on all rows: the tile's row p is row r of X, and the weights and the
    bias row are the whole arrays. -/
theorem tile_eq (X : S50000x128.Idx → EReal) (W : S256x128.Idx → EReal) (Bv : S1x256.Idx → EReal)
    (x0 : Vec Ideal S5000x128 .f32) (x1 : Vec Ideal S256x128 .f32) (x2 : Vec Ideal S1x256 .f32)
    (p : Fin 5000) (e : Fin 256) (r : Fin 50000)
    (h0 : ∀ k : Fin 128, x0 (ix2 p k) = X (ix2 r k))
    (h1 : ∀ k : Fin 128, x1 (ix2 e k) = W (ix2 e k))
    (h2 : x2 (ix2 0 e) = Bv (ix2 0 e)) :
    k7_pay1 (F := Ideal) x0 x1 x2 (ix2 p e) = G X W Bv (ix2 r e) := by
  rw [payload_apply]
  show _ = Ideal.logistic ((∑ k : Fin 128, X (ix2 r k) * W (ix2 e k)) + Bv (ix2 0 e))
  rw [h2, Finset.sum_congr rfl fun k _ => by rw [h0, h1]]

/-- The printed index maps over the grid: point t reads rows t·5000 … of X and writes the same rows of the output; the
    weights and the bias row are read whole at every point. -/
theorem idx_facts : ∀ t : Fin cfg7.N,
      win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0 :=
  (by decide +kernel : ∀ t : Fin grid7.N, _)

/-- What point t writes back is block t of the layer of the arrays the launch finds. -/
theorem flushed_eq (c : Dev nD) (t : Fin cfg7.N) :
    (dat7 V c).flushed 3 t = ((cfg7.win 3).blk t).view.read (Elt Ideal) (G (V c main_v100) (V c main_arg13) (V c main_v101)) := by
  show (cfg7.win 3).cut (grid7.coords t) ((dat7 V c).after 3 t) = _
  rw [after7_3]
  unfold out7_3
  rw [View.canon_unit_zero hz]
  simp only [View.ld_unit_zero (S := S5000x128) hz, View.ld_unit_zero (S := S256x128) hz, View.ld_unit_zero (S := S1x256) hz]
  obtain ⟨e00, e01, e10, e11, e20, e21, e30, e31⟩ := idx_facts t
  funext j
  obtain ⟨p, e, rfl⟩ : ∃ (p : Fin 5000) (e : Fin 256), j = ix2 p e := ⟨j 0, j 1, eq_ix2 j⟩
  show k7_pay1 (iblk7 V c 0 t) (iblk7 V c 1 t) (iblk7 V c 2 t) (ix2 p e)
    = G (V c main_v100) (V c main_arg13) (V c main_v101) (((cfg7.win 3).blk t).view.emb (ix2 p e))
  have ht : t.val < grid7.N := t.isLt
  rw [N_7] at ht
  have hr : t.val * 5000 + p.val < 50000 := by have := p.isLt; omega
  have hemb : ((cfg7.win 3).blk t).view.emb (ix2 p e) = ix2 (⟨t.val * 5000 + p.val, hr⟩ : Fin 50000) e := by
    funext a; apply Fin.ext
    match a with
    | ⟨0, _⟩ => show win7_3.index t (0 : Fin 2) * 5000 + 1 * p.val = t.val * 5000 + p.val; omega
    | ⟨1, _⟩ => show win7_3.index t (1 : Fin 2) * 256 + 1 * e.val = e.val; omega
  rw [hemb]
  refine tile_eq _ _ _ _ _ _ p e _ (fun k => ?_) (fun k => ?_) ?_
  · show V c main_v100 (((cfg7.win 0).blk t).view.emb (ix2 p k)) = V c main_v100 (ix2 (⟨t.val * 5000 + p.val, hr⟩ : Fin 50000) k)
    refine congrArg _ (funext fun a => Fin.ext ?_)
    match a with
    | ⟨0, _⟩ => show win7_0.index t (0 : Fin 2) * 5000 + 1 * p.val = t.val * 5000 + p.val; omega
    | ⟨1, _⟩ => show win7_0.index t (1 : Fin 2) * 128 + 1 * k.val = k.val; omega
  · show V c main_arg13 (((cfg7.win 1).blk t).view.emb (ix2 e k)) = V c main_arg13 (ix2 e k)
    refine congrArg _ (funext fun a => Fin.ext ?_)
    match a with
    | ⟨0, _⟩ => show win7_1.index t (0 : Fin 2) * 256 + 1 * e.val = e.val; omega
    | ⟨1, _⟩ => show win7_1.index t (1 : Fin 2) * 128 + 1 * k.val = k.val; omega
  · show V c main_v101 (((cfg7.win 2).blk t).view.emb (ix2 0 e)) = V c main_v101 (ix2 0 e)
    refine congrArg _ (funext fun a => Fin.ext ?_)
    match a with
    | ⟨0, _⟩ => show win7_2.index t (0 : Fin 2) * 1 + 1 * 0 = 0; omega
    | ⟨1, _⟩ => show win7_2.index t (1 : Fin 2) * 256 + 1 * e.val = e.val; omega

/-- An index of the output array is in point t's block iff each coordinate is in the block's range on its axis. -/
theorem mem_blk (t : Fin cfg7.N) (i : S50000x256.Idx) :
    i ∈ ((cfg7.win 3).blk t).view.set ↔ ∀ a : Fin 2, win7_3.index t a * S5000x256.size a ≤ (i a).val ∧ (i a).val < win7_3.index t a * S5000x256.size a + S5000x256.size a := by
  show i ∈ ((View.whole main_v102).slice (win7_3.rect t)).set ↔ _
  rw [View.set_slice_whole, Rect.mem_set_unit]
  exact Iff.rfl

/-- The output array after the launch: the layer of the arrays the launch finds. Row r is written by point r / 5000. -/
theorem final (c : Dev nD) : (dat7 V c).arrAt 3 cfg7.N = G (V c main_v100) (V c main_arg13) (V c main_v101) :=
  (dat7 V c).arrAt_eq_of_cover 3 _ (fun t _ => flushed_eq V c t) fun i => by
    have hi0 : (i 0).val < 50000 := (i 0).isLt
    have hi1 : (i 1).val < 256 := (i 1).isLt
    have hlt : (i 0).val / 5000 < grid7.N := by rw [N_7]; omega
    obtain ⟨e00, e01, e10, e11, e20, e21, e30, e31⟩ := idx_facts ⟨(i 0).val / 5000, hlt⟩
    refine ⟨⟨(i 0).val / 5000, hlt⟩, flush7_3 _, ?_⟩
    rw [mem_blk]
    intro a
    match a with
    | ⟨0, _⟩ =>
      show win7_3.index ⟨(i 0).val / 5000, hlt⟩ (0 : Fin 2) * 5000 ≤ (i 0).val ∧ (i 0).val < win7_3.index ⟨(i 0).val / 5000, hlt⟩ (0 : Fin 2) * 5000 + 5000
      rw [e30]
      show (i 0).val / 5000 * 5000 ≤ (i 0).val ∧ (i 0).val < (i 0).val / 5000 * 5000 + 5000
      omega
    | ⟨1, _⟩ =>
      show win7_3.index ⟨(i 0).val / 5000, hlt⟩ (1 : Fin 2) * 256 ≤ (i 1).val ∧ (i 1).val < win7_3.index ⟨(i 0).val / 5000, hlt⟩ (1 : Fin 2) * 256 + 256
      rw [e31]
      omega

end Cert.KernelIdeal.Dec2

end
-- ==== Proof.KeptEarly.lean ====
/-
  What the first half of the program leaves untouched.

  Between the point where a buffer is last written (or the launch, for an argument) and the point where it is next
  read lie stretches of host operations and kernel launches, none of which writes it: a host operation writes its own
  result buffer only, and a launch writes its output array only. So the buffer is read holding what it held — stated
  here once per buffer and pair of boundaries, for the buffers read up to the first graph convolution's end.
-/
import proofs.«129692_j34102040330339_1_alg».proof.Proof.Gen.KernelIdeal.Frame

set_option maxRecDepth 16384

noncomputable section

namespace Cert.KernelIdeal.Kept

open Cert.KernelIdeal Cert.KernelIdeal.Gen
open Idealize.ShloMosaic Idealize.ShloMosaic.TcCoe
open Idealize.SL.Sem

variable {F : FTy → Type} [FloatOps F]
variable (m : (ℓ : Loc nD τ sig) → Buf (Elt F) ℓ) (ρ : Dev nD → PrngReg) (c : Dev nD)

/-- A buffer that no operation of a stretch of host operations writes holds after the stretch what it held before:
    the buffer differs from every operation's result buffer. -/
local macro "host_skip " ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))
/-- The node features reach the first encoder layer as launched. -/
theorem keep_arg0_1_0 : W1 m ρ c (Proc.devRef .tc main_arg0) = m ((c : Thread nD τ).loc main_arg0) :=
  calc W1 m ρ c (Proc.devRef .tc main_arg0)
    _ = W0 m ρ c (Proc.devRef .tc main_arg0) := by host_skip hostOps0
    _ = m ((c : Thread nD τ).loc main_arg0) := rfl

/-- The first encoder layer's weights reach it as launched. -/
theorem keep_arg3_1_0 : W1 m ρ c (Proc.devRef .tc main_arg3) = m ((c : Thread nD τ).loc main_arg3) :=
  calc W1 m ρ c (Proc.devRef .tc main_arg3)
    _ = W0 m ρ c (Proc.devRef .tc main_arg3) := by host_skip hostOps0
    _ = m ((c : Thread nD τ).loc main_arg3) := rfl

/-- The second encoder layer's weights reach it as launched. -/
theorem keep_arg5_3_0 : W3 m ρ c (Proc.devRef .tc main_arg5) = m ((c : Thread nD τ).loc main_arg5) :=
  calc W3 m ρ c (Proc.devRef .tc main_arg5)
    _ = W2 m ρ c (Proc.devRef .tc main_arg5) := by host_skip hostOps1
    _ = W1 m ρ c (Proc.devRef .tc main_arg5) := W2_of_ne m ρ c main_arg5 (by decide)
    _ = W0 m ρ c (Proc.devRef .tc main_arg5) := by host_skip hostOps0
    _ = m ((c : Thread nD τ).loc main_arg5) := rfl

/-- The second encoder layer's bias is reshaped from its launch contents. -/
theorem keep_arg6_2_0 : W2 m ρ c (Proc.devRef .tc main_arg6) = m ((c : Thread nD τ).loc main_arg6) :=
  calc W2 m ρ c (Proc.devRef .tc main_arg6)
    _ = W1 m ρ c (Proc.devRef .tc main_arg6) := W2_of_ne m ρ c main_arg6 (by decide)
    _ = W0 m ρ c (Proc.devRef .tc main_arg6) := by host_skip hostOps0
    _ = m ((c : Thread nD τ).loc main_arg6) := rfl

/-- The first convolution's weights reach its linear map as launched. -/
theorem keep_arg7_5_0 : W5 m ρ c (Proc.devRef .tc main_arg7) = m ((c : Thread nD τ).loc main_arg7) :=
  calc W5 m ρ c (Proc.devRef .tc main_arg7)
    _ = W4 m ρ c (Proc.devRef .tc main_arg7) := by host_skip hostOps2
    _ = W3 m ρ c (Proc.devRef .tc main_arg7) := W4_of_ne m ρ c main_arg7 (by decide)
    _ = W2 m ρ c (Proc.devRef .tc main_arg7) := by host_skip hostOps1
    _ = W1 m ρ c (Proc.devRef .tc main_arg7) := W2_of_ne m ρ c main_arg7 (by decide)
    _ = W0 m ρ c (Proc.devRef .tc main_arg7) := by host_skip hostOps0
    _ = m ((c : Thread nD τ).loc main_arg7) := rfl

/-- The first convolution's bias is reshaped from its launch contents. -/
theorem keep_arg8_6_0 : W6 m ρ c (Proc.devRef .tc main_arg8) = m ((c : Thread nD τ).loc main_arg8) :=
  calc W6 m ρ c (Proc.devRef .tc main_arg8)
    _ = W5 m ρ c (Proc.devRef .tc main_arg8) := W6_of_ne m ρ c main_arg8 (by decide)
    _ = W4 m ρ c (Proc.devRef .tc main_arg8) := by host_skip hostOps2
    _ = W3 m ρ c (Proc.devRef .tc main_arg8) := W4_of_ne m ρ c main_arg8 (by decide)
    _ = W2 m ρ c (Proc.devRef .tc main_arg8) := by host_skip hostOps1
    _ = W1 m ρ c (Proc.devRef .tc main_arg8) := W2_of_ne m ρ c main_arg8 (by decide)
    _ = W0 m ρ c (Proc.devRef .tc main_arg8) := by host_skip hostOps0
    _ = m ((c : Thread nD τ).loc main_arg8) := rfl

/-- The first encoder layer's output reaches the second as written. -/
theorem keep_v10_3_2 : W3 m ρ c (Proc.devRef .tc main_v10) = W2 m ρ c (Proc.devRef .tc main_v10) :=
  calc W3 m ρ c (Proc.devRef .tc main_v10)
    _ = W2 m ρ c (Proc.devRef .tc main_v10) := by host_skip hostOps1

/-- The second encoder layer's output reaches the first convolution as written. -/
theorem keep_v12_5_4 : W5 m ρ c (Proc.devRef .tc main_v12) = W4 m ρ c (Proc.devRef .tc main_v12) :=
  calc W5 m ρ c (Proc.devRef .tc main_v12)
    _ = W4 m ρ c (Proc.devRef .tc main_v12) := by host_skip hostOps2

/-- The sources reach the first round of message passing as built. -/
theorem keep_v3_6_1 : W6 m ρ c (Proc.devRef .tc main_v3) = W1 m ρ c (Proc.devRef .tc main_v3) :=
  calc W6 m ρ c (Proc.devRef .tc main_v3)
    _ = W5 m ρ c (Proc.devRef .tc main_v3) := W6_of_ne m ρ c main_v3 (by decide)
    _ = W4 m ρ c (Proc.devRef .tc main_v3) := by host_skip hostOps2
    _ = W3 m ρ c (Proc.devRef .tc main_v3) := W4_of_ne m ρ c main_v3 (by decide)
    _ = W2 m ρ c (Proc.devRef .tc main_v3) := by host_skip hostOps1
    _ = W1 m ρ c (Proc.devRef .tc main_v3) := W2_of_ne m ρ c main_v3 (by decide)

/-- The targets reach the first round of message passing as built. -/
theorem keep_v6_6_1 : W6 m ρ c (Proc.devRef .tc main_v6) = W1 m ρ c (Proc.devRef .tc main_v6) :=
  calc W6 m ρ c (Proc.devRef .tc main_v6)
    _ = W5 m ρ c (Proc.devRef .tc main_v6) := W6_of_ne m ρ c main_v6 (by decide)
    _ = W4 m ρ c (Proc.devRef .tc main_v6) := by host_skip hostOps2
    _ = W3 m ρ c (Proc.devRef .tc main_v6) := W4_of_ne m ρ c main_v6 (by decide)
    _ = W2 m ρ c (Proc.devRef .tc main_v6) := by host_skip hostOps1
    _ = W1 m ρ c (Proc.devRef .tc main_v6) := W2_of_ne m ρ c main_v6 (by decide)

/-- The edge weights with the self-loops' ones reach the first round as built. -/
theorem keep_v8_6_1 : W6 m ρ c (Proc.devRef .tc main_v8) = W1 m ρ c (Proc.devRef .tc main_v8) :=
  calc W6 m ρ c (Proc.devRef .tc main_v8)
    _ = W5 m ρ c (Proc.devRef .tc main_v8) := W6_of_ne m ρ c main_v8 (by decide)
    _ = W4 m ρ c (Proc.devRef .tc main_v8) := by host_skip hostOps2
    _ = W3 m ρ c (Proc.devRef .tc main_v8) := W4_of_ne m ρ c main_v8 (by decide)
    _ = W2 m ρ c (Proc.devRef .tc main_v8) := by host_skip hostOps1
    _ = W1 m ρ c (Proc.devRef .tc main_v8) := W2_of_ne m ρ c main_v8 (by decide)

end Cert.KernelIdeal.Kept

end
-- ==== Proof.KeptLate.lean ====
/-
  What the second half of the program leaves untouched.

  As in the first half: from where a buffer is last written (or the launch) to where it is next read, no host
  operation and no launch writes it — for the buffers read from the second graph convolution on.
-/
import proofs.«129692_j34102040330339_1_alg».proof.Proof.Gen.KernelIdeal.Frame

set_option maxRecDepth 16384

noncomputable section

namespace Cert.KernelIdeal.Kept

open Cert.KernelIdeal Cert.KernelIdeal.Gen
open Idealize.ShloMosaic Idealize.ShloMosaic.TcCoe
open Idealize.SL.Sem

variable {F : FTy → Type} [FloatOps F]
variable (m : (ℓ : Loc nD τ sig) → Buf (Elt F) ℓ) (ρ : Dev nD → PrngReg) (c : Dev nD)

/-- A buffer that no operation of a stretch of host operations writes holds after the stretch what it held before:
    the buffer differs from every operation's result buffer. -/
local macro "host_skip " ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))
/-- The second convolution's weights reach its linear map as launched. -/
theorem keep_arg9_11_0 : W11 m ρ c (Proc.devRef .tc main_arg9) = m ((c : Thread nD τ).loc main_arg9) :=
  calc W11 m ρ c (Proc.devRef .tc main_arg9)
    _ = W10 m ρ c (Proc.devRef .tc main_arg9) := by host_skip hostOps4
    _ = W9 m ρ c (Proc.devRef .tc main_arg9) := W10_of_ne m ρ c main_arg9 (by decide)
    _ = W8 m ρ c (Proc.devRef .tc main_arg9) := by host_skip hostOps3_2
    _ = W7 m ρ c (Proc.devRef .tc main_arg9) := by host_skip hostOps3_1
    _ = W6 m ρ c (Proc.devRef .tc main_arg9) := by host_skip hostOps3
    _ = W5 m ρ c (Proc.devRef .tc main_arg9) := W6_of_ne m ρ c main_arg9 (by decide)
    _ = W4 m ρ c (Proc.devRef .tc main_arg9) := by host_skip hostOps2
    _ = W3 m ρ c (Proc.devRef .tc main_arg9) := W4_of_ne m ρ c main_arg9 (by decide)
    _ = W2 m ρ c (Proc.devRef .tc main_arg9) := by host_skip hostOps1
    _ = W1 m ρ c (Proc.devRef .tc main_arg9) := W2_of_ne m ρ c main_arg9 (by decide)
    _ = W0 m ρ c (Proc.devRef .tc main_arg9) := by host_skip hostOps0
    _ = m ((c : Thread nD τ).loc main_arg9) := rfl

/-- The second convolution's bias is reshaped from its launch contents. -/
theorem keep_arg10_12_0 : W12 m ρ c (Proc.devRef .tc main_arg10) = m ((c : Thread nD τ).loc main_arg10) :=
  calc W12 m ρ c (Proc.devRef .tc main_arg10)
    _ = W11 m ρ c (Proc.devRef .tc main_arg10) := W12_of_ne m ρ c main_arg10 (by decide)
    _ = W10 m ρ c (Proc.devRef .tc main_arg10) := by host_skip hostOps4
    _ = W9 m ρ c (Proc.devRef .tc main_arg10) := W10_of_ne m ρ c main_arg10 (by decide)
    _ = W8 m ρ c (Proc.devRef .tc main_arg10) := by host_skip hostOps3_2
    _ = W7 m ρ c (Proc.devRef .tc main_arg10) := by host_skip hostOps3_1
    _ = W6 m ρ c (Proc.devRef .tc main_arg10) := by host_skip hostOps3
    _ = W5 m ρ c (Proc.devRef .tc main_arg10) := W6_of_ne m ρ c main_arg10 (by decide)
    _ = W4 m ρ c (Proc.devRef .tc main_arg10) := by host_skip hostOps2
    _ = W3 m ρ c (Proc.devRef .tc main_arg10) := W4_of_ne m ρ c main_arg10 (by decide)
    _ = W2 m ρ c (Proc.devRef .tc main_arg10) := by host_skip hostOps1
    _ = W1 m ρ c (Proc.devRef .tc main_arg10) := W2_of_ne m ρ c main_arg10 (by decide)
    _ = W0 m ρ c (Proc.devRef .tc main_arg10) := by host_skip hostOps0
    _ = m ((c : Thread nD τ).loc main_arg10) := rfl

/-- The first decoder layer's weights reach it as launched. -/
theorem keep_arg11_17_0 : W17 m ρ c (Proc.devRef .tc main_arg11) = m ((c : Thread nD τ).loc main_arg11) :=
  calc W17 m ρ c (Proc.devRef .tc main_arg11)
    _ = W16 m ρ c (Proc.devRef .tc main_arg11) := by host_skip hostOps6
    _ = W15 m ρ c (Proc.devRef .tc main_arg11) := W16_of_ne m ρ c main_arg11 (by decide)
    _ = W14 m ρ c (Proc.devRef .tc main_arg11) := by host_skip hostOps5_2
    _ = W13 m ρ c (Proc.devRef .tc main_arg11) := by host_skip hostOps5_1
    _ = W12 m ρ c (Proc.devRef .tc main_arg11) := by host_skip hostOps5
    _ = W11 m ρ c (Proc.devRef .tc main_arg11) := W12_of_ne m ρ c main_arg11 (by decide)
    _ = W10 m ρ c (Proc.devRef .tc main_arg11) := by host_skip hostOps4
    _ = W9 m ρ c (Proc.devRef .tc main_arg11) := W10_of_ne m ρ c main_arg11 (by decide)
    _ = W8 m ρ c (Proc.devRef .tc main_arg11) := by host_skip hostOps3_2
    _ = W7 m ρ c (Proc.devRef .tc main_arg11) := by host_skip hostOps3_1
    _ = W6 m ρ c (Proc.devRef .tc main_arg11) := by host_skip hostOps3
    _ = W5 m ρ c (Proc.devRef .tc main_arg11) := W6_of_ne m ρ c main_arg11 (by decide)
    _ = W4 m ρ c (Proc.devRef .tc main_arg11) := by host_skip hostOps2
    _ = W3 m ρ c (Proc.devRef .tc main_arg11) := W4_of_ne m ρ c main_arg11 (by decide)
    _ = W2 m ρ c (Proc.devRef .tc main_arg11) := by host_skip hostOps1
    _ = W1 m ρ c (Proc.devRef .tc main_arg11) := W2_of_ne m ρ c main_arg11 (by decide)
    _ = W0 m ρ c (Proc.devRef .tc main_arg11) := by host_skip hostOps0
    _ = m ((c : Thread nD τ).loc main_arg11) := rfl

/-- The first decoder layer's bias is reshaped from its launch contents. -/
theorem keep_arg12_16_0 : W16 m ρ c (Proc.devRef .tc main_arg12) = m ((c : Thread nD τ).loc main_arg12) :=
  calc W16 m ρ c (Proc.devRef .tc main_arg12)
    _ = W15 m ρ c (Proc.devRef .tc main_arg12) := W16_of_ne m ρ c main_arg12 (by decide)
    _ = W14 m ρ c (Proc.devRef .tc main_arg12) := by host_skip hostOps5_2
    _ = W13 m ρ c (Proc.devRef .tc main_arg12) := by host_skip hostOps5_1
    _ = W12 m ρ c (Proc.devRef .tc main_arg12) := by host_skip hostOps5
    _ = W11 m ρ c (Proc.devRef .tc main_arg12) := W12_of_ne m ρ c main_arg12 (by decide)
    _ = W10 m ρ c (Proc.devRef .tc main_arg12) := by host_skip hostOps4
    _ = W9 m ρ c (Proc.devRef .tc main_arg12) := W10_of_ne m ρ c main_arg12 (by decide)
    _ = W8 m ρ c (Proc.devRef .tc main_arg12) := by host_skip hostOps3_2
    _ = W7 m ρ c (Proc.devRef .tc main_arg12) := by host_skip hostOps3_1
    _ = W6 m ρ c (Proc.devRef .tc main_arg12) := by host_skip hostOps3
    _ = W5 m ρ c (Proc.devRef .tc main_arg12) := W6_of_ne m ρ c main_arg12 (by decide)
    _ = W4 m ρ c (Proc.devRef .tc main_arg12) := by host_skip hostOps2
    _ = W3 m ρ c (Proc.devRef .tc main_arg12) := W4_of_ne m ρ c main_arg12 (by decide)
    _ = W2 m ρ c (Proc.devRef .tc main_arg12) := by host_skip hostOps1
    _ = W1 m ρ c (Proc.devRef .tc main_arg12) := W2_of_ne m ρ c main_arg12 (by decide)
    _ = W0 m ρ c (Proc.devRef .tc main_arg12) := by host_skip hostOps0
    _ = m ((c : Thread nD τ).loc main_arg12) := rfl

/-- The last layer's weights reach it as launched. -/
theorem keep_arg13_19_0 : W19 m ρ c (Proc.devRef .tc main_arg13) = m ((c : Thread nD τ).loc main_arg13) :=
  calc W19 m ρ c (Proc.devRef .tc main_arg13)
    _ = W18 m ρ c (Proc.devRef .tc main_arg13) := by host_skip hostOps7
    _ = W17 m ρ c (Proc.devRef .tc main_arg13) := W18_of_ne m ρ c main_arg13 (by decide)
    _ = W16 m ρ c (Proc.devRef .tc main_arg13) := by host_skip hostOps6
    _ = W15 m ρ c (Proc.devRef .tc main_arg13) := W16_of_ne m ρ c main_arg13 (by decide)
    _ = W14 m ρ c (Proc.devRef .tc main_arg13) := by host_skip hostOps5_2
    _ = W13 m ρ c (Proc.devRef .tc main_arg13) := by host_skip hostOps5_1
    _ = W12 m ρ c (Proc.devRef .tc main_arg13) := by host_skip hostOps5
    _ = W11 m ρ c (Proc.devRef .tc main_arg13) := W12_of_ne m ρ c main_arg13 (by decide)
    _ = W10 m ρ c (Proc.devRef .tc main_arg13) := by host_skip hostOps4
    _ = W9 m ρ c (Proc.devRef .tc main_arg13) := W10_of_ne m ρ c main_arg13 (by decide)
    _ = W8 m ρ c (Proc.devRef .tc main_arg13) := by host_skip hostOps3_2
    _ = W7 m ρ c (Proc.devRef .tc main_arg13) := by host_skip hostOps3_1
    _ = W6 m ρ c (Proc.devRef .tc main_arg13) := by host_skip hostOps3
    _ = W5 m ρ c (Proc.devRef .tc main_arg13) := W6_of_ne m ρ c main_arg13 (by decide)
    _ = W4 m ρ c (Proc.devRef .tc main_arg13) := by host_skip hostOps2
    _ = W3 m ρ c (Proc.devRef .tc main_arg13) := W4_of_ne m ρ c main_arg13 (by decide)
    _ = W2 m ρ c (Proc.devRef .tc main_arg13) := by host_skip hostOps1
    _ = W1 m ρ c (Proc.devRef .tc main_arg13) := W2_of_ne m ρ c main_arg13 (by decide)
    _ = W0 m ρ c (Proc.devRef .tc main_arg13) := by host_skip hostOps0
    _ = m ((c : Thread nD τ).loc main_arg13) := rfl

/-- The last layer's bias is reshaped from its launch contents. -/
theorem keep_arg14_18_0 : W18 m ρ c (Proc.devRef .tc main_arg14) = m ((c : Thread nD τ).loc main_arg14) :=
  calc W18 m ρ c (Proc.devRef .tc main_arg14)
    _ = W17 m ρ c (Proc.devRef .tc main_arg14) := W18_of_ne m ρ c main_arg14 (by decide)
    _ = W16 m ρ c (Proc.devRef .tc main_arg14) := by host_skip hostOps6
    _ = W15 m ρ c (Proc.devRef .tc main_arg14) := W16_of_ne m ρ c main_arg14 (by decide)
    _ = W14 m ρ c (Proc.devRef .tc main_arg14) := by host_skip hostOps5_2
    _ = W13 m ρ c (Proc.devRef .tc main_arg14) := by host_skip hostOps5_1
    _ = W12 m ρ c (Proc.devRef .tc main_arg14) := by host_skip hostOps5
    _ = W11 m ρ c (Proc.devRef .tc main_arg14) := W12_of_ne m ρ c main_arg14 (by decide)
    _ = W10 m ρ c (Proc.devRef .tc main_arg14) := by host_skip hostOps4
    _ = W9 m ρ c (Proc.devRef .tc main_arg14) := W10_of_ne m ρ c main_arg14 (by decide)
    _ = W8 m ρ c (Proc.devRef .tc main_arg14) := by host_skip hostOps3_2
    _ = W7 m ρ c (Proc.devRef .tc main_arg14) := by host_skip hostOps3_1
    _ = W6 m ρ c (Proc.devRef .tc main_arg14) := by host_skip hostOps3
    _ = W5 m ρ c (Proc.devRef .tc main_arg14) := W6_of_ne m ρ c main_arg14 (by decide)
    _ = W4 m ρ c (Proc.devRef .tc main_arg14) := by host_skip hostOps2
    _ = W3 m ρ c (Proc.devRef .tc main_arg14) := W4_of_ne m ρ c main_arg14 (by decide)
    _ = W2 m ρ c (Proc.devRef .tc main_arg14) := by host_skip hostOps1
    _ = W1 m ρ c (Proc.devRef .tc main_arg14) := W2_of_ne m ρ c main_arg14 (by decide)
    _ = W0 m ρ c (Proc.devRef .tc main_arg14) := by host_skip hostOps0
    _ = m ((c : Thread nD τ).loc main_arg14) := rfl

/-- The first convolution's output reaches the second as written. -/
theorem keep_v55_11_10 : W11 m ρ c (Proc.devRef .tc main_v55) = W10 m ρ c (Proc.devRef .tc main_v55) :=
  calc W11 m ρ c (Proc.devRef .tc main_v55)
    _ = W10 m ρ c (Proc.devRef .tc main_v55) := by host_skip hostOps4

/-- The second convolution's output reaches the decoder as written. -/
theorem keep_v98_17_16 : W17 m ρ c (Proc.devRef .tc main_v98) = W16 m ρ c (Proc.devRef .tc main_v98) :=
  calc W17 m ρ c (Proc.devRef .tc main_v98)
    _ = W16 m ρ c (Proc.devRef .tc main_v98) := by host_skip hostOps6

/-- The first decoder layer's output reaches the last layer as written. -/
theorem keep_v100_19_18 : W19 m ρ c (Proc.devRef .tc main_v100) = W18 m ρ c (Proc.devRef .tc main_v100) :=
  calc W19 m ρ c (Proc.devRef .tc main_v100)
    _ = W18 m ρ c (Proc.devRef .tc main_v100) := by host_skip hostOps7

/-- The sources reach the second round of message passing as they reached the first. -/
theorem keep_v3_12_6 : W12 m ρ c (Proc.devRef .tc main_v3) = W6 m ρ c (Proc.devRef .tc main_v3) :=
  calc W12 m ρ c (Proc.devRef .tc main_v3)
    _ = W11 m ρ c (Proc.devRef .tc main_v3) := W12_of_ne m ρ c main_v3 (by decide)
    _ = W10 m ρ c (Proc.devRef .tc main_v3) := by host_skip hostOps4
    _ = W9 m ρ c (Proc.devRef .tc main_v3) := W10_of_ne m ρ c main_v3 (by decide)
    _ = W8 m ρ c (Proc.devRef .tc main_v3) := by host_skip hostOps3_2
    _ = W7 m ρ c (Proc.devRef .tc main_v3) := by host_skip hostOps3_1
    _ = W6 m ρ c (Proc.devRef .tc main_v3) := by host_skip hostOps3

/-- The targets reach the second round of message passing as they reached the first. -/
theorem keep_v6_12_6 : W12 m ρ c (Proc.devRef .tc main_v6) = W6 m ρ c (Proc.devRef .tc main_v6) :=
  calc W12 m ρ c (Proc.devRef .tc main_v6)
    _ = W11 m ρ c (Proc.devRef .tc main_v6) := W12_of_ne m ρ c main_v6 (by decide)
    _ = W10 m ρ c (Proc.devRef .tc main_v6) := by host_skip hostOps4
    _ = W9 m ρ c (Proc.devRef .tc main_v6) := W10_of_ne m ρ c main_v6 (by decide)
    _ = W8 m ρ c (Proc.devRef .tc main_v6) := by host_skip hostOps3_2
    _ = W7 m ρ c (Proc.devRef .tc main_v6) := by host_skip hostOps3_1
    _ = W6 m ρ c (Proc.devRef .tc main_v6) := by host_skip hostOps3

/-- The edge weights reach the second round as they reached the first. -/
theorem keep_v8_12_6 : W12 m ρ c (Proc.devRef .tc main_v8) = W6 m ρ c (Proc.devRef .tc main_v8) :=
  calc W12 m ρ c (Proc.devRef .tc main_v8)
    _ = W11 m ρ c (Proc.devRef .tc main_v8) := W12_of_ne m ρ c main_v8 (by decide)
    _ = W10 m ρ c (Proc.devRef .tc main_v8) := by host_skip hostOps4
    _ = W9 m ρ c (Proc.devRef .tc main_v8) := W10_of_ne m ρ c main_v8 (by decide)
    _ = W8 m ρ c (Proc.devRef .tc main_v8) := by host_skip hostOps3_2
    _ = W7 m ρ c (Proc.devRef .tc main_v8) := by host_skip hostOps3_1
    _ = W6 m ρ c (Proc.devRef .tc main_v8) := by host_skip hostOps3

end Cert.KernelIdeal.Kept

end
-- ==== Proof.Glue.lean ====
/-
  One round of message passing over the edge list, as both programs spell it on the host.

  The graph has 50000 nodes and 1650000 directed edges (the given ones and one self-loop per node), edge j going from
  node src(j) to node dst(j) with weight w(j). With deg(n) the sum of the weights of the edges INTO n, and
  dinv(n) = 1 / sqrt(max(deg(n), 1e-12)) where deg(n) > 0 and 0 elsewhere, the round sends along every edge the source's
  feature row scaled by dinv(src) · w · dinv(dst), and sums at every node the rows arriving there:

      out(n, ·) = Σ_{j : dst(j) = n}  h(src(j), ·) · ( dinv(src(j)) · w(j) · dinv(dst(j)) ).

  Written below operation by operation — a scatter-add for each sum over edges, a gather for each read through an
  index, an index column being the indices with the negative ones moved up by the node count — this is ONE function of
  the feature matrix, the two index vectors and the weights. Both programs apply exactly these operations, so nothing
  about them has to be opened: each program's round is this function of its own operands.
-/
import proofs.«129692_j34102040330339_1_alg».proof.KernelIdeal
import proofs.«129692_j34102040330339_1_alg».proof.Proof.Gen.KernelIdeal

noncomputable section

namespace Cert.KernelIdeal.Graph

open Cert.KernelIdeal Cert.KernelIdeal.Facts₀ Idealize.ShloMosaic

variable {F : FTy → Type} [FloatOps F]

/-- An index vector as a column, its negative entries moved up by the node count. -/
def column (v : (⟨S1650000, .i32⟩ : BufTy).Contents (Elt F)) : (⟨S1650000x1, .i32⟩ : BufTy).Contents (Elt F) :=
  (broadcastInDim S1650000x1 ![0] bcast_S1650000_S1650000x1_0 : (⟨S1650000, .i32⟩ : BufTy).Contents (Elt F) → (⟨S1650000x1, .i32⟩ : BufTy).Contents (Elt F))
    ((select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F))
      ((cmpi .slt : (⟨S1650000, .i32⟩ : BufTy).Contents (Elt F) → (⟨S1650000, .i32⟩ : BufTy).Contents (Elt F) → (⟨S1650000, .i1⟩ : BufTy).Contents (Elt F)) v
        ((broadcastInDim S1650000 ![] bcast_S_S1650000 : (⟨S_, .i32⟩ : BufTy).Contents (Elt F) → (⟨S1650000, .i32⟩ : BufTy).Contents (Elt F)) (constantI S_ 32 0#32)))
      ((addi : (⟨S1650000, .i32⟩ : BufTy).Contents (Elt F) → (⟨S1650000, .i32⟩ : BufTy).Contents (Elt F) → (⟨S1650000, .i32⟩ : BufTy).Contents (Elt F)) v
        ((broadcastInDim S1650000 ![] bcast_S_S1650000 : (⟨S_, .i32⟩ : BufTy).Contents (Elt F) → (⟨S1650000, .i32⟩ : BufTy).Contents (Elt F)) (constantI S_ 32 50000#32)))
      v)

/-- The f32 zero at every node. -/
def zeros : (⟨S50000, .f32⟩ : BufTy).Contents (Elt F) :=
  (broadcastInDim S50000 ![] bcast_S_S50000 : (⟨S_, .f32⟩ : BufTy).Contents (Elt F) → (⟨S50000, .f32⟩ : BufTy).Contents (Elt F)) (constant (F := F) S_ .f32 0x00000000#32)

/-- deg: at every node the sum of the weights of the edges into it. -/
def degree (dst : (⟨S1650000, .i32⟩ : BufTy).Contents (Elt F)) (w : (⟨S1650000, .f32⟩ : BufTy).Contents (Elt F)) :
    (⟨S50000, .f32⟩ : BufTy).Contents (Elt F) :=
  Host.scatterAdd scatter_S50000_S1650000x1_S1650000_n_0_0_1 (zeros (F := F))
    ((broadcastInDim S1650000x1 ![0] bcast_S1650000_S1650000x1_0 : (⟨S1650000, .i32⟩ : BufTy).Contents (Elt F) → (⟨S1650000x1, .i32⟩ : BufTy).Contents (Elt F)) dst) w

/-- dinv: 1 / sqrt(max(deg, 1e-12)) where deg > 0, and 0 elsewhere. -/
def invSqrtDegree (dst : (⟨S1650000, .i32⟩ : BufTy).Contents (Elt F)) (w : (⟨S1650000, .f32⟩ : BufTy).Contents (Elt F)) :
    (⟨S50000, .f32⟩ : BufTy).Contents (Elt F) :=
  (select : (⟨S50000, .i1⟩ : BufTy).Contents (Elt F) → (⟨S50000, .f32⟩ : BufTy).Contents (Elt F) → (⟨S50000, .f32⟩ : BufTy).Contents (Elt F) → (⟨S50000, .f32⟩ : BufTy).Contents (Elt F))
    ((cmpf .ogt : (⟨S50000, .f32⟩ : BufTy).Contents (Elt F) → (⟨S50000, .f32⟩ : BufTy).Contents (Elt F) → (⟨S50000, .i1⟩ : BufTy).Contents (Elt F)) (degree dst w) (zeros (F := F)))
    ((Host.rsqrt : (⟨S50000, .f32⟩ : BufTy).Contents (Elt F) → (⟨S50000, .f32⟩ : BufTy).Contents (Elt F))
      ((maximumf : (⟨S50000, .f32⟩ : BufTy).Contents (Elt F) → (⟨S50000, .f32⟩ : BufTy).Contents (Elt F) → (⟨S50000, .f32⟩ : BufTy).Contents (Elt F)) (degree dst w)
        ((broadcastInDim S50000 ![] bcast_S_S50000 : (⟨S_, .f32⟩ : BufTy).Contents (Elt F) → (⟨S50000, .f32⟩ : BufTy).Contents (Elt F)) (constant (F := F) S_ .f32 0x2B8CBCCC#32))))
    (zeros (F := F))

/-- The factor of each edge: dinv(src) · w · dinv(dst). -/
def edgeFactor (src dst : (⟨S1650000, .i32⟩ : BufTy).Contents (Elt F)) (w : (⟨S1650000, .f32⟩ : BufTy).Contents (Elt F)) :
    (⟨S1650000, .f32⟩ : BufTy).Contents (Elt F) :=
  (mulf : (⟨S1650000, .f32⟩ : BufTy).Contents (Elt F) → (⟨S1650000, .f32⟩ : BufTy).Contents (Elt F) → (⟨S1650000, .f32⟩ : BufTy).Contents (Elt F))
    ((mulf : (⟨S1650000, .f32⟩ : BufTy).Contents (Elt F) → (⟨S1650000, .f32⟩ : BufTy).Contents (Elt F) → (⟨S1650000, .f32⟩ : BufTy).Contents (Elt F))
      (Host.gather gather_S50000_S1650000x1_S1650000_n_0_n_n_0_1_1 (invSqrtDegree dst w) (column src)) w)
    (Host.gather gather_S50000_S1650000x1_S1650000_n_0_n_n_0_1_1 (invSqrtDegree dst w) (column dst))

/-- The round: every edge carries its source's row times its factor, and every node sums what arrives. -/
def propagate (h : (⟨S50000x64, .f32⟩ : BufTy).Contents (Elt F)) (src dst : (⟨S1650000, .i32⟩ : BufTy).Contents (Elt F))
    (w : (⟨S1650000, .f32⟩ : BufTy).Contents (Elt F)) : (⟨S50000x64, .f32⟩ : BufTy).Contents (Elt F) :=
  Host.scatterAdd scatter_S50000x64_S1650000x1_S1650000x64_1_0_0_1
    ((broadcastInDim S50000x64 ![] bcast_S_S50000x64 : (⟨S_, .f32⟩ : BufTy).Contents (Elt F) → (⟨S50000x64, .f32⟩ : BufTy).Contents (Elt F)) (constant (F := F) S_ .f32 0x00000000#32))
    ((broadcastInDim S1650000x1 ![0] bcast_S1650000_S1650000x1_0 : (⟨S1650000, .i32⟩ : BufTy).Contents (Elt F) → (⟨S1650000x1, .i32⟩ : BufTy).Contents (Elt F)) dst)
    ((mulf : (⟨S1650000x64, .f32⟩ : BufTy).Contents (Elt F) → (⟨S1650000x64, .f32⟩ : BufTy).Contents (Elt F) → (⟨S1650000x64, .f32⟩ : BufTy).Contents (Elt F))
      (Host.gather gather_S50000x64_S1650000x1_S1650000x64_1_0_n_n_0_1_164 h (column src))
      ((broadcastInDim S1650000x64 ![0, 1] bcast_S1650000x1_S1650000x64_0_1 : (⟨S1650000x1, .f32⟩ : BufTy).Contents (Elt F) → (⟨S1650000x64, .f32⟩ : BufTy).Contents (Elt F))
        ((broadcastInDim S1650000x1 ![0] bcast_S1650000_S1650000x1_0 : (⟨S1650000, .f32⟩ : BufTy).Contents (Elt F) → (⟨S1650000x1, .f32⟩ : BufTy).Contents (Elt F)) (edgeFactor src dst w))))

/-! ## The edge list with the self-loops, from the arguments -/

/-- The sources: row 0 of the edge index, followed by the node numbers 0 … 49999 (the self-loops). -/
def sources (e : (⟨S2x1600000, .i32⟩ : BufTy).Contents (Elt F)) : (⟨S1650000, .i32⟩ : BufTy).Contents (Elt F) :=
  concatenate S1650000 0 [⟨S1600000, (shapeCast S1600000 (extractStridedSlice S1x1600000 ![0, 0] e slices_S2x1600000_S1x1600000_0_0) shapeCasts_S1x1600000_S1600000 : (⟨S1600000, .i32⟩ : BufTy).Contents (Elt F))⟩, ⟨S50000, (iotaInDim S50000 32 0 : (⟨S50000, .i32⟩ : BufTy).Contents (Elt F))⟩] concatenates_S1600000_S50000_S1650000_d0

/-- The targets: row 1 of the edge index, followed by the node numbers 0 … 49999. -/
def targets (e : (⟨S2x1600000, .i32⟩ : BufTy).Contents (Elt F)) : (⟨S1650000, .i32⟩ : BufTy).Contents (Elt F) :=
  concatenate S1650000 0 [⟨S1600000, (shapeCast S1600000 (extractStridedSlice S1x1600000 ![1, 0] e slices_S2x1600000_S1x1600000_1_0) shapeCasts_S1x1600000_S1600000 : (⟨S1600000, .i32⟩ : BufTy).Contents (Elt F))⟩, ⟨S50000, (iotaInDim S50000 32 0 : (⟨S50000, .i32⟩ : BufTy).Contents (Elt F))⟩] concatenates_S1600000_S50000_S1650000_d0

/-- The edge weights followed by a one for every self-loop. -/
def weights (w : (⟨S1600000, .f32⟩ : BufTy).Contents (Elt F)) : (⟨S1650000, .f32⟩ : BufTy).Contents (Elt F) :=
  concatenate S1650000 0 [⟨S1600000, w⟩, ⟨S50000, ((broadcastInDim S50000 ![] bcast_S_S50000 : (⟨S_, .f32⟩ : BufTy).Contents (Elt F) → (⟨S50000, .f32⟩ : BufTy).Contents (Elt F)) (constant (F := F) S_ .f32 0x3F800000#32))⟩] concatenates_S1600000_S50000_S1650000_d0

end Cert.KernelIdeal.Graph

end
-- ==== Proof.HostReads.lean ====
/-
  What the host operations between the launches compute, buffer by buffer.

  Each stretch of host operations is applied to the buffer contents it finds. A bias vector is reshaped to a one-row
  matrix for the launch that adds it; the two graph convolutions' linear maps are given a row of zeros instead; the
  first stretch builds the edge list with its self-loops from the edge index and the edge weights; and each of the two
  long stretches is one round of message passing, the function of Glue.lean, of the linear map's output and the edge
  list. An argument array read by a stretch holds its launch contents there (KeptEarly.lean, KeptLate.lean).
-/
import proofs.«129692_j34102040330339_1_alg».proof.Proof.Gen.KernelIdeal.Frame
import proofs.«129692_j34102040330339_1_alg».proof.Proof.Glue
import proofs.«129692_j34102040330339_1_alg».proof.Proof.KeptEarly
import proofs.«129692_j34102040330339_1_alg».proof.Proof.KeptLate
import Idealize.ShloMosaic.Lib.StableHlo.Run
import Idealize.ShloMosaic.PureOps.Ideal

set_option maxRecDepth 16384

noncomputable section

namespace Cert.KernelIdeal.HostReads

open Cert.KernelIdeal Cert.KernelIdeal.Gen Cert.KernelIdeal.Kept Cert.KernelIdeal.Graph
open Idealize.ShloMosaic Idealize.ShloMosaic.TcCoe Idealize.ShloMosaic.StableHlo
open Idealize.SL.Sem

variable (m : (ℓ : Loc nD τ sig) → Buf (Elt Ideal) ℓ) (ρ : Dev nD → PrngReg) (c : Dev nD)

/-! ## Before the first launch: the edge list and the first bias row -/

/-- The first encoder layer's bias as a one-row matrix. -/
theorem bias_enc1 : W1 m ρ c (Proc.devRef .tc main_v9) = shapeCast S1x128 (m ((c : Thread nD τ).loc main_arg4)) shapeCasts_S128_S1x128 := by
  show StableHlo.after hostOps0 (W0 m ρ c) (Proc.devRef .tc main_v9) = _
  after_results
  rfl

/-- The sources of the edges, self-loops included. -/
theorem sources_built : W1 m ρ c (Proc.devRef .tc main_v3) = sources (F := Ideal) (m ((c : Thread nD τ).loc main_arg1)) := by
  show StableHlo.after hostOps0 (W0 m ρ c) (Proc.devRef .tc main_v3) = _
  after_results
  rfl

/-- The targets of the edges, self-loops included. -/
theorem targets_built : W1 m ρ c (Proc.devRef .tc main_v6) = targets (F := Ideal) (m ((c : Thread nD τ).loc main_arg1)) := by
  show StableHlo.after hostOps0 (W0 m ρ c) (Proc.devRef .tc main_v6) = _
  after_results
  rfl

/-- The edge weights, a one for every self-loop. -/
theorem weights_built : W1 m ρ c (Proc.devRef .tc main_v8) = weights (F := Ideal) (m ((c : Thread nD τ).loc main_arg2)) := by
  show StableHlo.after hostOps0 (W0 m ρ c) (Proc.devRef .tc main_v8) = _
  after_results
  rfl

/-! ## The bias rows of the later launches -/

/-- The second encoder layer's bias as a one-row matrix. -/
theorem bias_enc2 : W3 m ρ c (Proc.devRef .tc main_v11) = shapeCast S1x64 (m ((c : Thread nD τ).loc main_arg6)) shapeCasts_S64_S1x64 := by
  show StableHlo.after hostOps1 (W2 m ρ c) (Proc.devRef .tc main_v11) = _
  after_results
  exact congrArg (fun x => shapeCast S1x64 x shapeCasts_S64_S1x64) (keep_arg6_2_0 m ρ c)

/-- The first convolution's linear map is given a row of zeros. -/
theorem zeros_conv1 : W5 m ρ c (Proc.devRef .tc main_v14)
    = shapeCast S1x64 (broadcastInDim S64 ![] bcast_S_S64 (constant (F := Ideal) S_ .f32 0x00000000#32)) shapeCasts_S64_S1x64 := by
  show StableHlo.after hostOps2 (W4 m ρ c) (Proc.devRef .tc main_v14) = _
  after_results
  rfl

/-- The second convolution's linear map is given a row of zeros. -/
theorem zeros_conv2 : W11 m ρ c (Proc.devRef .tc main_v57)
    = shapeCast S1x64 (broadcastInDim S64 ![] bcast_S_S64 (constant (F := Ideal) S_ .f32 0x00000000#32)) shapeCasts_S64_S1x64 := by
  show StableHlo.after hostOps4 (W10 m ρ c) (Proc.devRef .tc main_v57) = _
  after_results
  rfl

/-- The first decoder layer's bias as a one-row matrix. -/
theorem bias_dec1 : W17 m ρ c (Proc.devRef .tc main_v99) = shapeCast S1x128 (m ((c : Thread nD τ).loc main_arg12)) shapeCasts_S128_S1x128 := by
  show StableHlo.after hostOps6 (W16 m ρ c) (Proc.devRef .tc main_v99) = _
  after_results
  exact congrArg (fun x => shapeCast S1x128 x shapeCasts_S128_S1x128) (keep_arg12_16_0 m ρ c)

/-- The last layer's bias as a one-row matrix. -/
theorem bias_dec2 : W19 m ρ c (Proc.devRef .tc main_v101) = shapeCast S1x256 (m ((c : Thread nD τ).loc main_arg14)) shapeCasts_S256_S1x256 := by
  show StableHlo.after hostOps7 (W18 m ρ c) (Proc.devRef .tc main_v101) = _
  after_results
  exact congrArg (fun x => shapeCast S1x256 x shapeCasts_S256_S1x256) (keep_arg14_18_0 m ρ c)

/-! ## The two rounds of message passing -/

/-- The first round: the operations between the first convolution's two launches are `propagate` of the linear map's
    output and the edge list, as those buffers stand when the stretch begins. -/
theorem round1 : W9 m ρ c (Proc.devRef .tc main_v53)
    = propagate (F := Ideal) (W6 m ρ c (Proc.devRef .tc main_v15)) (W6 m ρ c (Proc.devRef .tc main_v3)) (W6 m ρ c (Proc.devRef .tc main_v6)) (W6 m ρ c (Proc.devRef .tc main_v8)) := by
  show StableHlo.after hostOps3_2 (StableHlo.after hostOps3_1 (StableHlo.after hostOps3 (W6 m ρ c))) (Proc.devRef .tc main_v53) = _
  after_results_simp
  unfold propagate edgeFactor invSqrtDegree degree zeros column
  congr

/-- The first convolution's bias as a one-row matrix. -/
theorem bias_conv1 : W9 m ρ c (Proc.devRef .tc main_v54) = shapeCast S1x64 (m ((c : Thread nD τ).loc main_arg8)) shapeCasts_S64_S1x64 := by
  show StableHlo.after hostOps3_2 (StableHlo.after hostOps3_1 (StableHlo.after hostOps3 (W6 m ρ c))) (Proc.devRef .tc main_v54) = _
  after_results_simp
  exact congrArg (fun x => shapeCast S1x64 x shapeCasts_S64_S1x64) (keep_arg8_6_0 m ρ c)

/-- The second round, of the second linear map's output. -/
theorem round2 : W15 m ρ c (Proc.devRef .tc main_v96)
    = propagate (F := Ideal) (W12 m ρ c (Proc.devRef .tc main_v58)) (W12 m ρ c (Proc.devRef .tc main_v3)) (W12 m ρ c (Proc.devRef .tc main_v6)) (W12 m ρ c (Proc.devRef .tc main_v8)) := by
  show StableHlo.after hostOps5_2 (StableHlo.after hostOps5_1 (StableHlo.after hostOps5 (W12 m ρ c))) (Proc.devRef .tc main_v96) = _
  after_results_simp
  unfold propagate edgeFactor invSqrtDegree degree zeros column
  congr

/-- The second convolution's bias as a one-row matrix. -/
theorem bias_conv2 : W15 m ρ c (Proc.devRef .tc main_v97) = shapeCast S1x64 (m ((c : Thread nD τ).loc main_arg10)) shapeCasts_S64_S1x64 := by
  show StableHlo.after hostOps5_2 (StableHlo.after hostOps5_1 (StableHlo.after hostOps5 (W12 m ρ c))) (Proc.devRef .tc main_v97) = _
  after_results_simp
  exact congrArg (fun x => shapeCast S1x64 x shapeCasts_S64_S1x64) (keep_arg10_12_0 m ρ c)

/-- The edge list reaches both rounds as the first stretch built it. -/
theorem edges_round1 : W6 m ρ c (Proc.devRef .tc main_v3) = sources (F := Ideal) (m ((c : Thread nD τ).loc main_arg1)) ∧ W6 m ρ c (Proc.devRef .tc main_v6) = targets (F := Ideal) (m ((c : Thread nD τ).loc main_arg1))
    ∧ W6 m ρ c (Proc.devRef .tc main_v8) = weights (F := Ideal) (m ((c : Thread nD τ).loc main_arg2)) :=
  ⟨(keep_v3_6_1 m ρ c).trans (sources_built m ρ c), (keep_v6_6_1 m ρ c).trans (targets_built m ρ c),
   (keep_v8_6_1 m ρ c).trans (weights_built m ρ c)⟩

theorem edges_round2 : W12 m ρ c (Proc.devRef .tc main_v3) = sources (F := Ideal) (m ((c : Thread nD τ).loc main_arg1)) ∧ W12 m ρ c (Proc.devRef .tc main_v6) = targets (F := Ideal) (m ((c : Thread nD τ).loc main_arg1))
    ∧ W12 m ρ c (Proc.devRef .tc main_v8) = weights (F := Ideal) (m ((c : Thread nD τ).loc main_arg2)) :=
  ⟨(keep_v3_12_6 m ρ c).trans (edges_round1 m ρ c).1, (keep_v6_12_6 m ρ c).trans (edges_round1 m ρ c).2.1,
   (keep_v8_12_6 m ρ c).trans (edges_round1 m ρ c).2.2⟩

end Cert.KernelIdeal.HostReads

end
-- ==== Proof.Spec.lean ====
/-
  The graph auto-encoder as ONE function of its fifteen argument arrays.

  Two encoder layers relu (· Wᵀ + b); two graph convolutions, each a per-node linear map · Wᵀ, one round of message
  passing over the edge list with its self-loops, the bias and the rectifier; a decoder layer relu (· Wᵀ + b); and a
  last layer through the logistic function. Both programs are proved to return this function of their arguments.
-/
import proofs.«129692_j34102040330339_1_alg».proof.Proof.Glue
import proofs.«129692_j34102040330339_1_alg».proof.Proof.LibTransposedDense

noncomputable section

namespace Cert.GraphAE

open Cert.KernelIdeal Cert.KernelIdeal.Graph Idealize.ShloMosaic Idealize.ShloMosaic.ValueIdx

/-- A vector as a function of its coordinate. -/
def vec {B : ℕ} (b : (⟨1, ![B]⟩ : Shape).Idx → EReal) : Fin B → EReal := fun e => b (ix1 e)

/-- One graph convolution: the per-node linear map, the round of message passing, the bias, the rectifier. -/
def conv (h : (⟨S50000x64, .f32⟩ : BufTy).Contents (Elt Ideal)) (ei : (⟨S2x1600000, .i32⟩ : BufTy).Contents (Elt Ideal)) (ew : (⟨S1600000, .f32⟩ : BufTy).Contents (Elt Ideal))
    (w : (⟨S64x64, .f32⟩ : BufTy).Contents (Elt Ideal)) (b : (⟨S64, .f32⟩ : BufTy).Contents (Elt Ideal)) : (⟨S50000x64, .f32⟩ : BufTy).Contents (Elt Ideal) :=
  relu (addRow (propagate (F := Ideal) (lin h w) (sources ei) (targets ei) (weights ew)) (vec b))

/-- The whole network. -/
def autoencoder (x0 : (⟨S50000x256, .f32⟩ : BufTy).Contents (Elt Ideal)) (x1 : (⟨S2x1600000, .i32⟩ : BufTy).Contents (Elt Ideal)) (x2 : (⟨S1600000, .f32⟩ : BufTy).Contents (Elt Ideal))
    (x3 : (⟨S128x256, .f32⟩ : BufTy).Contents (Elt Ideal)) (x4 : (⟨S128, .f32⟩ : BufTy).Contents (Elt Ideal)) (x5 : (⟨S64x128, .f32⟩ : BufTy).Contents (Elt Ideal)) (x6 : (⟨S64, .f32⟩ : BufTy).Contents (Elt Ideal))
    (x7 : (⟨S64x64, .f32⟩ : BufTy).Contents (Elt Ideal)) (x8 : (⟨S64, .f32⟩ : BufTy).Contents (Elt Ideal)) (x9 : (⟨S64x64, .f32⟩ : BufTy).Contents (Elt Ideal)) (x10 : (⟨S64, .f32⟩ : BufTy).Contents (Elt Ideal))
    (x11 : (⟨S128x64, .f32⟩ : BufTy).Contents (Elt Ideal)) (x12 : (⟨S128, .f32⟩ : BufTy).Contents (Elt Ideal)) (x13 : (⟨S256x128, .f32⟩ : BufTy).Contents (Elt Ideal)) (x14 : (⟨S256, .f32⟩ : BufTy).Contents (Elt Ideal)) :
    (⟨S50000x256, .f32⟩ : BufTy).Contents (Elt Ideal) :=
  sigmoid (affine (relu (affine (conv (conv (relu (affine (relu (affine x0 x3 (vec x4))) x5 (vec x6))) x1 x2 x7 x8) x1 x2 x9 x10)
    x11 (vec x12))) x13 (vec x14))

end Cert.GraphAE

end
-- ==== Proof.Chain.lean ====
/-
  The idealized kernel program's result is the network of Spec.lean of its arguments.

  The program is read launch by launch. Each launch's output array is its layer function (the launch's own module)
  of the arrays it finds; the arrays it finds are the previous launch's output, untouched in between, the weights as
  launched, and the bias as a one-row matrix — a reshaped argument, whose row is the vector, or a row of zeros, which
  adds nothing. Between the two launches of a graph convolution the host's operations are one round of message
  passing over the edge list the first stretch built. Ten steps, composed.
-/
import proofs.«129692_j34102040330339_1_alg».proof.Proof.Gen.KernelIdeal.Frame
import proofs.«129692_j34102040330339_1_alg».proof.Proof.Enc1
import proofs.«129692_j34102040330339_1_alg».proof.Proof.Enc2
import proofs.«129692_j34102040330339_1_alg».proof.Proof.Conv1Lin
import proofs.«129692_j34102040330339_1_alg».proof.Proof.Conv1Act
import proofs.«129692_j34102040330339_1_alg».proof.Proof.Conv2Lin
import proofs.«129692_j34102040330339_1_alg».proof.Proof.Conv2Act
import proofs.«129692_j34102040330339_1_alg».proof.Proof.Dec1
import proofs.«129692_j34102040330339_1_alg».proof.Proof.Dec2
import proofs.«129692_j34102040330339_1_alg».proof.Proof.KeptEarly
import proofs.«129692_j34102040330339_1_alg».proof.Proof.KeptLate
import proofs.«129692_j34102040330339_1_alg».proof.Proof.HostReads
import proofs.«129692_j34102040330339_1_alg».proof.Proof.Spec
import proofs.«129692_j34102040330339_1_alg».proof.Proof.LibTransposedDense

set_option maxRecDepth 16384

noncomputable section

namespace Cert.KernelIdeal.Chain

open Cert.KernelIdeal Cert.KernelIdeal.Gen Cert.KernelIdeal.Kept Cert.KernelIdeal.Graph Cert.GraphAE
open Idealize.ShloMosaic Idealize.ShloMosaic.TcCoe Idealize.ShloMosaic.ValueIdx
open Idealize.SL.Sem

variable (m : (ℓ : Loc nD τ sig) → Buf (Elt Ideal) ℓ) (ρ : Dev nD → PrngReg) (c : Dev nD)

/-- The first encoder layer's output. -/
theorem enc1 : (W2 m ρ c (Proc.devRef .tc main_v10) : S50000x128.Idx → EReal)
    = relu (affine (A := 50000) (K := 256) (B := 128) (m ((c : Thread nD τ).loc main_arg0)) (m ((c : Thread nD τ).loc main_arg3)) (vec (B := 128) (m ((c : Thread nD τ).loc main_arg4)))) := by
  refine (W2_arr m ρ c 3).trans ((Enc1.final (V1 m ρ) c).trans ?_)
  show Enc1.G (W1 m ρ c (Proc.devRef .tc main_arg0)) (W1 m ρ c (Proc.devRef .tc main_arg3)) (W1 m ρ c (Proc.devRef .tc main_v9)) = _
  rw [keep_arg0_1_0 m ρ c, keep_arg3_1_0 m ρ c, HostReads.bias_enc1 m ρ c]
  exact congrArg (fun r => relu (affine _ _ r)) (row_of_vector _ _)

/-- The second encoder layer's output, of the first one's. -/
theorem enc2 : (W4 m ρ c (Proc.devRef .tc main_v12) : S50000x64.Idx → EReal)
    = relu (affine (A := 50000) (K := 128) (B := 64) (W2 m ρ c (Proc.devRef .tc main_v10)) (m ((c : Thread nD τ).loc main_arg5)) (vec (B := 64) (m ((c : Thread nD τ).loc main_arg6)))) := by
  refine (W4_arr m ρ c 3).trans ((Enc2.final (V3 m ρ) c).trans ?_)
  show Enc2.G (W3 m ρ c (Proc.devRef .tc main_v10)) (W3 m ρ c (Proc.devRef .tc main_arg5)) (W3 m ρ c (Proc.devRef .tc main_v11)) = _
  rw [keep_v10_3_2 m ρ c, keep_arg5_3_0 m ρ c, HostReads.bias_enc2 m ρ c]
  exact congrArg (fun r => relu (affine _ _ r)) (row_of_vector _ _)

/-- The first convolution's linear map: the row it is given is zeros, which add nothing. -/
theorem conv1_lin : (W6 m ρ c (Proc.devRef .tc main_v15) : S50000x64.Idx → EReal)
    = lin (A := 50000) (K := 64) (B := 64) (W4 m ρ c (Proc.devRef .tc main_v12)) (m ((c : Thread nD τ).loc main_arg7)) := by
  refine (W6_arr m ρ c 3).trans ((Conv1Lin.final (V5 m ρ) c).trans ?_)
  show Conv1Lin.G (W5 m ρ c (Proc.devRef .tc main_v12)) (W5 m ρ c (Proc.devRef .tc main_arg7)) (W5 m ρ c (Proc.devRef .tc main_v14)) = _
  rw [keep_v12_5_4 m ρ c, keep_arg7_5_0 m ρ c, HostReads.zeros_conv1 m ρ c]
  exact (congrArg (affine _ _) (row_of_zeros _ _)).trans (affine_zero _ _)

/-- The first round of message passing, over the edge list built from the arguments. -/
theorem round1 : W9 m ρ c (Proc.devRef .tc main_v53)
    = propagate (F := Ideal) (W6 m ρ c (Proc.devRef .tc main_v15)) (sources (F := Ideal) (m ((c : Thread nD τ).loc main_arg1))) (targets (F := Ideal) (m ((c : Thread nD τ).loc main_arg1))) (weights (F := Ideal) (m ((c : Thread nD τ).loc main_arg2))) := by
  rw [HostReads.round1 m ρ c, (HostReads.edges_round1 m ρ c).1, (HostReads.edges_round1 m ρ c).2.1, (HostReads.edges_round1 m ρ c).2.2]

/-- The first convolution's bias and rectifier. -/
theorem conv1_act : (W10 m ρ c (Proc.devRef .tc main_v55) : S50000x64.Idx → EReal)
    = relu (addRow (A := 50000) (B := 64) (W9 m ρ c (Proc.devRef .tc main_v53)) (vec (B := 64) (m ((c : Thread nD τ).loc main_arg8)))) := by
  refine (W10_arr m ρ c 2).trans ((Conv1Act.final (V9 m ρ) c).trans ?_)
  show Conv1Act.G (W9 m ρ c (Proc.devRef .tc main_v53)) (W9 m ρ c (Proc.devRef .tc main_v54)) = _
  rw [HostReads.bias_conv1 m ρ c]
  exact congrArg (fun r => relu (addRow _ r)) (row_of_vector _ _)

/-- The second convolution's linear map. -/
theorem conv2_lin : (W12 m ρ c (Proc.devRef .tc main_v58) : S50000x64.Idx → EReal)
    = lin (A := 50000) (K := 64) (B := 64) (W10 m ρ c (Proc.devRef .tc main_v55)) (m ((c : Thread nD τ).loc main_arg9)) := by
  refine (W12_arr m ρ c 3).trans ((Conv2Lin.final (V11 m ρ) c).trans ?_)
  show Conv2Lin.G (W11 m ρ c (Proc.devRef .tc main_v55)) (W11 m ρ c (Proc.devRef .tc main_arg9)) (W11 m ρ c (Proc.devRef .tc main_v57)) = _
  rw [keep_v55_11_10 m ρ c, keep_arg9_11_0 m ρ c, HostReads.zeros_conv2 m ρ c]
  exact (congrArg (affine _ _) (row_of_zeros _ _)).trans (affine_zero _ _)

/-- The second round of message passing. -/
theorem round2 : W15 m ρ c (Proc.devRef .tc main_v96)
    = propagate (F := Ideal) (W12 m ρ c (Proc.devRef .tc main_v58)) (sources (F := Ideal) (m ((c : Thread nD τ).loc main_arg1))) (targets (F := Ideal) (m ((c : Thread nD τ).loc main_arg1))) (weights (F := Ideal) (m ((c : Thread nD τ).loc main_arg2))) := by
  rw [HostReads.round2 m ρ c, (HostReads.edges_round2 m ρ c).1, (HostReads.edges_round2 m ρ c).2.1, (HostReads.edges_round2 m ρ c).2.2]

/-- The second convolution's bias and rectifier. -/
theorem conv2_act : (W16 m ρ c (Proc.devRef .tc main_v98) : S50000x64.Idx → EReal)
    = relu (addRow (A := 50000) (B := 64) (W15 m ρ c (Proc.devRef .tc main_v96)) (vec (B := 64) (m ((c : Thread nD τ).loc main_arg10)))) := by
  refine (W16_arr m ρ c 2).trans ((Conv2Act.final (V15 m ρ) c).trans ?_)
  show Conv2Act.G (W15 m ρ c (Proc.devRef .tc main_v96)) (W15 m ρ c (Proc.devRef .tc main_v97)) = _
  rw [HostReads.bias_conv2 m ρ c]
  exact congrArg (fun r => relu (addRow _ r)) (row_of_vector _ _)

/-- The first decoder layer's output. -/
theorem dec1 : (W18 m ρ c (Proc.devRef .tc main_v100) : S50000x128.Idx → EReal)
    = relu (affine (A := 50000) (K := 64) (B := 128) (W16 m ρ c (Proc.devRef .tc main_v98)) (m ((c : Thread nD τ).loc main_arg11)) (vec (B := 128) (m ((c : Thread nD τ).loc main_arg12)))) := by
  refine (W18_arr m ρ c 3).trans ((Dec1.final (V17 m ρ) c).trans ?_)
  show Dec1.G (W17 m ρ c (Proc.devRef .tc main_v98)) (W17 m ρ c (Proc.devRef .tc main_arg11)) (W17 m ρ c (Proc.devRef .tc main_v99)) = _
  rw [keep_v98_17_16 m ρ c, keep_arg11_17_0 m ρ c, HostReads.bias_dec1 m ρ c]
  exact congrArg (fun r => relu (affine _ _ r)) (row_of_vector _ _)

/-- The last layer's output: the program's result. -/
theorem dec2 : (W20 m ρ c (Proc.devRef .tc main_v102) : S50000x256.Idx → EReal)
    = sigmoid (affine (A := 50000) (K := 128) (B := 256) (W18 m ρ c (Proc.devRef .tc main_v100)) (m ((c : Thread nD τ).loc main_arg13)) (vec (B := 256) (m ((c : Thread nD τ).loc main_arg14)))) := by
  refine (W20_arr m ρ c 3).trans ((Dec2.final (V19 m ρ) c).trans ?_)
  show Dec2.G (W19 m ρ c (Proc.devRef .tc main_v100)) (W19 m ρ c (Proc.devRef .tc main_arg13)) (W19 m ρ c (Proc.devRef .tc main_v101)) = _
  rw [keep_v100_19_18 m ρ c, keep_arg13_19_0 m ρ c, HostReads.bias_dec2 m ρ c]
  exact congrArg (fun r => sigmoid (affine _ _ r)) (row_of_vector _ _)

/-- The program's result is the network of its arguments. -/
theorem result_eq : (W20 m ρ c (Proc.devRef .tc main_v102) : S50000x256.Idx → EReal)
    = autoencoder (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  rw [dec2 m ρ c, dec1 m ρ c, conv2_act m ρ c, round2 m ρ c, conv2_lin m ρ c, conv1_act m ρ c, round1 m ρ c,
    conv1_lin m ρ c, enc2 m ρ c, enc1 m ρ c]
  rfl

end Cert.KernelIdeal.Chain

end
-- ==== Proof.RefValue.lean ====
/-
  The reference program, layer by layer, is the network of Spec.lean.

  The reference is a straight line of host operations; its value is read one named stage at a time. A dense layer is a
  transpose of the weights, an ordinary matrix product, a bias broadcast in two steps, a sum and (where there is one) an
  activation: at every entry the same sum over k, in the same order, as the layer function. The logistic function is
  spelt 1 / (1 + exp (-x)), which is its definition. A round of message passing is, operation for operation, the
  function of Glue.lean, so there is nothing to compute: the stages unfold to it.
-/
import proofs.«129692_j34102040330339_1_alg».proof.Proof.Gen.ReferenceIdeal.Read
import proofs.«129692_j34102040330339_1_alg».proof.Proof.Spec

set_option maxRecDepth 16384

noncomputable section

namespace Cert.ReferenceIdeal.RefValue

open Cert.ReferenceIdeal Cert.ReferenceIdeal.Read Cert.GraphAE
open Idealize.ShloMosaic Idealize.ShloMosaic.ValueIdx

/-- The first encoder layer. -/
theorem enc1 (x0 : (⟨S50000x256, .f32⟩ : BufTy).Contents (Elt Ideal)) (x3 : (⟨S128x256, .f32⟩ : BufTy).Contents (Elt Ideal)) (x4 : (⟨S128, .f32⟩ : BufTy).Contents (Elt Ideal)) :
    val_main_v14 (F := Ideal) x0 x3 x4 = relu (affine x0 x3 (vec x4)) := by
  unfold val_main_v14 val_main_v13 val_main_v12 val_main_v11 val_main_v10 val_main_v9 val_main_call0_v0 val_main_call0_cst
  rw [host_relu_eq, host_addRow_eq, host_lin_eq (A := 50000) (K := 256) (B := 128) dot_S50000x256_S256x128_S50000x128_1_0_0_1_n_n rfl]
  rfl

/-- The second encoder layer, of the first one's output. -/
theorem enc2 (x0 : (⟨S50000x256, .f32⟩ : BufTy).Contents (Elt Ideal)) (x3 : (⟨S128x256, .f32⟩ : BufTy).Contents (Elt Ideal)) (x4 : (⟨S128, .f32⟩ : BufTy).Contents (Elt Ideal)) (x5 : (⟨S64x128, .f32⟩ : BufTy).Contents (Elt Ideal)) (x6 : (⟨S64, .f32⟩ : BufTy).Contents (Elt Ideal)) :
    val_main_v20 (F := Ideal) x0 x3 x4 x5 x6 = relu (affine (val_main_v14 (F := Ideal) x0 x3 x4) x5 (vec x6)) := by
  unfold val_main_v20 val_main_v19 val_main_v18 val_main_v17 val_main_v16 val_main_v15 val_main_call1_v0 val_main_call1_cst
  rw [host_relu_eq, host_addRow_eq, host_lin_eq (A := 50000) (K := 128) (B := 64) dot_S50000x128_S128x64_S50000x64_1_0_0_1_n_n rfl]
  rfl

/-- The first convolution's linear map. -/
theorem conv1_lin (x0 : (⟨S50000x256, .f32⟩ : BufTy).Contents (Elt Ideal)) (x3 : (⟨S128x256, .f32⟩ : BufTy).Contents (Elt Ideal)) (x4 : (⟨S128, .f32⟩ : BufTy).Contents (Elt Ideal)) (x5 : (⟨S64x128, .f32⟩ : BufTy).Contents (Elt Ideal)) (x6 : (⟨S64, .f32⟩ : BufTy).Contents (Elt Ideal)) (x7 : (⟨S64x64, .f32⟩ : BufTy).Contents (Elt Ideal)) :
    val_main_v22 (F := Ideal) x0 x3 x4 x5 x6 x7 = lin (val_main_v20 (F := Ideal) x0 x3 x4 x5 x6) x7 := by
  unfold val_main_v22 val_main_v21
  exact host_lin_eq (A := 50000) (K := 64) (B := 64) dot_S50000x64_S64x64_S50000x64_1_0_0_1_n_n rfl _ _ _

/-- The first round of message passing: the stages are the operations of `propagate`, in order. -/
theorem round1 (x0 : (⟨S50000x256, .f32⟩ : BufTy).Contents (Elt Ideal)) (x1 : (⟨S2x1600000, .i32⟩ : BufTy).Contents (Elt Ideal)) (x2 : (⟨S1600000, .f32⟩ : BufTy).Contents (Elt Ideal)) (x3 : (⟨S128x256, .f32⟩ : BufTy).Contents (Elt Ideal)) (x4 : (⟨S128, .f32⟩ : BufTy).Contents (Elt Ideal)) (x5 : (⟨S64x128, .f32⟩ : BufTy).Contents (Elt Ideal)) (x6 : (⟨S64, .f32⟩ : BufTy).Contents (Elt Ideal)) (x7 : (⟨S64x64, .f32⟩ : BufTy).Contents (Elt Ideal)) :
    val_main_v60 (F := Ideal) x0 x1 x2 x3 x4 x5 x6 x7 = Cert.KernelIdeal.Graph.propagate (F := Ideal) (val_main_v22 (F := Ideal) x0 x3 x4 x5 x6 x7)
      (Cert.KernelIdeal.Graph.sources x1) (Cert.KernelIdeal.Graph.targets x1) (Cert.KernelIdeal.Graph.weights x2) := by
  unfold val_main_v60 val_main_v59 val_main_v58 val_main_cst_9 val_main_v57 val_main_v56 val_main_v55 val_main_v54 val_main_v53 val_main_v52 val_main_v51 val_main_v50 val_main_c_8 val_main_v49 val_main_v48 val_main_c_7 val_main_v47 val_main_v46 val_main_v45 val_main_v44 val_main_v43 val_main_v42 val_main_c_6 val_main_v41 val_main_v40 val_main_c_5 val_main_v39 val_main_v38 val_main_v37 val_main_v36 val_main_v35 val_main_v34 val_main_c_4 val_main_v33 val_main_v32 val_main_c val_main_v31 val_main_call2_v1 val_main_call2_v0 val_main_cst_3 val_main_v30 val_main_v29 val_main_v28 val_main_cst_2 val_main_v27 val_main_v26 val_main_cst_1 val_main_v25 val_main_v24 val_main_v23 val_main_cst_0 val_main_v8 val_main_v7 val_main_cst val_main_v6 val_main_v5 val_main_v4 val_main_v3 val_main_v2 val_main_v1 val_main_v0
  rfl

/-- The first convolution's bias and rectifier. -/
theorem conv1_act (x0 : (⟨S50000x256, .f32⟩ : BufTy).Contents (Elt Ideal)) (x1 : (⟨S2x1600000, .i32⟩ : BufTy).Contents (Elt Ideal)) (x2 : (⟨S1600000, .f32⟩ : BufTy).Contents (Elt Ideal)) (x3 : (⟨S128x256, .f32⟩ : BufTy).Contents (Elt Ideal)) (x4 : (⟨S128, .f32⟩ : BufTy).Contents (Elt Ideal)) (x5 : (⟨S64x128, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) :
    val_main_v64 (F := Ideal) x0 x1 x2 x3 x4 x5 x6 x7 x8 = relu (addRow (val_main_v60 (F := Ideal) x0 x1 x2 x3 x4 x5 x6 x7) (vec x8)) := by
  unfold val_main_v64 val_main_v63 val_main_v62 val_main_v61 val_main_call3_v0 val_main_call3_cst
  rw [host_relu_eq, host_addRow_eq]
  rfl

/-- The second convolution's linear map. -/
theorem conv2_lin (x0 : (⟨S50000x256, .f32⟩ : BufTy).Contents (Elt Ideal)) (x1 : (⟨S2x1600000, .i32⟩ : BufTy).Contents (Elt Ideal)) (x2 : (⟨S1600000, .f32⟩ : BufTy).Contents (Elt Ideal)) (x3 : (⟨S128x256, .f32⟩ : BufTy).Contents (Elt Ideal)) (x4 : (⟨S128, .f32⟩ : BufTy).Contents (Elt Ideal)) (x5 : (⟨S64x128, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S64x64, .f32⟩ : BufTy).Contents (Elt Ideal)) :
    val_main_v66 (F := Ideal) x0 x1 x2 x3 x4 x5 x6 x7 x8 x9 = lin (val_main_v64 (F := Ideal) x0 x1 x2 x3 x4 x5 x6 x7 x8) x9 := by
  unfold val_main_v66 val_main_v65
  exact host_lin_eq (A := 50000) (K := 64) (B := 64) dot_S50000x64_S64x64_S50000x64_1_0_0_1_n_n rfl _ _ _

/-- The second round of message passing. -/
theorem round2 (x0 : (⟨S50000x256, .f32⟩ : BufTy).Contents (Elt Ideal)) (x1 : (⟨S2x1600000, .i32⟩ : BufTy).Contents (Elt Ideal)) (x2 : (⟨S1600000, .f32⟩ : BufTy).Contents (Elt Ideal)) (x3 : (⟨S128x256, .f32⟩ : BufTy).Contents (Elt Ideal)) (x4 : (⟨S128, .f32⟩ : BufTy).Contents (Elt Ideal)) (x5 : (⟨S64x128, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S64x64, .f32⟩ : BufTy).Contents (Elt Ideal)) :
    val_main_v104 (F := Ideal) x0 x1 x2 x3 x4 x5 x6 x7 x8 x9 = Cert.KernelIdeal.Graph.propagate (F := Ideal) (val_main_v66 (F := Ideal) x0 x1 x2 x3 x4 x5 x6 x7 x8 x9)
      (Cert.KernelIdeal.Graph.sources x1) (Cert.KernelIdeal.Graph.targets x1) (Cert.KernelIdeal.Graph.weights x2) := by
  unfold val_main_v104 val_main_v103 val_main_v102 val_main_cst_20 val_main_v101 val_main_v100 val_main_v99 val_main_v98 val_main_v97 val_main_v96 val_main_v95 val_main_v94 val_main_c_19 val_main_v93 val_main_v92 val_main_c_18 val_main_v91 val_main_v90 val_main_v89 val_main_v88 val_main_v87 val_main_v86 val_main_c_17 val_main_v85 val_main_v84 val_main_c_16 val_main_v83 val_main_v82 val_main_v81 val_main_v80 val_main_v79 val_main_v78 val_main_c_15 val_main_v77 val_main_v76 val_main_c_14 val_main_v75 val_main_call4_v1 val_main_call4_v0 val_main_cst_13 val_main_v74 val_main_v73 val_main_v72 val_main_cst_12 val_main_v71 val_main_v70 val_main_cst_11 val_main_v69 val_main_v68 val_main_v67 val_main_cst_10 val_main_v8 val_main_v7 val_main_cst val_main_v6 val_main_v5 val_main_v4 val_main_v3 val_main_v2 val_main_v1 val_main_v0
  rfl

/-- The second convolution's bias and rectifier. -/
theorem conv2_act (x0 : (⟨S50000x256, .f32⟩ : BufTy).Contents (Elt Ideal)) (x1 : (⟨S2x1600000, .i32⟩ : BufTy).Contents (Elt Ideal)) (x2 : (⟨S1600000, .f32⟩ : BufTy).Contents (Elt Ideal)) (x3 : (⟨S128x256, .f32⟩ : BufTy).Contents (Elt Ideal)) (x4 : (⟨S128, .f32⟩ : BufTy).Contents (Elt Ideal)) (x5 : (⟨S64x128, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S64x64, .f32⟩ : BufTy).Contents (Elt Ideal)) (x10 : (⟨S64, .f32⟩ : BufTy).Contents (Elt Ideal)) :
    val_main_v108 (F := Ideal) x0 x1 x2 x3 x4 x5 x6 x7 x8 x9 x10 = relu (addRow (val_main_v104 (F := Ideal) x0 x1 x2 x3 x4 x5 x6 x7 x8 x9) (vec x10)) := by
  unfold val_main_v108 val_main_v107 val_main_v106 val_main_v105 val_main_call5_v0 val_main_call5_cst
  rw [host_relu_eq, host_addRow_eq]
  rfl

/-- The first decoder layer. -/
theorem dec1 (x0 : (⟨S50000x256, .f32⟩ : BufTy).Contents (Elt Ideal)) (x1 : (⟨S2x1600000, .i32⟩ : BufTy).Contents (Elt Ideal)) (x2 : (⟨S1600000, .f32⟩ : BufTy).Contents (Elt Ideal)) (x3 : (⟨S128x256, .f32⟩ : BufTy).Contents (Elt Ideal)) (x4 : (⟨S128, .f32⟩ : BufTy).Contents (Elt Ideal)) (x5 : (⟨S64x128, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S64x64, .f32⟩ : BufTy).Contents (Elt Ideal)) (x10 : (⟨S64, .f32⟩ : BufTy).Contents (Elt Ideal)) (x11 : (⟨S128x64, .f32⟩ : BufTy).Contents (Elt Ideal)) (x12 : (⟨S128, .f32⟩ : BufTy).Contents (Elt Ideal)) :
    val_main_v114 (F := Ideal) x0 x1 x2 x3 x4 x5 x6 x7 x8 x9 x10 x11 x12 = relu (affine (val_main_v108 (F := Ideal) x0 x1 x2 x3 x4 x5 x6 x7 x8 x9 x10) x11 (vec x12)) := by
  unfold val_main_v114 val_main_v113 val_main_v112 val_main_v111 val_main_v110 val_main_v109 val_main_call6_v0 val_main_call6_cst
  rw [host_relu_eq, host_addRow_eq, host_lin_eq (A := 50000) (K := 64) (B := 128) dot_S50000x64_S64x128_S50000x128_1_0_0_1_n_n rfl]
  rfl

/-- The last layer, through the logistic function. -/
theorem dec2 (x0 : (⟨S50000x256, .f32⟩ : BufTy).Contents (Elt Ideal)) (x1 : (⟨S2x1600000, .i32⟩ : BufTy).Contents (Elt Ideal)) (x2 : (⟨S1600000, .f32⟩ : BufTy).Contents (Elt Ideal)) (x3 : (⟨S128x256, .f32⟩ : BufTy).Contents (Elt Ideal)) (x4 : (⟨S128, .f32⟩ : BufTy).Contents (Elt Ideal)) (x5 : (⟨S64x128, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S64x64, .f32⟩ : BufTy).Contents (Elt Ideal)) (x10 : (⟨S64, .f32⟩ : BufTy).Contents (Elt Ideal)) (x11 : (⟨S128x64, .f32⟩ : BufTy).Contents (Elt Ideal)) (x12 : (⟨S128, .f32⟩ : BufTy).Contents (Elt Ideal)) (x13 : (⟨S256x128, .f32⟩ : BufTy).Contents (Elt Ideal)) (x14 : (⟨S256, .f32⟩ : BufTy).Contents (Elt Ideal)) :
    val_main_v125 (F := Ideal) x0 x1 x2 x3 x4 x5 x6 x7 x8 x9 x10 x11 x12 x13 x14 = sigmoid (affine (val_main_v114 (F := Ideal) x0 x1 x2 x3 x4 x5 x6 x7 x8 x9 x10 x11 x12) x13 (vec x14)) := by
  unfold val_main_v125 val_main_v124 val_main_cst_22 val_main_v123 val_main_v122 val_main_cst_21 val_main_v121 val_main_v120 val_main_v119 val_main_v118 val_main_v117 val_main_v116 val_main_v115
  rw [host_sigmoid_eq, host_addRow_eq, host_lin_eq (A := 50000) (K := 128) (B := 256) dot_S50000x128_S128x256_S50000x256_1_0_0_1_n_n rfl]
  rfl

/-- The reference's result is the network of its arguments. -/
theorem result_eq (x0 : (⟨S50000x256, .f32⟩ : BufTy).Contents (Elt Ideal)) (x1 : (⟨S2x1600000, .i32⟩ : BufTy).Contents (Elt Ideal)) (x2 : (⟨S1600000, .f32⟩ : BufTy).Contents (Elt Ideal)) (x3 : (⟨S128x256, .f32⟩ : BufTy).Contents (Elt Ideal)) (x4 : (⟨S128, .f32⟩ : BufTy).Contents (Elt Ideal)) (x5 : (⟨S64x128, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S64x64, .f32⟩ : BufTy).Contents (Elt Ideal)) (x10 : (⟨S64, .f32⟩ : BufTy).Contents (Elt Ideal)) (x11 : (⟨S128x64, .f32⟩ : BufTy).Contents (Elt Ideal)) (x12 : (⟨S128, .f32⟩ : BufTy).Contents (Elt Ideal)) (x13 : (⟨S256x128, .f32⟩ : BufTy).Contents (Elt Ideal)) (x14 : (⟨S256, .f32⟩ : BufTy).Contents (Elt Ideal)) :
    val_main_v125 (F := Ideal) x0 x1 x2 x3 x4 x5 x6 x7 x8 x9 x10 x11 x12 x13 x14 = autoencoder x0 x1 x2 x3 x4 x5 x6 x7 x8 x9 x10 x11 x12 x13 x14 := by
  rw [dec2, dec1, conv2_act, round2, conv2_lin, conv1_act, round1, conv1_lin, enc2, enc1]
  rfl

end Cert.ReferenceIdeal.RefValue

end
-- ==== Proof.lean ====
/-
  A graph auto-encoder on 50000 nodes and 1600000 weighted edges: a kernel program against its reference.

  Both programs compute, from the node features x, the edge index, the edge weights and six layers' weights and biases,

      h₁ = relu (x W₁ᵀ + b₁),  h₂ = relu (h₁ W₂ᵀ + b₂),
      h₃ = relu (P (h₂ W₃ᵀ) + b₃),  h₄ = relu (P (h₃ W₄ᵀ) + b₄),
      h₅ = relu (h₄ W₅ᵀ + b₅),  out = 1 / (1 + exp (-(h₅ W₆ᵀ + b₆))),

  where P is one round of message passing over the edge list with a self-loop added at every node: every edge carries
  its source's row scaled by dinv(src) · w · dinv(dst), dinv = 1 / sqrt of the weighted in-degree (0 where that degree
  is 0), and every node sums what arrives. The kernel program runs the six dense maps and the two bias-and-rectifier
  steps as eight launches over tiles of 5000 node rows, in a narrower float format that is the identity on the
  extended reals, contracting against the weights' rows without forming a transpose; its two linear maps inside the
  convolutions add a row of zeros; its logistic function negates by 0 - x. The reference transposes the weights and
  multiplies on all rows at once. The message passing is the same list of host operations in both. Entry by entry
  the two results are the same sums in the same order, so they are equal on all extended reals, whatever the inputs:
  the precondition is not used for the values.

  The frames of the two kernel programs are the generated ones; the reference's is its generated run with the result
  dropped. Nothing was rewritten when the kernel program was idealized, so there is nothing to preserve.
-/
import proofs.«129692_j34102040330339_1_alg».proof.Defs
import proofs.«129692_j34102040330339_1_alg».proof.Proof.Gen.Kernel
import proofs.«129692_j34102040330339_1_alg».proof.Proof.Gen.Kernel.Skeleton
import proofs.«129692_j34102040330339_1_alg».proof.Proof.Gen.Kernel.Launch
import proofs.«129692_j34102040330339_1_alg».proof.Proof.Gen.Kernel.Points
import proofs.«129692_j34102040330339_1_alg».proof.Proof.Gen.Kernel.Frame
import proofs.«129692_j34102040330339_1_alg».proof.Proof.Gen.KernelIdeal
import proofs.«129692_j34102040330339_1_alg».proof.Proof.Gen.KernelIdeal.Skeleton
import proofs.«129692_j34102040330339_1_alg».proof.Proof.Gen.KernelIdeal.Launch
import proofs.«129692_j34102040330339_1_alg».proof.Proof.Gen.KernelIdeal.Points
import proofs.«129692_j34102040330339_1_alg».proof.Proof.Gen.KernelIdeal.Frame
import proofs.«129692_j34102040330339_1_alg».proof.Proof.Gen.ReferenceIdeal
import proofs.«129692_j34102040330339_1_alg».proof.Proof.Gen.Pre_finite_inputs
import proofs.«129692_j34102040330339_1_alg».proof.Proof.Gen.ReferenceIdeal.Run
import proofs.«129692_j34102040330339_1_alg».proof.Proof.Gen.ReferenceIdeal.Read
import proofs.«129692_j34102040330339_1_alg».proof.Proof.KernelRun
import proofs.«129692_j34102040330339_1_alg».proof.Proof.Chain
import proofs.«129692_j34102040330339_1_alg».proof.Proof.RefValue
import Idealize.ShloMosaic.Adequacy
import Idealize.ShloMosaic.Init

set_option maxRecDepth 16384

noncomputable section

namespace Cert.Proof

open Idealize.ShloMosaic Idealize.SL.Sem

/-- The kernel program as printed runs, and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs, and leaves its arguments as launched: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals both programs return the network of Spec.lean of the arguments they agree on. -/
theorem algebraic : Cert.algebraic_KernelIdeal_ReferenceIdeal := by
  intro m ρ m' ρ' _ hagree
  refine ⟨fun c => Cert.GraphAE.autoencoder
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14)), ?_, ?_⟩
  · exact (θ_run Cert.KernelIdeal.defs _ _).mono
      (fun r h c => ⟨(h c).1.trans (Cert.KernelIdeal.Chain.result_eq m ρ c), (h c).2⟩)
      (Cert.KernelIdeal.Whole.run_result m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11, h12, h13, h14⟩ := hagree c
    rw [Cert.ReferenceIdeal.Read.val_main_v125_eq, Cert.ReferenceIdeal.RefValue.result_eq,
      h0, h1, h2, h3, h4, h5, h6, h7, h8, h9, h10, h11, h12, h13, h14]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
